-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x300000 : Shape := ⟨2, ![2, 300000]⟩
abbrev S8000x64 : Shape := ⟨2, ![8000, 64]⟩
abbrev S4000x64 : Shape := ⟨2, ![4000, 64]⟩
abbrev S_ : Shape := ⟨0, ![]⟩

class Facts : Prop where
  bcast_S_S8000x64 : S_.BroadcastsInDim S8000x64 (![] : Fin 0 → Fin S8000x64.rank)
  reducesTo_S8000x64_S_d0_1 : S8000x64.ReducesTo [0, 1] S_
  h_S_ : 0 < S_.numel
  bcast_S_S4000x64 : S_.BroadcastsInDim S4000x64 (![] : Fin 0 → Fin S4000x64.rank)
  reducesTo_S4000x64_S_d0_1 : S4000x64.ReducesTo [0, 1] S_

variable [Facts]

def fn {F : FTy → Type} [FloatOps F] (main_arg0 : IVec S2x300000 32) (main_arg1 : FVec F S8000x64 .f32) (main_arg2 : FVec F S4000x64 .f32) : IVec S_ 1 :=
  let main_v0 : FVec F S8000x64 .f32 := Host.absf main_arg1
  let main_cst : FVec F S_ .f32 := constant S_ .f32 0x7F800000#32
  let main_v1 : FVec F S8000x64 .f32 := broadcastInDim S8000x64 ![] bcast_S_S8000x64 main_cst
  let main_v2 : IVec S8000x64 1 := cmpf .olt main_v0 main_v1
  let main_c : IVec S_ 1 := constantI S_ 1 1#1
  let main_v3 : IVec S_ 1 := (fun x v => Host.reduce IntOp.andi x v reducesTo_S8000x64_S_d0_1 h_S_) main_v2 main_c
  let main_v4 : FVec F S4000x64 .f32 := Host.absf main_arg2
  let main_cst_0 : FVec F S_ .f32 := constant S_ .f32 0x7F800000#32
  let main_v5 : FVec F S4000x64 .f32 := broadcastInDim S4000x64 ![] bcast_S_S4000x64 main_cst_0
  let main_v6 : IVec S4000x64 1 := cmpf .olt main_v4 main_v5
  let main_c_1 : IVec S_ 1 := constantI S_ 1 1#1
  let main_v7 : IVec S_ 1 := (fun x v => Host.reduce IntOp.andi x v reducesTo_S4000x64_S_d0_1 h_S_) main_v6 main_c_1
  let main_v8 : IVec S_ 1 := andi main_v3 main_v7
  main_v8
-- ==== Kernel.lean ====
abbrev S2x300000 : Shape := ⟨2, ![2, 300000]⟩
abbrev S8000x64 : Shape := ⟨2, ![8000, 64]⟩
abbrev S4000x64 : Shape := ⟨2, ![4000, 64]⟩
abbrev S_ : Shape := ⟨0, ![]⟩
abbrev S12000x12000 : Shape := ⟨2, ![12000, 12000]⟩
abbrev S1x300000 : Shape := ⟨2, ![1, 300000]⟩
abbrev S300000 : Shape := ⟨1, ![300000]⟩
abbrev S300000x1 : Shape := ⟨2, ![300000, 1]⟩
abbrev S300000x2 : Shape := ⟨2, ![300000, 2]⟩
abbrev S12000 : Shape := ⟨1, ![12000]⟩
abbrev S12000x1 : Shape := ⟨2, ![12000, 1]⟩
abbrev S12000x64 : Shape := ⟨2, ![12000, 64]⟩
abbrev S480x12000 : Shape := ⟨2, ![480, 12000]⟩
abbrev S480x1 : Shape := ⟨2, ![480, 1]⟩
abbrev S480x64 : Shape := ⟨2, ![480, 64]⟩

abbrev nBuf : Space → Nat
  | .hbm => 82
  | .vmem => 33
  | .smem => 0
  | _ => 0

abbrev bufTy : (tb : Table) → Fin (tcTables nBuf tb) → BufTy
  | .hbm, ⟨0, _⟩ => ⟨S2x300000, .i32⟩
  | .hbm, ⟨1, _⟩ => ⟨S8000x64, .f32⟩
  | .hbm, ⟨2, _⟩ => ⟨S4000x64, .f32⟩
  | .hbm, ⟨3, _⟩ => ⟨S_, .bf16⟩
  | .hbm, ⟨4, _⟩ => ⟨S12000x12000, .bf16⟩
  | .hbm, ⟨5, _⟩ => ⟨S1x300000, .i32⟩
  | .hbm, ⟨6, _⟩ => ⟨S300000, .i32⟩
  | .hbm, ⟨7, _⟩ => ⟨S1x300000, .i32⟩
  | .hbm, ⟨8, _⟩ => ⟨S300000, .i32⟩
  | .hbm, ⟨9, _⟩ => ⟨S_, .i32⟩
  | .hbm, ⟨10, _⟩ => ⟨S300000, .i32⟩
  | .hbm, ⟨11, _⟩ => ⟨S300000, .i1⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S300000, .i32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x1, .i32⟩
  | .hbm, ⟨25, _⟩ => ⟨S300000x2, .i32⟩
  | .hbm, ⟨26, _⟩ => ⟨S_, .bf16⟩
  | .hbm, ⟨27, _⟩ => ⟨S300000, .bf16⟩
  | .hbm, ⟨28, _⟩ => ⟨S12000x12000, .bf16⟩
  | .hbm, ⟨29, _⟩ => ⟨S1x300000, .i32⟩
  | .hbm, ⟨30, _⟩ => ⟨S300000, .i32⟩
  | .hbm, ⟨31, _⟩ => ⟨S1x300000, .i32⟩
  | .hbm, ⟨32, _⟩ => ⟨S300000, .i32⟩
  | .hbm, ⟨33, _⟩ => ⟨S_, .i32⟩
  | .hbm, ⟨34, _⟩ => ⟨S300000, .i32⟩
  | .hbm, ⟨35, _⟩ => ⟨S300000, .i1⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S300000, .i32⟩
  | .hbm, ⟨40, _⟩ => ⟨S_, .i32⟩
  | .hbm, ⟨41, _⟩ => ⟨S300000, .i32⟩
  | .hbm, ⟨42, _⟩ => ⟨S300000, .i1⟩
  | .hbm, ⟨43, _⟩ => ⟨S_, .i32⟩
  | .hbm, ⟨44, _⟩ => ⟨S300000, .i32⟩
  | .hbm, ⟨45, _⟩ => ⟨S300000, .i32⟩
  | .hbm, ⟨46, _⟩ => ⟨S300000, .i32⟩
  | .hbm, ⟨47, _⟩ => ⟨S300000x1, .i32⟩
  | .hbm, ⟨48, _⟩ => ⟨S300000x1, .i32⟩
  | .hbm, ⟨49, _⟩ => ⟨S300000x2, .i32⟩
  | .hbm, ⟨50, _⟩ => ⟨S_, .bf16⟩
  | .hbm, ⟨51, _⟩ => ⟨S300000, .bf16⟩
  | .hbm, ⟨52, _⟩ => ⟨S12000x12000, .bf16⟩
  | .hbm, ⟨53, _⟩ => ⟨S12000x12000, .f32⟩
  | .hbm, ⟨54, _⟩ => ⟨S_, .f32⟩
  | .hbm, ⟨55, _⟩ => ⟨S12000, .f32⟩
  | .hbm, ⟨56, _⟩ => ⟨S12000x1, .f32⟩
  | .hbm, ⟨57, _⟩ => ⟨S_, .f32⟩
  | .hbm, ⟨58, _⟩ => ⟨S12000x1, .f32⟩
  | .hbm, ⟨59, _⟩ => ⟨S12000x1, .f32⟩
  | .hbm, ⟨60, _⟩ => ⟨S12000x1, .f32⟩
  | .hbm, ⟨61, _⟩ => ⟨S12000x64, .f32⟩
  | .hbm, ⟨62, _⟩ => ⟨S12000x64, .f32⟩
  | .hbm, ⟨63, _⟩ => ⟨S12000x64, .f32⟩
  | .hbm, ⟨64, _⟩ => ⟨S12000x64, .bf16⟩
  | .hbm, ⟨65, _⟩ => ⟨S12000x64, .f32⟩
  | .hbm, ⟨66, _⟩ => ⟨S12000x64, .f32⟩
  | .hbm, ⟨67, _⟩ => ⟨S12000x64, .f32⟩
  | .hbm, ⟨68, _⟩ => ⟨S12000x64, .f32⟩
  | .hbm, ⟨69, _⟩ => ⟨S12000x64, .bf16⟩
  | .hbm, ⟨70, _⟩ => ⟨S12000x64, .f32⟩
  | .hbm, ⟨71, _⟩ => ⟨S12000x64, .f32⟩
  | .hbm, ⟨72, _⟩ => ⟨S12000x64, .f32⟩
  | .hbm, ⟨73, _⟩ => ⟨S12000x64, .f32⟩
  | .hbm, ⟨74, _⟩ => ⟨S12000x64, .bf16⟩
  | .hbm, ⟨75, _⟩ => ⟨S12000x64, .f32⟩
  | .hbm, ⟨76, _⟩ => ⟨S12000x64, .f32⟩
  | .hbm, ⟨77, _⟩ => ⟨S_, .f32⟩
  | .hbm, ⟨78, _⟩ => ⟨S12000x64, .f32⟩
  | .hbm, ⟨79, _⟩ => ⟨S12000x64, .f32⟩
  | .hbm, ⟨80, _⟩ => ⟨S8000x64, .f32⟩
  | .hbm, ⟨81, _⟩ => ⟨S4000x64, .f32⟩
  | .local _ .vmem, ⟨0, _⟩ => ⟨S480x12000, .bf16⟩
  | .local _ .vmem, ⟨1, _⟩ => ⟨S480x12000, .bf16⟩
  | .local _ .vmem, ⟨2, _⟩ => ⟨S12000x64, .bf16⟩
  | .local _ .vmem, ⟨3, _⟩ => ⟨S480x1, .f32⟩
  | .local _ .vmem, ⟨4, _⟩ => ⟨S480x1, .f32⟩
  | .local _ .vmem, ⟨5, _⟩ => ⟨S480x64, .f32⟩
  | .local _ .vmem, ⟨6, _⟩ => ⟨S480x64, .f32⟩
  | .local _ .vmem, ⟨7, _⟩ => ⟨S480x64, .f32⟩
  | .local _ .vmem, ⟨8, _⟩ => ⟨S480x64, .f32⟩
  | .local _ .vmem, ⟨9, _⟩ => ⟨S480x64, .f32⟩
  | .local _ .vmem, ⟨10, _⟩ => ⟨S480x64, .f32⟩
  | .local _ .vmem, ⟨11, _⟩ => ⟨S480x12000, .bf16⟩
  | .local _ .vmem, ⟨12, _⟩ => ⟨S480x12000, .bf16⟩
  | .local _ .vmem, ⟨13, _⟩ => ⟨S12000x64, .bf16⟩
  | .local _ .vmem, ⟨14, _⟩ => ⟨S480x1, .f32⟩
  | .local _ .vmem, ⟨15, _⟩ => ⟨S480x1, .f32⟩
  | .local _ .vmem, ⟨16, _⟩ => ⟨S480x64, .f32⟩
  | .local _ .vmem, ⟨17, _⟩ => ⟨S480x64, .f32⟩
  | .local _ .vmem, ⟨18, _⟩ => ⟨S480x64, .f32⟩
  | .local _ .vmem, ⟨19, _⟩ => ⟨S480x64, .f32⟩
  | .local _ .vmem, ⟨20, _⟩ => ⟨S480x64, .f32⟩
  | .local _ .vmem, ⟨21, _⟩ => ⟨S480x64, .f32⟩
  | .local _ .vmem, ⟨22, _⟩ => ⟨S480x12000, .bf16⟩
  | .local _ .vmem, ⟨23, _⟩ => ⟨S480x12000, .bf16⟩
  | .local _ .vmem, ⟨24, _⟩ => ⟨S12000x64, .bf16⟩
  | .local _ .vmem, ⟨25, _⟩ => ⟨S480x1, .f32⟩
  | .local _ .vmem, ⟨26, _⟩ => ⟨S480x1, .f32⟩
  | .local _ .vmem, ⟨27, _⟩ => ⟨S480x64, .f32⟩
  | .local _ .vmem, ⟨28, _⟩ => ⟨S480x64, .f32⟩
  | .local _ .vmem, ⟨29, _⟩ => ⟨S480x64, .f32⟩
  | .local _ .vmem, ⟨30, _⟩ => ⟨S480x64, .f32⟩
  | .local _ .vmem, ⟨31, _⟩ => ⟨S480x64, .f32⟩
  | .local _ .vmem, ⟨32, _⟩ => ⟨S480x64, .f32⟩
  | _, _ => ⟨S2x300000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c : Ref sig .tc := ⟨.hbm, 9, rfl⟩
abbrev main_call0_v5 : Ref sig .tc := ⟨.hbm, 10, rfl⟩
abbrev main_call0_v6 : Ref sig .tc := ⟨.hbm, 11, rfl⟩
abbrev main_call0_c_0 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_c_1 : Ref sig .tc := ⟨.hbm, 16, rfl⟩
abbrev main_call0_v10 : Ref sig .tc := ⟨.hbm, 17, rfl⟩
abbrev main_call0_v11 : Ref sig .tc := ⟨.hbm, 18, rfl⟩
abbrev main_call0_c_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_call0_cst_3 : Ref sig .tc := ⟨.hbm, 26, rfl⟩
abbrev main_call0_v18 : Ref sig .tc := ⟨.hbm, 27, rfl⟩
abbrev main_call0_v19 : Ref sig .tc := ⟨.hbm, 28, rfl⟩
abbrev main_call0_v20 : Ref sig .tc := ⟨.hbm, 29, rfl⟩
abbrev main_call0_v21 : Ref sig .tc := ⟨.hbm, 30, rfl⟩
abbrev main_call0_v22 : Ref sig .tc := ⟨.hbm, 31, rfl⟩
abbrev main_call0_v23 : Ref sig .tc := ⟨.hbm, 32, rfl⟩
abbrev main_call0_c_4 : Ref sig .tc := ⟨.hbm, 33, rfl⟩
abbrev main_call0_v24 : Ref sig .tc := ⟨.hbm, 34, rfl⟩
abbrev main_call0_v25 : Ref sig .tc := ⟨.hbm, 35, rfl⟩
abbrev main_call0_c_5 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_c_6 : Ref sig .tc := ⟨.hbm, 40, rfl⟩
abbrev main_call0_v29 : Ref sig .tc := ⟨.hbm, 41, rfl⟩
abbrev main_call0_v30 : Ref sig .tc := ⟨.hbm, 42, rfl⟩
abbrev main_call0_c_7 : Ref sig .tc := ⟨.hbm, 43, rfl⟩
abbrev main_call0_v31 : Ref sig .tc := ⟨.hbm, 44, rfl⟩
abbrev main_call0_v32 : Ref sig .tc := ⟨.hbm, 45, rfl⟩
abbrev main_call0_v33 : Ref sig .tc := ⟨.hbm, 46, rfl⟩
abbrev main_call0_v34 : Ref sig .tc := ⟨.hbm, 47, rfl⟩
abbrev main_call0_v35 : Ref sig .tc := ⟨.hbm, 48, rfl⟩
abbrev main_call0_v36 : Ref sig .tc := ⟨.hbm, 49, rfl⟩
abbrev main_call0_cst_8 : Ref sig .tc := ⟨.hbm, 50, rfl⟩
abbrev main_call0_v37 : Ref sig .tc := ⟨.hbm, 51, rfl⟩
abbrev main_call0_v38 : Ref sig .tc := ⟨.hbm, 52, rfl⟩
abbrev main_call0_v39 : Ref sig .tc := ⟨.hbm, 53, rfl⟩
abbrev main_call0_cst_9 : Ref sig .tc := ⟨.hbm, 54, rfl⟩
abbrev main_call0_v40 : Ref sig .tc := ⟨.hbm, 55, rfl⟩
abbrev main_call0_v41 : Ref sig .tc := ⟨.hbm, 56, rfl⟩
abbrev main_call0_cst_10 : Ref sig .tc := ⟨.hbm, 57, rfl⟩
abbrev main_call0_v42 : Ref sig .tc := ⟨.hbm, 58, rfl⟩
abbrev main_call0_v43 : Ref sig .tc := ⟨.hbm, 59, rfl⟩
abbrev main_call0_v44 : Ref sig .tc := ⟨.hbm, 60, rfl⟩
abbrev main_call0_v45 : Ref sig .tc := ⟨.hbm, 61, rfl⟩
abbrev main_call0_v46 : Ref sig .tc := ⟨.hbm, 62, rfl⟩
abbrev main_call0_v47 : Ref sig .tc := ⟨.hbm, 63, rfl⟩
abbrev main_call0_v48 : Ref sig .tc := ⟨.hbm, 64, rfl⟩
abbrev main_call0_v49_0 : Ref sig .tc := ⟨.hbm, 65, rfl⟩
abbrev main_call0_v49_1 : Ref sig .tc := ⟨.hbm, 66, rfl⟩
abbrev main_call0_v50 : Ref sig .tc := ⟨.hbm, 67, rfl⟩
abbrev main_call0_v51 : Ref sig .tc := ⟨.hbm, 68, rfl⟩
abbrev main_call0_v52 : Ref sig .tc := ⟨.hbm, 69, rfl⟩
abbrev main_call0_v53_0 : Ref sig .tc := ⟨.hbm, 70, rfl⟩
abbrev main_call0_v53_1 : Ref sig .tc := ⟨.hbm, 71, rfl⟩
abbrev main_call0_v54 : Ref sig .tc := ⟨.hbm, 72, rfl⟩
abbrev main_call0_v55 : Ref sig .tc := ⟨.hbm, 73, rfl⟩
abbrev main_call0_v56 : Ref sig .tc := ⟨.hbm, 74, rfl⟩
abbrev main_call0_v57_0 : Ref sig .tc := ⟨.hbm, 75, rfl⟩
abbrev main_call0_v57_1 : Ref sig .tc := ⟨.hbm, 76, rfl⟩
abbrev main_call0_cst_11 : Ref sig .tc := ⟨.hbm, 77, rfl⟩
abbrev main_call0_v58 : Ref sig .tc := ⟨.hbm, 78, rfl⟩
abbrev main_call0_v59 : Ref sig .tc := ⟨.hbm, 79, rfl⟩
abbrev main_v0_0 : Ref sig .tc := ⟨.hbm, 80, rfl⟩
abbrev main_v0_1 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg4_1 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc2_sem0_0 : DmaSem sig := 22
abbrev cc2_sem0_1 : DmaSem sig := 23
abbrev cc2_sem1_0 : DmaSem sig := 24
abbrev cc2_sem2_0 : DmaSem sig := 25
abbrev cc2_sem2_1 : DmaSem sig := 26
abbrev cc2_sem3_0 : DmaSem sig := 27
abbrev cc2_sem3_1 : DmaSem sig := 28
abbrev cc2_sem4_0 : DmaSem sig := 29
abbrev cc2_sem4_1 : DmaSem sig := 30
abbrev cc2_sem5_0 : DmaSem sig := 31
abbrev cc2_sem5_1 : DmaSem sig := 32

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S480x12000 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S12000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S480x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S480x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S480x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S480x12000 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12000x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S480x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S480x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S480x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S480x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S480x12000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S12000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S480x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S480x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S480x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S480x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S12000x12000 : S_.BroadcastsInDim S12000x12000 (![] : Fin 0 → Fin S12000x12000.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x1_S300000x1_S300000x2_d1 : Shape.Concatenates [S300000x1, S300000x1] S300000x2 1
  bitsLt_bf16_f32 : FTy.bits .bf16 < FTy.bits .f32
  reducesTo_S12000x12000_S12000_d1 : S12000x12000.ReducesTo [1] S12000
  h_S_ : 0 < S_.numel
  bcast_S12000_S12000x1_0 : S12000.BroadcastsInDim S12000x1 (![0] : Fin 1 → Fin S12000x1.rank)
  bcast_S_S12000x1 : S_.BroadcastsInDim S12000x1 (![] : Fin 0 → Fin S12000x1.rank)
  concatenates_S8000x64_S4000x64_S12000x64_d0 : Shape.Concatenates [S8000x64, S4000x64] S12000x64 0
  bcast_S12000x1_S12000x64_0_1 : S12000x1.BroadcastsInDim S12000x64 (![0, 1] : Fin 2 → Fin S12000x64.rank)
  bcast_S_S12000x64 : S_.BroadcastsInDim S12000x64 (![] : Fin 0 → Fin S12000x64.rank)
  slices_S12000x64_S8000x64_0_0 : S12000x64.Slices ![0, 0] S8000x64
  slices_S12000x64_S4000x64_8000_0 : S12000x64.Slices ![8000, 0] S4000x64
  inb_S480x12000_S480x12000_0_0 : ∀ a, (![0, 0] : Fin 2 → Nat) a + S480x12000.size a ≤ S480x12000.size a
  h_S480x12000 : 0 < S480x12000.numel
  shapeCasts_S480x12000_S480x12000 : S480x12000.ShapeCasts S480x12000
  inb_S12000x64_S12000x64_0_0 : ∀ a, (![0, 0] : Fin 2 → Nat) a + S12000x64.size a ≤ S12000x64.size a
  h_S12000x64 : 0 < S12000x64.numel
  shapeCasts_S12000x64_S12000x64 : S12000x64.ShapeCasts S12000x64
  inb_S480x1_S480x1_0_0 : ∀ a, (![0, 0] : Fin 2 → Nat) a + S480x1.size a ≤ S480x1.size a
  h_S480x1 : 0 < S480x1.numel
  shapeCasts_S480x1_S480x1 : S480x1.ShapeCasts S480x1
  broadcasts_S480x1_S480x64 : S480x1.Broadcasts S480x64
  inb_S480x64_S480x64_0_0 : ∀ a, (![0, 0] : Fin 2 → Nat) a + S480x64.size a ≤ S480x64.size a
  h_S480x64 : 0 < S480x64.numel
  shapeCasts_S480x64_S480x64 : S480x64.ShapeCasts S480x64
  scatter_S12000x12000_S300000x2_S300000_n_01_01_1_wf : ScatterDims.WF S12000x12000 S300000x2 S300000 [] [0, 1] [0, 1] 1
  dot_S480x12000_S12000x64_S480x64_1_0_0_1_n_n_wf : DotDims.WF S480x12000 S12000x64 S480x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S480x12000.size a ≤ S12000x12000.size a
  hwx0_0 : ∀ i : grid0.Coords, EltTy.bits .bf16 = 32 ∨ (Rect.block (s := S12000x12000) S480x12000.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S12000x64.size a ≤ S12000x64.size a
  hwx0_1 : ∀ i : grid0.Coords, EltTy.bits .bf16 = 32 ∨ (Rect.block (s := S12000x64) S12000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S480x1.size a ≤ S12000x1.size a
  hwx0_2 : ∀ i : grid0.Coords, EltTy.bits .f32 = 32 ∨ (Rect.block (s := S12000x1) S480x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S480x64.size a ≤ S12000x64.size a
  hwx0_3 : ∀ i : grid0.Coords, EltTy.bits .f32 = 32 ∨ (Rect.block (s := S12000x64) S480x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S480x64.size a ≤ S12000x64.size a
  hwx0_4 : ∀ i : grid0.Coords, EltTy.bits .f32 = 32 ∨ (Rect.block (s := S12000x64) S480x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S480x64.size a ≤ S12000x64.size a
  hwx0_5 : ∀ i : grid0.Coords, EltTy.bits .f32 = 32 ∨ (Rect.block (s := S12000x64) S480x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S480x12000.size a ≤ S12000x12000.size a
  hwx1_0 : ∀ i : grid1.Coords, EltTy.bits .bf16 = 32 ∨ (Rect.block (s := S12000x12000) S480x12000.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12000x64.size a ≤ S12000x64.size a
  hwx1_1 : ∀ i : grid1.Coords, EltTy.bits .bf16 = 32 ∨ (Rect.block (s := S12000x64) S12000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S480x1.size a ≤ S12000x1.size a
  hwx1_2 : ∀ i : grid1.Coords, EltTy.bits .f32 = 32 ∨ (Rect.block (s := S12000x1) S480x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S480x64.size a ≤ S12000x64.size a
  hwx1_3 : ∀ i : grid1.Coords, EltTy.bits .f32 = 32 ∨ (Rect.block (s := S12000x64) S480x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S480x64.size a ≤ S12000x64.size a
  hwx1_4 : ∀ i : grid1.Coords, EltTy.bits .f32 = 32 ∨ (Rect.block (s := S12000x64) S480x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S480x64.size a ≤ S12000x64.size a
  hwx1_5 : ∀ i : grid1.Coords, EltTy.bits .f32 = 32 ∨ (Rect.block (s := S12000x64) S480x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S480x12000.size a ≤ S12000x12000.size a
  hwx2_0 : ∀ i : grid2.Coords, EltTy.bits .bf16 = 32 ∨ (Rect.block (s := S12000x12000) S480x12000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S12000x64.size a ≤ S12000x64.size a
  hwx2_1 : ∀ i : grid2.Coords, EltTy.bits .bf16 = 32 ∨ (Rect.block (s := S12000x64) S12000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S480x1.size a ≤ S12000x1.size a
  hwx2_2 : ∀ i : grid2.Coords, EltTy.bits .f32 = 32 ∨ (Rect.block (s := S12000x1) S480x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S480x64.size a ≤ S12000x64.size a
  hwx2_3 : ∀ i : grid2.Coords, EltTy.bits .f32 = 32 ∨ (Rect.block (s := S12000x64) S480x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S480x64.size a ≤ S12000x64.size a
  hwx2_4 : ∀ i : grid2.Coords, EltTy.bits .f32 = 32 ∨ (Rect.block (s := S12000x64) S480x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S480x64.size a ≤ S12000x64.size a
  hwx2_5 : ∀ i : grid2.Coords, EltTy.bits .f32 = 32 ∨ (Rect.block (s := S12000x64) S480x64.size (cc2_transform_5 i) (hinb2_5 i)).WholeWords (EltTy.packing .f32)

variable [Facts₀]

def scatter_S12000x12000_S300000x2_S300000_n_01_01_1 : ScatterDims S12000x12000 S300000x2 S300000 where
  updateWindowDims := []
  insertedWindowDims := [0, 1]
  scatterDimsToOperandDims := [0, 1]
  indexVectorDim := 1
  wf := scatter_S12000x12000_S300000x2_S300000_n_01_01_1_wf
def dot_S480x12000_S12000x64_S480x64_1_0_0_1_n_n : DotDims S480x12000 S12000x64 S480x64 where
  lhsContracting := [1]
  rhsContracting := [0]
  lhsNonContracting := [0]
  rhsNonContracting := [1]
  lhsBatch := []
  rhsBatch := []
  wf := dot_S480x12000_S12000x64_S480x64_1_0_0_1_n_n_wf

abbrev win0_0 : Pipeline.Window sig grid0 :=
  Pipeline.Window.ofSpec (Memref.whole main_call0_v38) S480x12000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v48) S12000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v44) S480x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v45) S480x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v49_0) S480x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v49_1) S480x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v38) S480x12000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v52) S12000x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v44) S480x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v49_1) S480x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v53_0) S480x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_call0_v53_1) S480x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_call0_v38) S480x12000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v56) S12000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v44) S480x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v53_1) S480x64.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v57_0) S480x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_call0_v57_1) S480x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where
  halias0_5 : Pipeline.Aliased win0 3 5
  halias1_5 : Pipeline.Aliased win1 3 5
  halias2_5 : Pipeline.Aliased win2 3 5

variable [Facts]
-- ==== ReferenceIdeal.lean ====
abbrev S2x300000 : Shape := ⟨2, ![2, 300000]⟩
abbrev S8000x64 : Shape := ⟨2, ![8000, 64]⟩
abbrev S4000x64 : Shape := ⟨2, ![4000, 64]⟩
abbrev S_ : Shape := ⟨0, ![]⟩
abbrev S12000x12000 : Shape := ⟨2, ![12000, 12000]⟩
abbrev S1x300000 : Shape := ⟨2, ![1, 300000]⟩
abbrev S300000 : Shape := ⟨1, ![300000]⟩
abbrev S300000x1 : Shape := ⟨2, ![300000, 1]⟩
abbrev S300000x2 : Shape := ⟨2, ![300000, 2]⟩
abbrev S12000 : Shape := ⟨1, ![12000]⟩
abbrev S12000x1 : Shape := ⟨2, ![12000, 1]⟩
abbrev S1x12000 : Shape := ⟨2, ![1, 12000]⟩
abbrev S12000x64 : Shape := ⟨2, ![12000, 64]⟩

abbrev nBuf : Space → Nat
  | .hbm => 78
  | .vmem => 0
  | .smem => 0
  | _ => 0

abbrev bufTy : (tb : Table) → Fin (tcTables nBuf tb) → BufTy
  | .hbm, ⟨0, _⟩ => ⟨S2x300000, .i32⟩
  | .hbm, ⟨1, _⟩ => ⟨S8000x64, .f32⟩
  | .hbm, ⟨2, _⟩ => ⟨S4000x64, .f32⟩
  | .hbm, ⟨3, _⟩ => ⟨S_, .f32⟩
  | .hbm, ⟨4, _⟩ => ⟨S12000x12000, .f32⟩
  | .hbm, ⟨5, _⟩ => ⟨S1x300000, .i32⟩
  | .hbm, ⟨6, _⟩ => ⟨S300000, .i32⟩
  | .hbm, ⟨7, _⟩ => ⟨S1x300000, .i32⟩
  | .hbm, ⟨8, _⟩ => ⟨S300000, .i32⟩
  | .hbm, ⟨9, _⟩ => ⟨S_, .i32⟩
  | .hbm, ⟨10, _⟩ => ⟨S300000, .i32⟩
  | .hbm, ⟨11, _⟩ => ⟨S300000, .i1⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S300000, .i32⟩
  | .hbm, ⟨16, _⟩ => ⟨S_, .i32⟩
  | .hbm, ⟨17, _⟩ => ⟨S300000, .i32⟩
  | .hbm, ⟨18, _⟩ => ⟨S300000, .i1⟩
  | .hbm, ⟨19, _⟩ => ⟨S_, .i32⟩
  | .hbm, ⟨20, _⟩ => ⟨S300000, .i32⟩
  | .hbm, ⟨21, _⟩ => ⟨S300000, .i32⟩
  | .hbm, ⟨22, _⟩ => ⟨S300000, .i32⟩
  | .hbm, ⟨23, _⟩ => ⟨S300000x1, .i32⟩
  | .hbm, ⟨24, _⟩ => ⟨S300000x1, .i32⟩
  | .hbm, ⟨25, _⟩ => ⟨S300000x2, .i32⟩
  | .hbm, ⟨26, _⟩ => ⟨S_, .f32⟩
  | .hbm, ⟨27, _⟩ => ⟨S300000, .f32⟩
  | .hbm, ⟨28, _⟩ => ⟨S12000x12000, .f32⟩
  | .hbm, ⟨29, _⟩ => ⟨S1x300000, .i32⟩
  | .hbm, ⟨30, _⟩ => ⟨S300000, .i32⟩
  | .hbm, ⟨31, _⟩ => ⟨S1x300000, .i32⟩
  | .hbm, ⟨32, _⟩ => ⟨S300000, .i32⟩
  | .hbm, ⟨33, _⟩ => ⟨S_, .i32⟩
  | .hbm, ⟨34, _⟩ => ⟨S300000, .i32⟩
  | .hbm, ⟨35, _⟩ => ⟨S300000, .i1⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S300000, .i32⟩
  | .hbm, ⟨40, _⟩ => ⟨S_, .i32⟩
  | .hbm, ⟨41, _⟩ => ⟨S300000, .i32⟩
  | .hbm, ⟨42, _⟩ => ⟨S300000, .i1⟩
  | .hbm, ⟨43, _⟩ => ⟨S_, .i32⟩
  | .hbm, ⟨44, _⟩ => ⟨S300000, .i32⟩
  | .hbm, ⟨45, _⟩ => ⟨S300000, .i32⟩
  | .hbm, ⟨46, _⟩ => ⟨S300000, .i32⟩
  | .hbm, ⟨47, _⟩ => ⟨S300000x1, .i32⟩
  | .hbm, ⟨48, _⟩ => ⟨S300000x1, .i32⟩
  | .hbm, ⟨49, _⟩ => ⟨S300000x2, .i32⟩
  | .hbm, ⟨50, _⟩ => ⟨S_, .f32⟩
  | .hbm, ⟨51, _⟩ => ⟨S300000, .f32⟩
  | .hbm, ⟨52, _⟩ => ⟨S12000x12000, .f32⟩
  | .hbm, ⟨53, _⟩ => ⟨S_, .f32⟩
  | .hbm, ⟨54, _⟩ => ⟨S12000, .f32⟩
  | .hbm, ⟨55, _⟩ => ⟨S12000x1, .f32⟩
  | .hbm, ⟨56, _⟩ => ⟨S_, .f32⟩
  | .hbm, ⟨57, _⟩ => ⟨S_, .f32⟩
  | .hbm, ⟨58, _⟩ => ⟨S12000x1, .f32⟩
  | .hbm, ⟨59, _⟩ => ⟨S12000x1, .f32⟩
  | .hbm, ⟨60, _⟩ => ⟨S12000x1, .f32⟩
  | .hbm, ⟨61, _⟩ => ⟨S12000x12000, .f32⟩
  | .hbm, ⟨62, _⟩ => ⟨S12000x12000, .f32⟩
  | .hbm, ⟨63, _⟩ => ⟨S1x12000, .f32⟩
  | .hbm, ⟨64, _⟩ => ⟨S12000x12000, .f32⟩
  | .hbm, ⟨65, _⟩ => ⟨S12000x12000, .f32⟩
  | .hbm, ⟨66, _⟩ => ⟨S12000x64, .f32⟩
  | .hbm, ⟨67, _⟩ => ⟨S12000x64, .f32⟩
  | .hbm, ⟨68, _⟩ => ⟨S12000x64, .f32⟩
  | .hbm, ⟨69, _⟩ => ⟨S12000x64, .f32⟩
  | .hbm, ⟨70, _⟩ => ⟨S12000x64, .f32⟩
  | .hbm, ⟨71, _⟩ => ⟨S12000x64, .f32⟩
  | .hbm, ⟨72, _⟩ => ⟨S12000x64, .f32⟩
  | .hbm, ⟨73, _⟩ => ⟨S_, .f32⟩
  | .hbm, ⟨74, _⟩ => ⟨S12000x64, .f32⟩
  | .hbm, ⟨75, _⟩ => ⟨S12000x64, .f32⟩
  | .hbm, ⟨76, _⟩ => ⟨S8000x64, .f32⟩
  | .hbm, ⟨77, _⟩ => ⟨S4000x64, .f32⟩
  | _, _ => ⟨S2x300000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_4 : Ref sig .tc := ⟨.hbm, 33, rfl⟩
abbrev main_v24 : Ref sig .tc := ⟨.hbm, 34, rfl⟩
abbrev main_v25 : Ref sig .tc := ⟨.hbm, 35, rfl⟩
abbrev main_c_5 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_c_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_call0_v0 : Ref sig .tc := ⟨.hbm, 57, rfl⟩
abbrev main_call0_v1 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩

abbrev nD : Nat := 1
abbrev τ : Topo := Topo.v7x

variable {F : FTy → Type} [FloatOps F]

class Facts₀ : Prop where
  bcast_S_S12000x12000 : S_.BroadcastsInDim S12000x12000 (![] : Fin 0 → Fin S12000x12000.rank)
  slices_S2x300000_S1x300000_0_0 : S2x300000.Slices ![0, 0] S1x300000
  shapeCasts_S1x300000_S300000 : S1x300000.ShapeCasts S300000
  slices_S2x300000_S1x300000_1_0 : S2x300000.Slices ![1, 0] S1x300000
  bcast_S_S300000 : S_.BroadcastsInDim S300000 (![] : Fin 0 → Fin S300000.rank)
  bcast_S300000_S300000x1_0 : S300000.BroadcastsInDim S300000x1 (![0] : Fin 1 → Fin S300000x1.rank)
  concatenates_S300000x1_S300000x1_S300000x2_d1 : Shape.Concatenates [S300000x1, S300000x1] S300000x2 1
  reducesTo_S12000x12000_S12000_d1 : S12000x12000.ReducesTo [1] S12000
  h_S_ : 0 < S_.numel
  bcast_S12000_S12000x1_0 : S12000.BroadcastsInDim S12000x1 (![0] : Fin 1 → Fin S12000x1.rank)
  bcast_S_S12000x1 : S_.BroadcastsInDim S12000x1 (![] : Fin 0 → Fin S12000x1.rank)
  bcast_S12000x1_S12000x12000_0_1 : S12000x1.BroadcastsInDim S12000x12000 (![0, 1] : Fin 2 → Fin S12000x12000.rank)
  transposes_S12000x1_S1x12000_1_0 : S12000x1.Transposes [1, 0] S1x12000
  bcast_S1x12000_S12000x12000_0_1 : S1x12000.BroadcastsInDim S12000x12000 (![0, 1] : Fin 2 → Fin S12000x12000.rank)
  concatenates_S8000x64_S4000x64_S12000x64_d0 : Shape.Concatenates [S8000x64, S4000x64] S12000x64 0
  bcast_S_S12000x64 : S_.BroadcastsInDim S12000x64 (![] : Fin 0 → Fin S12000x64.rank)
  slices_S12000x64_S8000x64_0_0 : S12000x64.Slices ![0, 0] S8000x64
  slices_S12000x64_S4000x64_8000_0 : S12000x64.Slices ![8000, 0] S4000x64
  scatter_S12000x12000_S300000x2_S300000_n_01_01_1_wf : ScatterDims.WF S12000x12000 S300000x2 S300000 [] [0, 1] [0, 1] 1
  dot_S12000x12000_S12000x64_S12000x64_1_0_0_1_n_n_wf : DotDims.WF S12000x12000 S12000x64 S12000x64 [1] [0] [0] [1] [] []

variable [Facts₀]

def scatter_S12000x12000_S300000x2_S300000_n_01_01_1 : ScatterDims S12000x12000 S300000x2 S300000 where
  updateWindowDims := []
  insertedWindowDims := [0, 1]
  scatterDimsToOperandDims := [0, 1]
  indexVectorDim := 1
  wf := scatter_S12000x12000_S300000x2_S300000_n_01_01_1_wf
def dot_S12000x12000_S12000x64_S12000x64_1_0_0_1_n_n : DotDims S12000x12000 S12000x64 S12000x64 where
  lhsContracting := [1]
  rhsContracting := [0]
  lhsNonContracting := [0]
  rhsNonContracting := [1]
  lhsBatch := []
  rhsBatch := []
  wf := dot_S12000x12000_S12000x64_S12000x64_1_0_0_1_n_n_wf

class Facts : Prop extends Facts₀ where

variable [Facts]
-- ==== Proof.KernelRun.lean ====
/-
  The idealized kernel program's run with its two result arrays NAMED.

  The program is three kernel regions among four stretches of host operations. Its run is the launch over those seven
  segments; the thread state after the last segment holds every unscoped buffer at the last boundary's contents
  (`Gen.W7`: the host operations after the third region applied to what that region's write-backs leave), so a final
  state has each result buffer at `Gen.W7` of that buffer, and the three argument arrays as launched.
-/
import proofs.«147772_j36326833389965_2_alg».proof.Proof.Gen.KernelIdeal.Frame

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, with each result array at the last
    boundary's contents and the argument arrays as launched. -/
theorem run_values : θ_run defs (onTc (τ := τ) (main (F := F))) ⟨m, fun _ => 0, ρ⟩ (fun r => ∀ c : Dev nD,
      r.2.mem ((c.tc : Thread nD τ).loc main_v0_0) = W7 m ρ c (Proc.devRef .tc main_v0_0)
      ∧ r.2.mem ((c.tc : Thread nD τ).loc main_v0_1) = W7 m ρ c (Proc.devRef .tc main_v0_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v0_0 (by decide)),
       h c _ (mem_uc main_v0_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩)

end Cert.KernelIdeal.KernelRun

end
-- ==== Proof.KernelHost.lean ====
/-
  The host operations of the idealized kernel program, read off the fold of buffer contents through its segments.

  The program is: a first stretch of host operations (the dense adjacency by two scatters, its row sums clamped below
  by one and their reciprocal square roots as a column, the two embedding tables stacked, the stacked table's rows
  scaled by that column, and a copy of the stacked table for the running sum), then three times a kernel region followed
  by a short stretch (the region's new layer scaled by the column again, and a copy of the running sum), the last stretch
  dividing the running sum by four and cutting it into the two results. The contents at the seven boundaries are
  `Gen.W1 … Gen.W7`. Here: what each stretch writes, as a term over the contents before it; that a region leaves the
  arrays of its input windows as it found them; and the first stretch cut after its fiftieth operation, where the
  adjacency is complete (`Wa`), so that everything later is a term over the adjacency as one opaque array.
-/
import proofs.«147772_j36326833389965_2_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.HostFold

open Cert.KernelIdeal Cert.KernelIdeal.Gen
open Idealize.ShloMosaic Idealize.ShloMosaic.TcCoe Idealize.ShloMosaic.ValueIdx Idealize.ShloMosaic.StableHlo
open Idealize.ShloMosaic.Pipeline (Dat)
open Idealize.SL.Sem

/-- The fold over a concatenation is the fold over the second list from the fold over the first. -/
theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons a l ih => exact ih _

variable (m : (ℓ : Loc nD τ sig) → Buf (Elt Ideal) ℓ) (ρ : Dev nD → PrngReg) (c : Dev nD)

/-! ## The first stretch, cut where the adjacency is complete -/

/-- The contents after the first fifty host operations: the adjacency has been built, nothing else of the first
    stretch has run. -/
def Wa : Valuation τ sig (Elt Ideal) := StableHlo.after (List.take 50 (hostOps0 (F := Ideal))) (W0 m ρ c)

theorem W1_eq : W1 m ρ c = StableHlo.after (List.drop 50 (hostOps0 (F := Ideal))) (Wa m ρ c) := by
  unfold Wa
  exact (congrArg (fun l => StableHlo.after l (W0 m ρ c)) (List.take_append_drop 50 (hostOps0 (F := Ideal))).symm).trans
    (after_append _ _ _)

theorem W1_at (b : DevRef τ sig) :
    W1 m ρ c b = StableHlo.after (List.drop 50 (hostOps0 (F := Ideal))) (Wa m ρ c) b := congrFun (W1_eq m ρ c) b

/-- The rest of the first stretch does not write the adjacency. -/
theorem W1_v38 : @Eq (FVec Ideal S12000x12000 .bf16) (W1 m ρ c (Proc.devRef .tc main_call0_v38)) (Wa m ρ c (Proc.devRef .tc main_call0_v38)) :=
  (W1_at m ρ c (Proc.devRef .tc main_call0_v38)).trans (by
    simp only [hostOps0, List.drop_succ_cons, List.drop_zero]
    after_results <;> (try simp only [cast_eq]) <;> rfl)

/-- The reciprocal square roots of the clamped row sums, as a column. -/
theorem W1_v44 : @Eq (FVec Ideal S12000x1 .f32) (W1 m ρ c (Proc.devRef .tc main_call0_v44)) ((Host.rsqrt (maximumf (broadcastInDim S12000x1 ![0] bcast_S12000_S12000x1_0
        (Host.reduceAdd (extf .f32 (Wa m ρ c (Proc.devRef .tc main_call0_v38)) bitsLt_bf16_f32) (constant S_ .f32 0#32) reducesTo_S12000x12000_S12000_d1 h_S_))
        (broadcastInDim S12000x1 ![] bcast_S_S12000x1 (constant S_ .f32 1065353216#32))))) :=
  (W1_at m ρ c (Proc.devRef .tc main_call0_v44)).trans (by
    simp only [hostOps0, List.drop_succ_cons, List.drop_zero]
    after_results <;> (try simp only [cast_eq]) <;> rfl)

/-- The two embedding tables stacked. -/
theorem W1_v45 : @Eq (FVec Ideal S12000x64 .f32) (W1 m ρ c (Proc.devRef .tc main_call0_v45)) ((concatenate S12000x64 0 [⟨S8000x64, Wa m ρ c (Proc.devRef .tc main_arg1)⟩, ⟨S4000x64, Wa m ρ c (Proc.devRef .tc main_arg2)⟩] concatenates_S8000x64_S4000x64_S12000x64_d0)) :=
  (W1_at m ρ c (Proc.devRef .tc main_call0_v45)).trans (by
    simp only [hostOps0, List.drop_succ_cons, List.drop_zero]
    after_results <;> (try simp only [cast_eq]) <;> rfl)

/-- The stacked table's rows scaled by the column. -/
theorem W1_v48 : @Eq (FVec Ideal S12000x64 .bf16) (W1 m ρ c (Proc.devRef .tc main_call0_v48)) (truncf .bf16 (mulf (concatenate S12000x64 0 [⟨S8000x64, Wa m ρ c (Proc.devRef .tc main_arg1)⟩, ⟨S4000x64, Wa m ρ c (Proc.devRef .tc main_arg2)⟩] concatenates_S8000x64_S4000x64_S12000x64_d0)
        (broadcastInDim S12000x64 ![0, 1] bcast_S12000x1_S12000x64_0_1 (Host.rsqrt (maximumf (broadcastInDim S12000x1 ![0] bcast_S12000_S12000x1_0
        (Host.reduceAdd (extf .f32 (Wa m ρ c (Proc.devRef .tc main_call0_v38)) bitsLt_bf16_f32) (constant S_ .f32 0#32) reducesTo_S12000x12000_S12000_d1 h_S_))
        (broadcastInDim S12000x1 ![] bcast_S_S12000x1 (constant S_ .f32 1065353216#32)))))) bitsLt_bf16_f32) :=
  (W1_at m ρ c (Proc.devRef .tc main_call0_v48)).trans (by
    simp only [hostOps0, List.drop_succ_cons, List.drop_zero]
    after_results <;> (try simp only [cast_eq]) <;> rfl)

/-- The running sum starts as a copy of the stacked table. -/
theorem W1_v49_1 : @Eq (FVec Ideal S12000x64 .f32) (W1 m ρ c (Proc.devRef .tc main_call0_v49_1)) ((concatenate S12000x64 0 [⟨S8000x64, Wa m ρ c (Proc.devRef .tc main_arg1)⟩, ⟨S4000x64, Wa m ρ c (Proc.devRef .tc main_arg2)⟩] concatenates_S8000x64_S4000x64_S12000x64_d0)) :=
  (W1_at m ρ c (Proc.devRef .tc main_call0_v49_1)).trans (by
    simp only [hostOps0, List.drop_succ_cons, List.drop_zero]
    after_results <;> (try simp only [cast_eq]) <;> rfl)

end Cert.KernelIdeal.HostFold

end
-- ==== Proof.KernelStretches.lean ====
/-
  The idealized kernel program between its three pipelined regions: what the buffers hold at each boundary.

  The program runs a stretch of host operations, then a region, and so on, three regions in all; the contents at the
  boundaries are a fold `W0, W1, …, W7` from the launch contents. This file reads that fold at the buffers the later
  argument needs. Across a region, an array the region only reads through an input window is left as it was entered
  (an input window's array is never written back). Across each of the three short stretches of host operations, a
  buffer the stretch does not write is left as it was, and a buffer it writes holds its operation's function of the
  operand buffers: the next region's operand is the previous region's first output scaled row by row and rounded to the
  sixteen-bit format, the running sum is handed on unchanged, and at the end the running sum is divided by four and cut
  into its first 8000 and last 4000 rows.
-/
import proofs.«147772_j36326833389965_2_alg».proof.Proof.Gen.KernelIdeal.Frame
import Idealize.ShloMosaic.Lib.StableHlo.Run
import Idealize.ShloMosaic.Lib.Pipeline.Value
import Idealize.ShloMosaic.PureOps.Ideal

set_option maxRecDepth 16384

noncomputable section

namespace Cert.KernelIdeal.Stretches

open Cert.KernelIdeal Cert.KernelIdeal.Gen Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg) (c : Dev nD)

/-! ## Across a region: an input window's array is left as entered -/

/-- Region 0 leaves the array of an input window as it was entered. -/
theorem W2_in (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))

/-- Region 1 leaves the array of an input window as it was entered. -/
theorem W4_in (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin cfg1.N).trans (A_eq1 (V3 m ρ) c w))

/-- Region 2 leaves the array of an input window as it was entered. -/
theorem W6_in (w : Fin cfg2.W) (hin : (cfg2.win w).isOut = false) :
    W6 m ρ c (Proc.devRef .tc (Pipeline.arrRef spec2 w)) = W5 m ρ c (Proc.devRef .tc (Pipeline.arrRef spec2 w)) :=
  (W6_arr m ρ c w).trans (((dat2 (V5 m ρ) c).arrAt_in w hin cfg2.N).trans (A_eq2 (V5 m ρ) c w))

theorem W2_v38 : W2 m ρ c (Proc.devRef .tc main_call0_v38) = W1 m ρ c (Proc.devRef .tc main_call0_v38) :=
  W2_in m ρ c 0 rfl
theorem W2_v44 : W2 m ρ c (Proc.devRef .tc main_call0_v44) = W1 m ρ c (Proc.devRef .tc main_call0_v44) :=
  W2_in m ρ c 2 rfl

theorem W4_v38 : W4 m ρ c (Proc.devRef .tc main_call0_v38) = W3 m ρ c (Proc.devRef .tc main_call0_v38) :=
  W4_in m ρ c 0 rfl
theorem W4_v44 : W4 m ρ c (Proc.devRef .tc main_call0_v44) = W3 m ρ c (Proc.devRef .tc main_call0_v44) :=
  W4_in m ρ c 2 rfl
theorem W4_v49_1 : W4 m ρ c (Proc.devRef .tc main_call0_v49_1) = W3 m ρ c (Proc.devRef .tc main_call0_v49_1) :=
  W4_in m ρ c 3 rfl

theorem W6_v38 : W6 m ρ c (Proc.devRef .tc main_call0_v38) = W5 m ρ c (Proc.devRef .tc main_call0_v38) :=
  W6_in m ρ c 0 rfl
theorem W6_v44 : W6 m ρ c (Proc.devRef .tc main_call0_v44) = W5 m ρ c (Proc.devRef .tc main_call0_v44) :=
  W6_in m ρ c 2 rfl
theorem W6_v53_1 : W6 m ρ c (Proc.devRef .tc main_call0_v53_1) = W5 m ρ c (Proc.devRef .tc main_call0_v53_1) :=
  W6_in m ρ c 3 rfl

/-! ## The first stretch: scale the first output by the row factor, round it, hand the running sum on -/

theorem W3_v38 : W3 m ρ c (Proc.devRef .tc main_call0_v38) = W2 m ρ c (Proc.devRef .tc main_call0_v38) := by
  show StableHlo.after hostOps1 (W2 m ρ c) (Proc.devRef .tc main_call0_v38) = _
  after_results
theorem W3_v44 : W3 m ρ c (Proc.devRef .tc main_call0_v44) = W2 m ρ c (Proc.devRef .tc main_call0_v44) := by
  show StableHlo.after hostOps1 (W2 m ρ c) (Proc.devRef .tc main_call0_v44) = _
  after_results
theorem W3_v49_1 : W3 m ρ c (Proc.devRef .tc main_call0_v49_1) = W2 m ρ c (Proc.devRef .tc main_call0_v49_1) := by
  show StableHlo.after hostOps1 (W2 m ρ c) (Proc.devRef .tc main_call0_v49_1) = _
  after_results

theorem W3_v52 : @Eq (FVec Ideal S12000x64 .bf16) (W3 m ρ c (Proc.devRef .tc main_call0_v52))
    (truncf .bf16 (mulf (W2 m ρ c (Proc.devRef .tc main_call0_v49_0))
      (broadcastInDim S12000x64 ![0, 1] bcast_S12000x1_S12000x64_0_1 (W2 m ρ c (Proc.devRef .tc main_call0_v44)))) bitsLt_bf16_f32) := by
  show StableHlo.after hostOps1 (W2 m ρ c) (Proc.devRef .tc main_call0_v52) = _
  after_results <;> rfl

theorem W3_v53_1 : @Eq (FVec Ideal S12000x64 .f32) (W3 m ρ c (Proc.devRef .tc main_call0_v53_1))
    (W2 m ρ c (Proc.devRef .tc main_call0_v49_1)) := by
  show StableHlo.after hostOps1 (W2 m ρ c) (Proc.devRef .tc main_call0_v53_1) = _
  after_results <;> rfl

/-! ## The second stretch: the same operations one region later -/

theorem W5_v38 : W5 m ρ c (Proc.devRef .tc main_call0_v38) = W4 m ρ c (Proc.devRef .tc main_call0_v38) := by
  show StableHlo.after hostOps2 (W4 m ρ c) (Proc.devRef .tc main_call0_v38) = _
  after_results
theorem W5_v44 : W5 m ρ c (Proc.devRef .tc main_call0_v44) = W4 m ρ c (Proc.devRef .tc main_call0_v44) := by
  show StableHlo.after hostOps2 (W4 m ρ c) (Proc.devRef .tc main_call0_v44) = _
  after_results
theorem W5_v53_1 : W5 m ρ c (Proc.devRef .tc main_call0_v53_1) = W4 m ρ c (Proc.devRef .tc main_call0_v53_1) := by
  show StableHlo.after hostOps2 (W4 m ρ c) (Proc.devRef .tc main_call0_v53_1) = _
  after_results

theorem W5_v56 : @Eq (FVec Ideal S12000x64 .bf16) (W5 m ρ c (Proc.devRef .tc main_call0_v56))
    (truncf .bf16 (mulf (W4 m ρ c (Proc.devRef .tc main_call0_v53_0))
      (broadcastInDim S12000x64 ![0, 1] bcast_S12000x1_S12000x64_0_1 (W4 m ρ c (Proc.devRef .tc main_call0_v44)))) bitsLt_bf16_f32) := by
  show StableHlo.after hostOps2 (W4 m ρ c) (Proc.devRef .tc main_call0_v56) = _
  after_results <;> rfl

theorem W5_v57_1 : @Eq (FVec Ideal S12000x64 .f32) (W5 m ρ c (Proc.devRef .tc main_call0_v57_1))
    (W4 m ρ c (Proc.devRef .tc main_call0_v53_1)) := by
  show StableHlo.after hostOps2 (W4 m ρ c) (Proc.devRef .tc main_call0_v57_1) = _
  after_results <;> rfl

/-! ## The last stretch: divide the running sum by four and cut it into the two results -/

theorem W7_v59 : @Eq (FVec Ideal S12000x64 .f32) (W7 m ρ c (Proc.devRef .tc main_call0_v59))
    (Host.divf (W6 m ρ c (Proc.devRef .tc main_call0_v57_1))
      (broadcastInDim S12000x64 ![] bcast_S_S12000x64 (constant S_ .f32 0x40800000#32))) := by
  show StableHlo.after hostOps3 (W6 m ρ c) (Proc.devRef .tc main_call0_v59) = _
  after_results <;> rfl

theorem W7_out0 : @Eq (FVec Ideal S8000x64 .f32) (W7 m ρ c (Proc.devRef .tc main_v0_0))
    (extractStridedSlice S8000x64 ![0, 0] (Host.divf (W6 m ρ c (Proc.devRef .tc main_call0_v57_1))
      (broadcastInDim S12000x64 ![] bcast_S_S12000x64 (constant S_ .f32 0x40800000#32))) slices_S12000x64_S8000x64_0_0) := by
  show StableHlo.after hostOps3 (W6 m ρ c) (Proc.devRef .tc main_v0_0) = _
  after_results <;> rfl

theorem W7_out1 : @Eq (FVec Ideal S4000x64 .f32) (W7 m ρ c (Proc.devRef .tc main_v0_1))
    (extractStridedSlice S4000x64 ![8000, 0] (Host.divf (W6 m ρ c (Proc.devRef .tc main_call0_v57_1))
      (broadcastInDim S12000x64 ![] bcast_S_S12000x64 (constant S_ .f32 0x40800000#32))) slices_S12000x64_S4000x64_8000_0) := by
  show StableHlo.after hostOps3 (W6 m ρ c) (Proc.devRef .tc main_v0_1) = _
  after_results <;> rfl

end Cert.KernelIdeal.Stretches

end
-- ==== Proof.KernelPayload.lean ====
/-
  The two values one grid point of the propagation kernel stores, read at an index of the [480, 64] block.

  The point loads a [480, 12000] block `a` of the matrix, the whole [12000, 64] operand `x`, a [480, 1] column `s` and a
  [480, 64] block `u`. It stores `(a · x) * s` (the column spread along the 64 lanes) and `u + (a · x) * s`. At the exact
  extended reals the matrix product at row `p`, lane `q` is the sum over the 12000 shared positions of `a p k * x k q`.
  The three regions run the same body, so the same two statements are given three times.
-/
import proofs.«147772_j36326833389965_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.RegionValue

open Cert.KernelIdeal Idealize.ShloMosaic Idealize.ShloMosaic.ValueIdx

/-- The block product's dimension numbers: the left operand's axis 1 against the right operand's axis 0. -/
abbrev blockDot : DotDims S480x12000 S12000x64 S480x64 := dot_S480x12000_S12000x64_S480x64_1_0_0_1_n_n

/-- The block product onto a zero accumulator, at row `p` and lane `q`: the sum over the shared axis. -/
theorem matmul_block_apply (a : FVec Ideal S480x12000 .bf16) (x : FVec Ideal S12000x64 .bf16) (p : Fin 480) (q : Fin 64) :
    matmul blockDot none a x (constant (F := Ideal) S480x64 .f32 0x00000000#32) (ix2 p q)
      = ∑ k : Fin 12000, a (ix2 p k) * x (ix2 k q) := by
  simp only [matmul]
  rw [Ideal.matmul_constant_zero_apply, ← Equiv.sum_comp (contrEquiv1 blockDot 12000 rfl rfl).symm]
  refine Finset.sum_congr rfl fun k _ => ?_
  have hk := contrEquiv1_symm_val blockDot 12000 rfl rfl k
  have el : blockDot.lhsIdx (ix2 p q) ((contrEquiv1 blockDot 12000 rfl rfl).symm k) = ix2 p k :=
    funext fun d => Fin.ext (by
      match d with
      | ⟨0, _⟩ =>
        show (blockDot.lhsIdx (ix2 p q) _ 0).val = p.val
        unfold DotDims.lhsIdx
        rw [dif_neg (show ¬(0 : Fin S480x12000.rank) ∈ blockDot.lhsBatch by decide),
          dif_pos (show (0 : Fin S480x12000.rank) ∈ blockDot.lhsNonContracting by decide)]
        rfl
      | ⟨1, _⟩ => exact (blockDot.lhsIdx_val_of_single rfl _ _).trans hk)
  have er : blockDot.rhsIdx (ix2 p q) ((contrEquiv1 blockDot 12000 rfl rfl).symm k) = ix2 k q :=
    funext fun d => Fin.ext (by
      match d with
      | ⟨0, _⟩ => exact (blockDot.rhsIdx_val_of_single rfl _ _).trans hk
      | ⟨1, _⟩ =>
        show (blockDot.rhsIdx (ix2 p q) _ 1).val = q.val
        unfold DotDims.rhsIdx
        rw [dif_neg (show ¬(1 : Fin S12000x64.rank) ∈ blockDot.rhsBatch by decide),
          dif_pos (show (1 : Fin S12000x64.rank) ∈ blockDot.rhsNonContracting by decide)]
        rfl)
  rw [el, er]

/-- A [480, 1] column spread along the 64 lanes reads, at row `p` and any lane, the column's entry `p`. -/
theorem column_along_lanes {α : Type} (s : S480x1.Idx → α) (h : S480x1.Broadcasts S480x64) (p : Fin 480) (q : Fin 64) :
    broadcastTo S480x64 s h (ix2 p q) = s (ix2 p 0) := by
  refine broadcastTo_apply s h (ix2 p q) (ix2 p 0) fun d => ?_
  match d with
  | ⟨0, _⟩ => rfl
  | ⟨1, _⟩ => rfl

/-! ## Region 0 -/

/-- The first stored value of region 0 at row `p`, lane `q`: row `p` of the left block times column `q` of the right
    array, summed over the 12000 shared positions, times entry `p` of the column. -/
theorem pay1_apply (v0 : Vec Ideal S480x12000 .bf16) (v2 : Vec Ideal S12000x64 .bf16) (v5 : Vec Ideal S480x1 .f32)
    (p : Fin 480) (q : Fin 64) :
    Gen.k0_pay1 (F := Ideal) v0 v2 v5 (ix2 p q) = (∑ k : Fin 12000, v0 (ix2 p k) * v2 (ix2 k q)) * v5 (ix2 p 0) := by
  unfold Gen.k0_pay1
  simp only [shapeCast_self]
  rw [mulf_apply, matmul_block_apply, column_along_lanes]

/-- The second stored value of region 0 at row `p`, lane `q`: the fourth block's entry plus the first stored value. -/
theorem pay2_apply (v0 : Vec Ideal S480x12000 .bf16) (v2 : Vec Ideal S12000x64 .bf16) (v5 : Vec Ideal S480x1 .f32)
    (v10 : Vec Ideal S480x64 .f32) (p : Fin 480) (q : Fin 64) :
    Gen.k0_pay2 (F := Ideal) v0 v2 v5 v10 (ix2 p q)
      = v10 (ix2 p q) + (∑ k : Fin 12000, v0 (ix2 p k) * v2 (ix2 k q)) * v5 (ix2 p 0) := by
  unfold Gen.k0_pay2
  simp only [shapeCast_self]
  rw [addf_apply, pay1_apply]

/-! ## Region 1 -/

/-- The first stored value of region 1 at row `p`, lane `q`: row `p` of the left block times column `q` of the right
    array, summed over the 12000 shared positions, times entry `p` of the column. -/
theorem pay1_apply_1 (v0 : Vec Ideal S480x12000 .bf16) (v2 : Vec Ideal S12000x64 .bf16) (v5 : Vec Ideal S480x1 .f32)
    (p : Fin 480) (q : Fin 64) :
    Gen.k1_pay1 (F := Ideal) v0 v2 v5 (ix2 p q) = (∑ k : Fin 12000, v0 (ix2 p k) * v2 (ix2 k q)) * v5 (ix2 p 0) := by
  unfold Gen.k1_pay1
  simp only [shapeCast_self]
  rw [mulf_apply, matmul_block_apply, column_along_lanes]

/-- The second stored value of region 1 at row `p`, lane `q`: the fourth block's entry plus the first stored value. -/
theorem pay2_apply_1 (v0 : Vec Ideal S480x12000 .bf16) (v2 : Vec Ideal S12000x64 .bf16) (v5 : Vec Ideal S480x1 .f32)
    (v10 : Vec Ideal S480x64 .f32) (p : Fin 480) (q : Fin 64) :
    Gen.k1_pay2 (F := Ideal) v0 v2 v5 v10 (ix2 p q)
      = v10 (ix2 p q) + (∑ k : Fin 12000, v0 (ix2 p k) * v2 (ix2 k q)) * v5 (ix2 p 0) := by
  unfold Gen.k1_pay2
  simp only [shapeCast_self]
  rw [addf_apply, pay1_apply_1]

/-! ## Region 2 -/

/-- The first stored value of region 2 at row `p`, lane `q`: row `p` of the left block times column `q` of the right
    array, summed over the 12000 shared positions, times entry `p` of the column. -/
theorem pay1_apply_2 (v0 : Vec Ideal S480x12000 .bf16) (v2 : Vec Ideal S12000x64 .bf16) (v5 : Vec Ideal S480x1 .f32)
    (p : Fin 480) (q : Fin 64) :
    Gen.k2_pay1 (F := Ideal) v0 v2 v5 (ix2 p q) = (∑ k : Fin 12000, v0 (ix2 p k) * v2 (ix2 k q)) * v5 (ix2 p 0) := by
  unfold Gen.k2_pay1
  simp only [shapeCast_self]
  rw [mulf_apply, matmul_block_apply, column_along_lanes]

/-- The second stored value of region 2 at row `p`, lane `q`: the fourth block's entry plus the first stored value. -/
theorem pay2_apply_2 (v0 : Vec Ideal S480x12000 .bf16) (v2 : Vec Ideal S12000x64 .bf16) (v5 : Vec Ideal S480x1 .f32)
    (v10 : Vec Ideal S480x64 .f32) (p : Fin 480) (q : Fin 64) :
    Gen.k2_pay2 (F := Ideal) v0 v2 v5 v10 (ix2 p q)
      = v10 (ix2 p q) + (∑ k : Fin 12000, v0 (ix2 p k) * v2 (ix2 k q)) * v5 (ix2 p 0) := by
  unfold Gen.k2_pay2
  simp only [shapeCast_self]
  rw [addf_apply, pay1_apply_2]

end Cert.KernelIdeal.RegionValue

end
-- ==== Proof.KernelRegions.lean ====
/-
  The three propagation regions as functions of whole arrays.

  Each region runs the same body over 25 grid points. Point `t` loads rows `480 t … 480 t + 479` of the [12000, 12000]
  matrix `A`, the whole [12000, 64] operand `X`, the same rows of the [12000, 1] column `s` and of the [12000, 64] running
  total `U`, and writes the same rows of two [12000, 64] outputs: `(A · X) * s` and `U + (A · X) * s`. The row blocks
  tile the arrays, so after the 25 points the first output is `i q ↦ (∑ k, A i k * X k q) * s i 0` everywhere and the
  second is `U` plus that, whatever the region's arrays held when it was entered.
-/
import proofs.«147772_j36326833389965_2_alg».proof.Proof.Gen.KernelIdeal.Frame
import proofs.«147772_j36326833389965_2_alg».proof.Proof.KernelPayload
import Idealize.ShloMosaic.Lib.Pipeline.Value
import Idealize.ShloMosaic.Lib.Tactic

set_option maxRecDepth 16384

noncomputable section

open scoped BigOperators

namespace Cert.KernelIdeal.RegionValue

open Cert.KernelIdeal Idealize.ShloMosaic Idealize.ShloMosaic.TcCoe Idealize.ShloMosaic.ValueIdx Idealize.SL.Sem
open Idealize.ShloMosaic.Pipeline (Dat)

/-- The origin of a rank-2 block. -/
theorem origin : (![0, 0] : Fin 2 → Nat) = fun _ => 0 := funext fun a => by fin_cases a <;> rfl

/-- One step at row `i`, lane `q`: row `i` of `A` against column `q` of `X`, times entry `i` of the column `s`. -/
def stepAt (A : S12000x12000.Idx → EReal) (X : S12000x64.Idx → EReal) (s : S12000x1.Idx → EReal) (i : Fin 12000) (q : Fin 64) : EReal :=
  (∑ k : Fin 12000, A (ix2 i k) * X (ix2 k q)) * s (ix2 i 0)

/-- One step as a [12000, 64] array. -/
def stepArr (A : S12000x12000.Idx → EReal) (X : S12000x64.Idx → EReal) (s : S12000x1.Idx → EReal) : S12000x64.Idx → EReal :=
  fun j => stepAt A X s ⟨(j 0).val, (j 0).isLt⟩ ⟨(j 1).val, (j 1).isLt⟩

/-- The step array at an index whose coordinates are `i` and `q`. -/
theorem stepArr_apply_of (A : S12000x12000.Idx → EReal) (X : S12000x64.Idx → EReal) (s : S12000x1.Idx → EReal)
    (j : S12000x64.Idx) (i : Fin 12000) (q : Fin 64) (h0 : (j 0).val = i.val) (h1 : (j 1).val = q.val) :
    stepArr A X s j = stepAt A X s i q := by
  have e : j = ix2 i q := funext fun a => Fin.ext (by
    match a with
    | ⟨0, _⟩ => exact h0
    | ⟨1, _⟩ => exact h1)
  rw [e]
  rfl

/-- The point's product term is one step of the whole arrays at row `i`, once the three loaded blocks are known to be
    row `i` of the matrix, the whole operand, and entry `i` of the column. -/
theorem product_of_rows (A : S12000x12000.Idx → EReal) (X : S12000x64.Idx → EReal) (s : S12000x1.Idx → EReal)
    (x0 : Vec Ideal S480x12000 .bf16) (x1 : Vec Ideal S12000x64 .bf16) (x2 : Vec Ideal S480x1 .f32)
    (p : Fin 480) (q : Fin 64) (i : Fin 12000)
    (h0 : ∀ k : Fin 12000, x0 (ix2 p k) = A (ix2 i k)) (h1 : ∀ k : Fin 12000, x1 (ix2 k q) = X (ix2 k q))
    (h2 : x2 (ix2 p 0) = s (ix2 i 0)) :
    (∑ k : Fin 12000, x0 (ix2 p k) * x1 (ix2 k q)) * x2 (ix2 p 0) = stepAt A X s i q := by
  unfold stepAt
  rw [h2]
  exact congrArg (· * s (ix2 i 0)) (Finset.sum_congr rfl fun k _ => by rw [h0 k, h1 k])

/-- Equal summands give equal sums. -/
theorem sum_both {a a' b b' : EReal} (h1 : a = a') (h2 : b = b') : a + b = a' + b' := by rw [h1, h2]

/-- The running total plus one step, as a [12000, 64] array. -/
def accArr (A : S12000x12000.Idx → EReal) (X : S12000x64.Idx → EReal) (s : S12000x1.Idx → EReal) (U : S12000x64.Idx → EReal) :
    S12000x64.Idx → EReal :=
  fun j => U j + stepArr A X s j

section
variable (V : (c : Dev nD) → (b : Ref sig .tc) → Buf (Elt Ideal) ((c : Thread nD τ).loc b))

/-! ## Region 0 -/

/-- The arrays region 0 reads, as the region finds them: the matrix, the multiplied operand, the scaling column and
    the running total. -/
abbrev mat0 (c : Dev nD) : S12000x12000.Idx → EReal := V c (Pipeline.arrRef spec0 0)
abbrev opd0 (c : Dev nD) : S12000x64.Idx → EReal := V c (Pipeline.arrRef spec0 1)
abbrev col0 (c : Dev nD) : S12000x1.Idx → EReal := V c (Pipeline.arrRef spec0 2)
abbrev tot0 (c : Dev nD) : S12000x64.Idx → EReal := V c (Pipeline.arrRef spec0 3)

/-- The index maps of region 0, decided over its 25 points: windows 0, 2, 3, 4, 5 are at row block `t` and column
    block 0 at point `t`; window 1 is at block (0, 0) at every point. -/
theorem index_facts0 : ∀ t : Fin cfg0.N, t.val < 25
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The block of the matrix at point `t` is its rows `480 t … 480 t + 479`, all columns. -/
theorem block0_0_apply (c : Dev nD) (t : Fin cfg0.N) (x : S480x12000.Idx) (k : S12000x12000.Idx)
    (hk0 : (k 0).val = 480 * t.val + (x 0).val) (hk1 : (k 1).val = (x 1).val) :
    (Gen.iblk0 V c 0 t : Vec Ideal S480x12000 .bf16) x = (V c (Pipeline.arrRef spec0 0) : S12000x12000.Idx → EReal) k := by
  obtain ⟨-, e0, e1, -⟩ := index_facts0 t
  unfold Gen.iblk0
  rw [View.read_apply]
  show V c (Pipeline.arrRef spec0 0) _ = V c (Pipeline.arrRef spec0 0) _
  congr 1
  funext a
  apply Fin.ext
  match a with
  | ⟨0, _⟩ => show win0_0.index t 0 * 480 + 1 * (x 0).val = (k 0).val; rw [e0, hk0]; omega
  | ⟨1, _⟩ => show win0_0.index t 1 * 12000 + 1 * (x 1).val = (k 1).val; rw [e1, hk1]; omega

/-- The block of the multiplied array is the whole array at every point. -/
theorem block0_1_apply (c : Dev nD) (t : Fin cfg0.N) (x : S12000x64.Idx) :
    (Gen.iblk0 V c 1 t : Vec Ideal S12000x64 .bf16) x = (V c (Pipeline.arrRef spec0 1) : S12000x64.Idx → EReal) x := by
  obtain ⟨-, -, -, e0, e1, -⟩ := index_facts0 t
  unfold Gen.iblk0
  rw [View.read_apply]
  show V c (Pipeline.arrRef spec0 1) _ = V c (Pipeline.arrRef spec0 1) _
  congr 1
  funext a
  apply Fin.ext
  match a with
  | ⟨0, _⟩ => show win0_1.index t 0 * 12000 + 1 * (x 0).val = (x 0).val; rw [e0]; omega
  | ⟨1, _⟩ => show win0_1.index t 1 * 64 + 1 * (x 1).val = (x 1).val; rw [e1]; omega

/-- The block of the column at point `t` is its entries `480 t … 480 t + 479`. -/
theorem block0_2_apply (c : Dev nD) (t : Fin cfg0.N) (x : S480x1.Idx) (k : S12000x1.Idx)
    (hk0 : (k 0).val = 480 * t.val + (x 0).val) :
    (Gen.iblk0 V c 2 t : Vec Ideal S480x1 .f32) x = (V c (Pipeline.arrRef spec0 2) : S12000x1.Idx → EReal) k := by
  obtain ⟨-, -, -, -, -, e0, e1, -⟩ := index_facts0 t
  unfold Gen.iblk0
  rw [View.read_apply]
  show V c (Pipeline.arrRef spec0 2) _ = V c (Pipeline.arrRef spec0 2) _
  congr 1
  funext a
  apply Fin.ext
  match a with
  | ⟨0, _⟩ => show win0_2.index t 0 * 480 + 1 * (x 0).val = (k 0).val; rw [e0, hk0]; omega
  | ⟨1, _⟩ =>
    show win0_2.index t 1 * 1 + 1 * (x 1).val = (k 1).val
    have h1 : (x 1).val < 1 := (x 1).isLt
    have h2 : (k 1).val < 1 := (k 1).isLt
    rw [e1]; omega

/-- The block of the running total at point `t` is its rows `480 t … 480 t + 479`, all 64 lanes. -/
theorem block0_3_apply (c : Dev nD) (t : Fin cfg0.N) (x : S480x64.Idx) (k : S12000x64.Idx)
    (hk0 : (k 0).val = 480 * t.val + (x 0).val) (hk1 : (k 1).val = (x 1).val) :
    (Gen.iblk0 V c 3 t : Vec Ideal S480x64 .f32) x = (V c (Pipeline.arrRef spec0 3) : S12000x64.Idx → EReal) k := by
  obtain ⟨-, -, -, -, -, -, -, e0, e1, -⟩ := index_facts0 t
  unfold Gen.iblk0
  rw [View.read_apply]
  show V c (Pipeline.arrRef spec0 3) _ = V c (Pipeline.arrRef spec0 3) _
  congr 1
  funext a
  apply Fin.ext
  match a with
  | ⟨0, _⟩ => show win0_3.index t 0 * 480 + 1 * (x 0).val = (k 0).val; rw [e0, hk0]; omega
  | ⟨1, _⟩ => show win0_3.index t 1 * 64 + 1 * (x 1).val = (k 1).val; rw [e1, hk1]; omega

/-- What a point leaves in the first output's block, at row `p` and lane `q`, from the four blocks it loaded. -/
theorem out0_4_apply (x0 : Vec Ideal S480x12000 .bf16) (x1 : Vec Ideal S12000x64 .bf16) (x2 : Vec Ideal S480x1 .f32)
    (x3 : Vec Ideal S480x64 .f32) (p : Fin 480) (q : Fin 64) :
    Gen.out0_4 (F := Ideal) x0 x1 x2 x3 (ix2 p q) = (∑ k : Fin 12000, x0 (ix2 p k) * x1 (ix2 k q)) * x2 (ix2 p 0) := by
  unfold Gen.out0_4
  rw [View.canon_unit_zero origin]
  simp only [View.ld_unit_zero (S := S480x12000) origin, View.ld_unit_zero (S := S12000x64) origin,
    View.ld_unit_zero (S := S480x1) origin]
  exact pay1_apply x0 x1 x2 p q

/-- What a point leaves in the second output's block, at row `p` and lane `q`. -/
theorem out0_5_apply (x0 : Vec Ideal S480x12000 .bf16) (x1 : Vec Ideal S12000x64 .bf16) (x2 : Vec Ideal S480x1 .f32)
    (x3 : Vec Ideal S480x64 .f32) (p : Fin 480) (q : Fin 64) :
    Gen.out0_5 (F := Ideal) x0 x1 x2 x3 (ix2 p q)
      = x3 (ix2 p q) + (∑ k : Fin 12000, x0 (ix2 p k) * x1 (ix2 k q)) * x2 (ix2 p 0) := by
  unfold Gen.out0_5
  rw [View.canon_unit_zero origin]
  simp only [View.ld_unit_zero (S := S480x12000) origin, View.ld_unit_zero (S := S12000x64) origin,
    View.ld_unit_zero (S := S480x1) origin, View.ld_unit_zero (S := S480x64) origin]
  exact pay2_apply x0 x1 x2 x3 p q

/-- WHAT POINT `t` WRITES BACK to the first output is block `t` of one step applied to the whole arrays. -/
theorem flushed0_4 (c : Dev nD) (t : Fin cfg0.N) :
    (Gen.dat0 (F := Ideal) V c).flushed 4 t = ((cfg0.win 4).blk t).view.read (Elt Ideal)
      (stepArr (V c (Pipeline.arrRef spec0 0)) (V c (Pipeline.arrRef spec0 1)) (V c (Pipeline.arrRef spec0 2))) := by
  obtain ⟨ht, -, -, -, -, -, -, -, -, e0, e1, -⟩ := index_facts0 t
  show (cfg0.win 4).cut (grid0.coords t) ((Gen.dat0 V c).after 4 t) = _
  rw [Gen.after0_4]
  refine funext fun (j : S480x64.Idx) => ?_
  obtain ⟨p, q, rfl⟩ : ∃ (p : Fin 480) (q : Fin 64), j = ix2 p q := ⟨j 0, j 1, eq_ix2 j⟩
  show Gen.out0_4 (Gen.iblk0 V c 0 t) (Gen.iblk0 V c 1 t) (Gen.iblk0 V c 2 t) (Gen.iblk0 V c 3 t) (ix2 p q)
    = stepArr (V c (Pipeline.arrRef spec0 0)) (V c (Pipeline.arrRef spec0 1)) (V c (Pipeline.arrRef spec0 2)) (((cfg0.win 4).blk t).view.emb (ix2 p q))
  refine (out0_4_apply (Gen.iblk0 V c 0 t) (Gen.iblk0 V c 1 t) (Gen.iblk0 V c 2 t) (Gen.iblk0 V c 3 t) p q).trans ?_
  have hp : p.val < 480 := p.isLt
  refine (product_of_rows _ _ _ _ _ _ p q ⟨480 * t.val + p.val, by omega⟩
    (fun k => block0_0_apply V c t (ix2 p k) (ix2 _ k) rfl rfl) (fun k => block0_1_apply V c t (ix2 k q))
    (block0_2_apply V c t (ix2 p 0) (ix2 _ 0) rfl)).trans (stepArr_apply_of _ _ _ _ _ q ?_ ?_).symm
  · show win0_4.index t 0 * 480 + 1 * p.val = 480 * t.val + p.val; rw [e0]; omega
  · show win0_4.index t 1 * 64 + 1 * q.val = q.val; rw [e1]; omega

/-- WHAT POINT `t` WRITES BACK to the second output is block `t` of the running total plus one step. -/
theorem flushed0_5 (c : Dev nD) (t : Fin cfg0.N) :
    (Gen.dat0 (F := Ideal) V c).flushed 5 t = ((cfg0.win 5).blk t).view.read (Elt Ideal)
      (accArr (V c (Pipeline.arrRef spec0 0)) (V c (Pipeline.arrRef spec0 1)) (V c (Pipeline.arrRef spec0 2)) (V c (Pipeline.arrRef spec0 3))) := by
  obtain ⟨ht, -, -, -, -, -, -, -, -, -, -, e0, e1⟩ := index_facts0 t
  show (cfg0.win 5).cut (grid0.coords t) ((Gen.dat0 V c).after 5 t) = _
  rw [Gen.after0_5]
  refine funext fun (j : S480x64.Idx) => ?_
  obtain ⟨p, q, rfl⟩ : ∃ (p : Fin 480) (q : Fin 64), j = ix2 p q := ⟨j 0, j 1, eq_ix2 j⟩
  show Gen.out0_5 (Gen.iblk0 V c 0 t) (Gen.iblk0 V c 1 t) (Gen.iblk0 V c 2 t) (Gen.iblk0 V c 3 t) (ix2 p q)
    = accArr (V c (Pipeline.arrRef spec0 0)) (V c (Pipeline.arrRef spec0 1)) (V c (Pipeline.arrRef spec0 2)) (V c (Pipeline.arrRef spec0 3)) (((cfg0.win 5).blk t).view.emb (ix2 p q))
  unfold accArr
  refine (out0_5_apply (Gen.iblk0 V c 0 t) (Gen.iblk0 V c 1 t) (Gen.iblk0 V c 2 t) (Gen.iblk0 V c 3 t) p q).trans ?_
  have hp : p.val < 480 := p.isLt
  have h0 : ((((cfg0.win 5).blk t).view.emb (ix2 p q) : S12000x64.Idx) 0).val = 480 * t.val + p.val := by
    show win0_5.index t 0 * 480 + 1 * p.val = 480 * t.val + p.val; rw [e0]; omega
  have h1 : ((((cfg0.win 5).blk t).view.emb (ix2 p q) : S12000x64.Idx) 1).val = q.val := by
    show win0_5.index t 1 * 64 + 1 * q.val = q.val; rw [e1]; omega
  refine sum_both (block0_3_apply V c t (ix2 p q) _ h0 h1) ?_
  exact (product_of_rows _ _ _ _ _ _ p q ⟨480 * t.val + p.val, by omega⟩
    (fun k => block0_0_apply V c t (ix2 p k) (ix2 _ k) rfl rfl) (fun k => block0_1_apply V c t (ix2 k q))
    (block0_2_apply V c t (ix2 p 0) (ix2 _ 0) rfl)).trans (stepArr_apply_of _ _ _ _ _ q h0 h1).symm

/-- Row `r` of a [12000, 64] output of region 0 lies in the block point `r / 480` writes back: that point exists. -/
theorem covered0 (i : S12000x64.Idx) :
    ∃ t : Fin cfg0.N, (i 0).val / 480 = t.val := by
  have h : (i 0).val < 12000 := (i 0).isLt
  exact ⟨⟨(i 0).val / 480, by show (i 0).val / 480 < 25; omega⟩, rfl⟩

/-- THE FIRST OUTPUT after region 0: one step applied to the arrays the region found. -/
theorem region0_cur_arr (c : Dev nD) :
    (Gen.dat0 (F := Ideal) V c).arrAt 4 cfg0.N
      = stepArr (V c (Pipeline.arrRef spec0 0)) (V c (Pipeline.arrRef spec0 1)) (V c (Pipeline.arrRef spec0 2)) :=
  (Gen.dat0 (F := Ideal) V c).arrAt_eq_of_cover 4 _ (fun t _ => flushed0_4 V c t) fun (i : S12000x64.Idx) => by
    obtain ⟨t, ht⟩ := covered0 i
    obtain ⟨-, -, -, -, -, -, -, -, -, e0, e1, -⟩ := index_facts0 t
    have h0 : (i 0).val < 12000 := (i 0).isLt
    have h1 : (i 1).val < 64 := (i 1).isLt
    refine ⟨t, Gen.flush0_4 t, ?_⟩
    show i ∈ ((View.whole main_call0_v49_0).slice (win0_4.rect t)).set
    rw [View.set_slice_whole, Rect.mem_set_unit]
    intro a
    match a with
    | ⟨0, _⟩ => show win0_4.index t 0 * 480 ≤ (i 0).val ∧ (i 0).val < win0_4.index t 0 * 480 + 480; rw [e0]; omega
    | ⟨1, _⟩ => show win0_4.index t 1 * 64 ≤ (i 1).val ∧ (i 1).val < win0_4.index t 1 * 64 + 64; rw [e1]; omega

/-- THE SECOND OUTPUT after region 0: the running total the region found plus one step. -/
theorem region0_acc_arr (c : Dev nD) :
    (Gen.dat0 (F := Ideal) V c).arrAt 5 cfg0.N
      = accArr (V c (Pipeline.arrRef spec0 0)) (V c (Pipeline.arrRef spec0 1)) (V c (Pipeline.arrRef spec0 2)) (V c (Pipeline.arrRef spec0 3)) :=
  (Gen.dat0 (F := Ideal) V c).arrAt_eq_of_cover 5 _ (fun t _ => flushed0_5 V c t) fun (i : S12000x64.Idx) => by
    obtain ⟨t, ht⟩ := covered0 i
    obtain ⟨-, -, -, -, -, -, -, -, -, -, -, e0, e1⟩ := index_facts0 t
    have h0 : (i 0).val < 12000 := (i 0).isLt
    have h1 : (i 1).val < 64 := (i 1).isLt
    refine ⟨t, Gen.flush0_5 t, ?_⟩
    show i ∈ ((View.whole main_call0_v49_1).slice (win0_5.rect t)).set
    rw [View.set_slice_whole, Rect.mem_set_unit]
    intro a
    match a with
    | ⟨0, _⟩ => show win0_5.index t 0 * 480 ≤ (i 0).val ∧ (i 0).val < win0_5.index t 0 * 480 + 480; rw [e0]; omega
    | ⟨1, _⟩ => show win0_5.index t 1 * 64 ≤ (i 1).val ∧ (i 1).val < win0_5.index t 1 * 64 + 64; rw [e1]; omega

/-- The first output after region 0, at row `i` and lane `q`. -/
theorem region0_cur (c : Dev nD) (i : Fin 12000) (q : Fin 64) :
    (Gen.dat0 (F := Ideal) V c).arrAt 4 cfg0.N (ix2 i q)
      = (∑ k : Fin 12000, mat0 V c (ix2 i k) * opd0 V c (ix2 k q)) * col0 V c (ix2 i 0) := by
  rw [region0_cur_arr V c]
  rfl

/-- The second output after region 0, at row `i` and lane `q`. -/
theorem region0_acc (c : Dev nD) (i : Fin 12000) (q : Fin 64) :
    (Gen.dat0 (F := Ideal) V c).arrAt 5 cfg0.N (ix2 i q)
      = tot0 V c (ix2 i q) + (∑ k : Fin 12000, mat0 V c (ix2 i k) * opd0 V c (ix2 k q)) * col0 V c (ix2 i 0) := by
  rw [region0_acc_arr V c]
  rfl

/-! ## Region 1 -/

/-- The arrays region 1 reads, as the region finds them: the matrix, the multiplied operand, the scaling column and
    the running total. -/
abbrev mat1 (c : Dev nD) : S12000x12000.Idx → EReal := V c (Pipeline.arrRef spec1 0)
abbrev opd1 (c : Dev nD) : S12000x64.Idx → EReal := V c (Pipeline.arrRef spec1 1)
abbrev col1 (c : Dev nD) : S12000x1.Idx → EReal := V c (Pipeline.arrRef spec1 2)
abbrev tot1 (c : Dev nD) : S12000x64.Idx → EReal := V c (Pipeline.arrRef spec1 3)

/-- The index maps of region 1, decided over its 25 points: windows 0, 2, 3, 4, 5 are at row block `t` and column
    block 0 at point `t`; window 1 is at block (0, 0) at every point. -/
theorem index_facts1 : ∀ t : Fin cfg1.N, t.val < 25
    ∧ win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The block of the matrix at point `t` is its rows `480 t … 480 t + 479`, all columns. -/
theorem block1_0_apply (c : Dev nD) (t : Fin cfg1.N) (x : S480x12000.Idx) (k : S12000x12000.Idx)
    (hk0 : (k 0).val = 480 * t.val + (x 0).val) (hk1 : (k 1).val = (x 1).val) :
    (Gen.iblk1 V c 0 t : Vec Ideal S480x12000 .bf16) x = (V c (Pipeline.arrRef spec1 0) : S12000x12000.Idx → EReal) k := by
  obtain ⟨-, e0, e1, -⟩ := index_facts1 t
  unfold Gen.iblk1
  rw [View.read_apply]
  show V c (Pipeline.arrRef spec1 0) _ = V c (Pipeline.arrRef spec1 0) _
  congr 1
  funext a
  apply Fin.ext
  match a with
  | ⟨0, _⟩ => show win1_0.index t 0 * 480 + 1 * (x 0).val = (k 0).val; rw [e0, hk0]; omega
  | ⟨1, _⟩ => show win1_0.index t 1 * 12000 + 1 * (x 1).val = (k 1).val; rw [e1, hk1]; omega

/-- The block of the multiplied array is the whole array at every point. -/
theorem block1_1_apply (c : Dev nD) (t : Fin cfg1.N) (x : S12000x64.Idx) :
    (Gen.iblk1 V c 1 t : Vec Ideal S12000x64 .bf16) x = (V c (Pipeline.arrRef spec1 1) : S12000x64.Idx → EReal) x := by
  obtain ⟨-, -, -, e0, e1, -⟩ := index_facts1 t
  unfold Gen.iblk1
  rw [View.read_apply]
  show V c (Pipeline.arrRef spec1 1) _ = V c (Pipeline.arrRef spec1 1) _
  congr 1
  funext a
  apply Fin.ext
  match a with
  | ⟨0, _⟩ => show win1_1.index t 0 * 12000 + 1 * (x 0).val = (x 0).val; rw [e0]; omega
  | ⟨1, _⟩ => show win1_1.index t 1 * 64 + 1 * (x 1).val = (x 1).val; rw [e1]; omega

/-- The block of the column at point `t` is its entries `480 t … 480 t + 479`. -/
theorem block1_2_apply (c : Dev nD) (t : Fin cfg1.N) (x : S480x1.Idx) (k : S12000x1.Idx)
    (hk0 : (k 0).val = 480 * t.val + (x 0).val) :
    (Gen.iblk1 V c 2 t : Vec Ideal S480x1 .f32) x = (V c (Pipeline.arrRef spec1 2) : S12000x1.Idx → EReal) k := by
  obtain ⟨-, -, -, -, -, e0, e1, -⟩ := index_facts1 t
  unfold Gen.iblk1
  rw [View.read_apply]
  show V c (Pipeline.arrRef spec1 2) _ = V c (Pipeline.arrRef spec1 2) _
  congr 1
  funext a
  apply Fin.ext
  match a with
  | ⟨0, _⟩ => show win1_2.index t 0 * 480 + 1 * (x 0).val = (k 0).val; rw [e0, hk0]; omega
  | ⟨1, _⟩ =>
    show win1_2.index t 1 * 1 + 1 * (x 1).val = (k 1).val
    have h1 : (x 1).val < 1 := (x 1).isLt
    have h2 : (k 1).val < 1 := (k 1).isLt
    rw [e1]; omega

/-- The block of the running total at point `t` is its rows `480 t … 480 t + 479`, all 64 lanes. -/
theorem block1_3_apply (c : Dev nD) (t : Fin cfg1.N) (x : S480x64.Idx) (k : S12000x64.Idx)
    (hk0 : (k 0).val = 480 * t.val + (x 0).val) (hk1 : (k 1).val = (x 1).val) :
    (Gen.iblk1 V c 3 t : Vec Ideal S480x64 .f32) x = (V c (Pipeline.arrRef spec1 3) : S12000x64.Idx → EReal) k := by
  obtain ⟨-, -, -, -, -, -, -, e0, e1, -⟩ := index_facts1 t
  unfold Gen.iblk1
  rw [View.read_apply]
  show V c (Pipeline.arrRef spec1 3) _ = V c (Pipeline.arrRef spec1 3) _
  congr 1
  funext a
  apply Fin.ext
  match a with
  | ⟨0, _⟩ => show win1_3.index t 0 * 480 + 1 * (x 0).val = (k 0).val; rw [e0, hk0]; omega
  | ⟨1, _⟩ => show win1_3.index t 1 * 64 + 1 * (x 1).val = (k 1).val; rw [e1, hk1]; omega

/-- What a point leaves in the first output's block, at row `p` and lane `q`, from the four blocks it loaded. -/
theorem out1_4_apply (x0 : Vec Ideal S480x12000 .bf16) (x1 : Vec Ideal S12000x64 .bf16) (x2 : Vec Ideal S480x1 .f32)
    (x3 : Vec Ideal S480x64 .f32) (p : Fin 480) (q : Fin 64) :
    Gen.out1_4 (F := Ideal) x0 x1 x2 x3 (ix2 p q) = (∑ k : Fin 12000, x0 (ix2 p k) * x1 (ix2 k q)) * x2 (ix2 p 0) := by
  unfold Gen.out1_4
  rw [View.canon_unit_zero origin]
  simp only [View.ld_unit_zero (S := S480x12000) origin, View.ld_unit_zero (S := S12000x64) origin,
    View.ld_unit_zero (S := S480x1) origin]
  exact pay1_apply_1 x0 x1 x2 p q

/-- What a point leaves in the second output's block, at row `p` and lane `q`. -/
theorem out1_5_apply (x0 : Vec Ideal S480x12000 .bf16) (x1 : Vec Ideal S12000x64 .bf16) (x2 : Vec Ideal S480x1 .f32)
    (x3 : Vec Ideal S480x64 .f32) (p : Fin 480) (q : Fin 64) :
    Gen.out1_5 (F := Ideal) x0 x1 x2 x3 (ix2 p q)
      = x3 (ix2 p q) + (∑ k : Fin 12000, x0 (ix2 p k) * x1 (ix2 k q)) * x2 (ix2 p 0) := by
  unfold Gen.out1_5
  rw [View.canon_unit_zero origin]
  simp only [View.ld_unit_zero (S := S480x12000) origin, View.ld_unit_zero (S := S12000x64) origin,
    View.ld_unit_zero (S := S480x1) origin, View.ld_unit_zero (S := S480x64) origin]
  exact pay2_apply_1 x0 x1 x2 x3 p q

/-- WHAT POINT `t` WRITES BACK to the first output is block `t` of one step applied to the whole arrays. -/
theorem flushed1_4 (c : Dev nD) (t : Fin cfg1.N) :
    (Gen.dat1 (F := Ideal) V c).flushed 4 t = ((cfg1.win 4).blk t).view.read (Elt Ideal)
      (stepArr (V c (Pipeline.arrRef spec1 0)) (V c (Pipeline.arrRef spec1 1)) (V c (Pipeline.arrRef spec1 2))) := by
  obtain ⟨ht, -, -, -, -, -, -, -, -, e0, e1, -⟩ := index_facts1 t
  show (cfg1.win 4).cut (grid1.coords t) ((Gen.dat1 V c).after 4 t) = _
  rw [Gen.after1_4]
  refine funext fun (j : S480x64.Idx) => ?_
  obtain ⟨p, q, rfl⟩ : ∃ (p : Fin 480) (q : Fin 64), j = ix2 p q := ⟨j 0, j 1, eq_ix2 j⟩
  show Gen.out1_4 (Gen.iblk1 V c 0 t) (Gen.iblk1 V c 1 t) (Gen.iblk1 V c 2 t) (Gen.iblk1 V c 3 t) (ix2 p q)
    = stepArr (V c (Pipeline.arrRef spec1 0)) (V c (Pipeline.arrRef spec1 1)) (V c (Pipeline.arrRef spec1 2)) (((cfg1.win 4).blk t).view.emb (ix2 p q))
  refine (out1_4_apply (Gen.iblk1 V c 0 t) (Gen.iblk1 V c 1 t) (Gen.iblk1 V c 2 t) (Gen.iblk1 V c 3 t) p q).trans ?_
  have hp : p.val < 480 := p.isLt
  refine (product_of_rows _ _ _ _ _ _ p q ⟨480 * t.val + p.val, by omega⟩
    (fun k => block1_0_apply V c t (ix2 p k) (ix2 _ k) rfl rfl) (fun k => block1_1_apply V c t (ix2 k q))
    (block1_2_apply V c t (ix2 p 0) (ix2 _ 0) rfl)).trans (stepArr_apply_of _ _ _ _ _ q ?_ ?_).symm
  · show win1_4.index t 0 * 480 + 1 * p.val = 480 * t.val + p.val; rw [e0]; omega
  · show win1_4.index t 1 * 64 + 1 * q.val = q.val; rw [e1]; omega

/-- WHAT POINT `t` WRITES BACK to the second output is block `t` of the running total plus one step. -/
theorem flushed1_5 (c : Dev nD) (t : Fin cfg1.N) :
    (Gen.dat1 (F := Ideal) V c).flushed 5 t = ((cfg1.win 5).blk t).view.read (Elt Ideal)
      (accArr (V c (Pipeline.arrRef spec1 0)) (V c (Pipeline.arrRef spec1 1)) (V c (Pipeline.arrRef spec1 2)) (V c (Pipeline.arrRef spec1 3))) := by
  obtain ⟨ht, -, -, -, -, -, -, -, -, -, -, e0, e1⟩ := index_facts1 t
  show (cfg1.win 5).cut (grid1.coords t) ((Gen.dat1 V c).after 5 t) = _
  rw [Gen.after1_5]
  refine funext fun (j : S480x64.Idx) => ?_
  obtain ⟨p, q, rfl⟩ : ∃ (p : Fin 480) (q : Fin 64), j = ix2 p q := ⟨j 0, j 1, eq_ix2 j⟩
  show Gen.out1_5 (Gen.iblk1 V c 0 t) (Gen.iblk1 V c 1 t) (Gen.iblk1 V c 2 t) (Gen.iblk1 V c 3 t) (ix2 p q)
    = accArr (V c (Pipeline.arrRef spec1 0)) (V c (Pipeline.arrRef spec1 1)) (V c (Pipeline.arrRef spec1 2)) (V c (Pipeline.arrRef spec1 3)) (((cfg1.win 5).blk t).view.emb (ix2 p q))
  unfold accArr
  refine (out1_5_apply (Gen.iblk1 V c 0 t) (Gen.iblk1 V c 1 t) (Gen.iblk1 V c 2 t) (Gen.iblk1 V c 3 t) p q).trans ?_
  have hp : p.val < 480 := p.isLt
  have h0 : ((((cfg1.win 5).blk t).view.emb (ix2 p q) : S12000x64.Idx) 0).val = 480 * t.val + p.val := by
    show win1_5.index t 0 * 480 + 1 * p.val = 480 * t.val + p.val; rw [e0]; omega
  have h1 : ((((cfg1.win 5).blk t).view.emb (ix2 p q) : S12000x64.Idx) 1).val = q.val := by
    show win1_5.index t 1 * 64 + 1 * q.val = q.val; rw [e1]; omega
  refine sum_both (block1_3_apply V c t (ix2 p q) _ h0 h1) ?_
  exact (product_of_rows _ _ _ _ _ _ p q ⟨480 * t.val + p.val, by omega⟩
    (fun k => block1_0_apply V c t (ix2 p k) (ix2 _ k) rfl rfl) (fun k => block1_1_apply V c t (ix2 k q))
    (block1_2_apply V c t (ix2 p 0) (ix2 _ 0) rfl)).trans (stepArr_apply_of _ _ _ _ _ q h0 h1).symm

/-- Row `r` of a [12000, 64] output of region 1 lies in the block point `r / 480` writes back: that point exists. -/
theorem covered1 (i : S12000x64.Idx) :
    ∃ t : Fin cfg1.N, (i 0).val / 480 = t.val := by
  have h : (i 0).val < 12000 := (i 0).isLt
  exact ⟨⟨(i 0).val / 480, by show (i 0).val / 480 < 25; omega⟩, rfl⟩

/-- THE FIRST OUTPUT after region 1: one step applied to the arrays the region found. -/
theorem region1_cur_arr (c : Dev nD) :
    (Gen.dat1 (F := Ideal) V c).arrAt 4 cfg1.N
      = stepArr (V c (Pipeline.arrRef spec1 0)) (V c (Pipeline.arrRef spec1 1)) (V c (Pipeline.arrRef spec1 2)) :=
  (Gen.dat1 (F := Ideal) V c).arrAt_eq_of_cover 4 _ (fun t _ => flushed1_4 V c t) fun (i : S12000x64.Idx) => by
    obtain ⟨t, ht⟩ := covered1 i
    obtain ⟨-, -, -, -, -, -, -, -, -, e0, e1, -⟩ := index_facts1 t
    have h0 : (i 0).val < 12000 := (i 0).isLt
    have h1 : (i 1).val < 64 := (i 1).isLt
    refine ⟨t, Gen.flush1_4 t, ?_⟩
    show i ∈ ((View.whole main_call0_v53_0).slice (win1_4.rect t)).set
    rw [View.set_slice_whole, Rect.mem_set_unit]
    intro a
    match a with
    | ⟨0, _⟩ => show win1_4.index t 0 * 480 ≤ (i 0).val ∧ (i 0).val < win1_4.index t 0 * 480 + 480; rw [e0]; omega
    | ⟨1, _⟩ => show win1_4.index t 1 * 64 ≤ (i 1).val ∧ (i 1).val < win1_4.index t 1 * 64 + 64; rw [e1]; omega

/-- THE SECOND OUTPUT after region 1: the running total the region found plus one step. -/
theorem region1_acc_arr (c : Dev nD) :
    (Gen.dat1 (F := Ideal) V c).arrAt 5 cfg1.N
      = accArr (V c (Pipeline.arrRef spec1 0)) (V c (Pipeline.arrRef spec1 1)) (V c (Pipeline.arrRef spec1 2)) (V c (Pipeline.arrRef spec1 3)) :=
  (Gen.dat1 (F := Ideal) V c).arrAt_eq_of_cover 5 _ (fun t _ => flushed1_5 V c t) fun (i : S12000x64.Idx) => by
    obtain ⟨t, ht⟩ := covered1 i
    obtain ⟨-, -, -, -, -, -, -, -, -, -, -, e0, e1⟩ := index_facts1 t
    have h0 : (i 0).val < 12000 := (i 0).isLt
    have h1 : (i 1).val < 64 := (i 1).isLt
    refine ⟨t, Gen.flush1_5 t, ?_⟩
    show i ∈ ((View.whole main_call0_v53_1).slice (win1_5.rect t)).set
    rw [View.set_slice_whole, Rect.mem_set_unit]
    intro a
    match a with
    | ⟨0, _⟩ => show win1_5.index t 0 * 480 ≤ (i 0).val ∧ (i 0).val < win1_5.index t 0 * 480 + 480; rw [e0]; omega
    | ⟨1, _⟩ => show win1_5.index t 1 * 64 ≤ (i 1).val ∧ (i 1).val < win1_5.index t 1 * 64 + 64; rw [e1]; omega

/-- The first output after region 1, at row `i` and lane `q`. -/
theorem region1_cur (c : Dev nD) (i : Fin 12000) (q : Fin 64) :
    (Gen.dat1 (F := Ideal) V c).arrAt 4 cfg1.N (ix2 i q)
      = (∑ k : Fin 12000, mat1 V c (ix2 i k) * opd1 V c (ix2 k q)) * col1 V c (ix2 i 0) := by
  rw [region1_cur_arr V c]
  rfl

/-- The second output after region 1, at row `i` and lane `q`. -/
theorem region1_acc (c : Dev nD) (i : Fin 12000) (q : Fin 64) :
    (Gen.dat1 (F := Ideal) V c).arrAt 5 cfg1.N (ix2 i q)
      = tot1 V c (ix2 i q) + (∑ k : Fin 12000, mat1 V c (ix2 i k) * opd1 V c (ix2 k q)) * col1 V c (ix2 i 0) := by
  rw [region1_acc_arr V c]
  rfl

/-! ## Region 2 -/

/-- The arrays region 2 reads, as the region finds them: the matrix, the multiplied operand, the scaling column and
    the running total. -/
abbrev mat2 (c : Dev nD) : S12000x12000.Idx → EReal := V c (Pipeline.arrRef spec2 0)
abbrev opd2 (c : Dev nD) : S12000x64.Idx → EReal := V c (Pipeline.arrRef spec2 1)
abbrev col2 (c : Dev nD) : S12000x1.Idx → EReal := V c (Pipeline.arrRef spec2 2)
abbrev tot2 (c : Dev nD) : S12000x64.Idx → EReal := V c (Pipeline.arrRef spec2 3)

/-- The index maps of region 2, decided over its 25 points: windows 0, 2, 3, 4, 5 are at row block `t` and column
    block 0 at point `t`; window 1 is at block (0, 0) at every point. -/
theorem index_facts2 : ∀ t : Fin cfg2.N, t.val < 25
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The block of the matrix at point `t` is its rows `480 t … 480 t + 479`, all columns. -/
theorem block2_0_apply (c : Dev nD) (t : Fin cfg2.N) (x : S480x12000.Idx) (k : S12000x12000.Idx)
    (hk0 : (k 0).val = 480 * t.val + (x 0).val) (hk1 : (k 1).val = (x 1).val) :
    (Gen.iblk2 V c 0 t : Vec Ideal S480x12000 .bf16) x = (V c (Pipeline.arrRef spec2 0) : S12000x12000.Idx → EReal) k := by
  obtain ⟨-, e0, e1, -⟩ := index_facts2 t
  unfold Gen.iblk2
  rw [View.read_apply]
  show V c (Pipeline.arrRef spec2 0) _ = V c (Pipeline.arrRef spec2 0) _
  congr 1
  funext a
  apply Fin.ext
  match a with
  | ⟨0, _⟩ => show win2_0.index t 0 * 480 + 1 * (x 0).val = (k 0).val; rw [e0, hk0]; omega
  | ⟨1, _⟩ => show win2_0.index t 1 * 12000 + 1 * (x 1).val = (k 1).val; rw [e1, hk1]; omega

/-- The block of the multiplied array is the whole array at every point. -/
theorem block2_1_apply (c : Dev nD) (t : Fin cfg2.N) (x : S12000x64.Idx) :
    (Gen.iblk2 V c 1 t : Vec Ideal S12000x64 .bf16) x = (V c (Pipeline.arrRef spec2 1) : S12000x64.Idx → EReal) x := by
  obtain ⟨-, -, -, e0, e1, -⟩ := index_facts2 t
  unfold Gen.iblk2
  rw [View.read_apply]
  show V c (Pipeline.arrRef spec2 1) _ = V c (Pipeline.arrRef spec2 1) _
  congr 1
  funext a
  apply Fin.ext
  match a with
  | ⟨0, _⟩ => show win2_1.index t 0 * 12000 + 1 * (x 0).val = (x 0).val; rw [e0]; omega
  | ⟨1, _⟩ => show win2_1.index t 1 * 64 + 1 * (x 1).val = (x 1).val; rw [e1]; omega

/-- The block of the column at point `t` is its entries `480 t … 480 t + 479`. -/
theorem block2_2_apply (c : Dev nD) (t : Fin cfg2.N) (x : S480x1.Idx) (k : S12000x1.Idx)
    (hk0 : (k 0).val = 480 * t.val + (x 0).val) :
    (Gen.iblk2 V c 2 t : Vec Ideal S480x1 .f32) x = (V c (Pipeline.arrRef spec2 2) : S12000x1.Idx → EReal) k := by
  obtain ⟨-, -, -, -, -, e0, e1, -⟩ := index_facts2 t
  unfold Gen.iblk2
  rw [View.read_apply]
  show V c (Pipeline.arrRef spec2 2) _ = V c (Pipeline.arrRef spec2 2) _
  congr 1
  funext a
  apply Fin.ext
  match a with
  | ⟨0, _⟩ => show win2_2.index t 0 * 480 + 1 * (x 0).val = (k 0).val; rw [e0, hk0]; omega
  | ⟨1, _⟩ =>
    show win2_2.index t 1 * 1 + 1 * (x 1).val = (k 1).val
    have h1 : (x 1).val < 1 := (x 1).isLt
    have h2 : (k 1).val < 1 := (k 1).isLt
    rw [e1]; omega

/-- The block of the running total at point `t` is its rows `480 t … 480 t + 479`, all 64 lanes. -/
theorem block2_3_apply (c : Dev nD) (t : Fin cfg2.N) (x : S480x64.Idx) (k : S12000x64.Idx)
    (hk0 : (k 0).val = 480 * t.val + (x 0).val) (hk1 : (k 1).val = (x 1).val) :
    (Gen.iblk2 V c 3 t : Vec Ideal S480x64 .f32) x = (V c (Pipeline.arrRef spec2 3) : S12000x64.Idx → EReal) k := by
  obtain ⟨-, -, -, -, -, -, -, e0, e1, -⟩ := index_facts2 t
  unfold Gen.iblk2
  rw [View.read_apply]
  show V c (Pipeline.arrRef spec2 3) _ = V c (Pipeline.arrRef spec2 3) _
  congr 1
  funext a
  apply Fin.ext
  match a with
  | ⟨0, _⟩ => show win2_3.index t 0 * 480 + 1 * (x 0).val = (k 0).val; rw [e0, hk0]; omega
  | ⟨1, _⟩ => show win2_3.index t 1 * 64 + 1 * (x 1).val = (k 1).val; rw [e1, hk1]; omega

/-- What a point leaves in the first output's block, at row `p` and lane `q`, from the four blocks it loaded. -/
theorem out2_4_apply (x0 : Vec Ideal S480x12000 .bf16) (x1 : Vec Ideal S12000x64 .bf16) (x2 : Vec Ideal S480x1 .f32)
    (x3 : Vec Ideal S480x64 .f32) (p : Fin 480) (q : Fin 64) :
    Gen.out2_4 (F := Ideal) x0 x1 x2 x3 (ix2 p q) = (∑ k : Fin 12000, x0 (ix2 p k) * x1 (ix2 k q)) * x2 (ix2 p 0) := by
  unfold Gen.out2_4
  rw [View.canon_unit_zero origin]
  simp only [View.ld_unit_zero (S := S480x12000) origin, View.ld_unit_zero (S := S12000x64) origin,
    View.ld_unit_zero (S := S480x1) origin]
  exact pay1_apply_2 x0 x1 x2 p q

/-- What a point leaves in the second output's block, at row `p` and lane `q`. -/
theorem out2_5_apply (x0 : Vec Ideal S480x12000 .bf16) (x1 : Vec Ideal S12000x64 .bf16) (x2 : Vec Ideal S480x1 .f32)
    (x3 : Vec Ideal S480x64 .f32) (p : Fin 480) (q : Fin 64) :
    Gen.out2_5 (F := Ideal) x0 x1 x2 x3 (ix2 p q)
      = x3 (ix2 p q) + (∑ k : Fin 12000, x0 (ix2 p k) * x1 (ix2 k q)) * x2 (ix2 p 0) := by
  unfold Gen.out2_5
  rw [View.canon_unit_zero origin]
  simp only [View.ld_unit_zero (S := S480x12000) origin, View.ld_unit_zero (S := S12000x64) origin,
    View.ld_unit_zero (S := S480x1) origin, View.ld_unit_zero (S := S480x64) origin]
  exact pay2_apply_2 x0 x1 x2 x3 p q

/-- WHAT POINT `t` WRITES BACK to the first output is block `t` of one step applied to the whole arrays. -/
theorem flushed2_4 (c : Dev nD) (t : Fin cfg2.N) :
    (Gen.dat2 (F := Ideal) V c).flushed 4 t = ((cfg2.win 4).blk t).view.read (Elt Ideal)
      (stepArr (V c (Pipeline.arrRef spec2 0)) (V c (Pipeline.arrRef spec2 1)) (V c (Pipeline.arrRef spec2 2))) := by
  obtain ⟨ht, -, -, -, -, -, -, -, -, e0, e1, -⟩ := index_facts2 t
  show (cfg2.win 4).cut (grid2.coords t) ((Gen.dat2 V c).after 4 t) = _
  rw [Gen.after2_4]
  refine funext fun (j : S480x64.Idx) => ?_
  obtain ⟨p, q, rfl⟩ : ∃ (p : Fin 480) (q : Fin 64), j = ix2 p q := ⟨j 0, j 1, eq_ix2 j⟩
  show Gen.out2_4 (Gen.iblk2 V c 0 t) (Gen.iblk2 V c 1 t) (Gen.iblk2 V c 2 t) (Gen.iblk2 V c 3 t) (ix2 p q)
    = stepArr (V c (Pipeline.arrRef spec2 0)) (V c (Pipeline.arrRef spec2 1)) (V c (Pipeline.arrRef spec2 2)) (((cfg2.win 4).blk t).view.emb (ix2 p q))
  refine (out2_4_apply (Gen.iblk2 V c 0 t) (Gen.iblk2 V c 1 t) (Gen.iblk2 V c 2 t) (Gen.iblk2 V c 3 t) p q).trans ?_
  have hp : p.val < 480 := p.isLt
  refine (product_of_rows _ _ _ _ _ _ p q ⟨480 * t.val + p.val, by omega⟩
    (fun k => block2_0_apply V c t (ix2 p k) (ix2 _ k) rfl rfl) (fun k => block2_1_apply V c t (ix2 k q))
    (block2_2_apply V c t (ix2 p 0) (ix2 _ 0) rfl)).trans (stepArr_apply_of _ _ _ _ _ q ?_ ?_).symm
  · show win2_4.index t 0 * 480 + 1 * p.val = 480 * t.val + p.val; rw [e0]; omega
  · show win2_4.index t 1 * 64 + 1 * q.val = q.val; rw [e1]; omega

/-- WHAT POINT `t` WRITES BACK to the second output is block `t` of the running total plus one step. -/
theorem flushed2_5 (c : Dev nD) (t : Fin cfg2.N) :
    (Gen.dat2 (F := Ideal) V c).flushed 5 t = ((cfg2.win 5).blk t).view.read (Elt Ideal)
      (accArr (V c (Pipeline.arrRef spec2 0)) (V c (Pipeline.arrRef spec2 1)) (V c (Pipeline.arrRef spec2 2)) (V c (Pipeline.arrRef spec2 3))) := by
  obtain ⟨ht, -, -, -, -, -, -, -, -, -, -, e0, e1⟩ := index_facts2 t
  show (cfg2.win 5).cut (grid2.coords t) ((Gen.dat2 V c).after 5 t) = _
  rw [Gen.after2_5]
  refine funext fun (j : S480x64.Idx) => ?_
  obtain ⟨p, q, rfl⟩ : ∃ (p : Fin 480) (q : Fin 64), j = ix2 p q := ⟨j 0, j 1, eq_ix2 j⟩
  show Gen.out2_5 (Gen.iblk2 V c 0 t) (Gen.iblk2 V c 1 t) (Gen.iblk2 V c 2 t) (Gen.iblk2 V c 3 t) (ix2 p q)
    = accArr (V c (Pipeline.arrRef spec2 0)) (V c (Pipeline.arrRef spec2 1)) (V c (Pipeline.arrRef spec2 2)) (V c (Pipeline.arrRef spec2 3)) (((cfg2.win 5).blk t).view.emb (ix2 p q))
  unfold accArr
  refine (out2_5_apply (Gen.iblk2 V c 0 t) (Gen.iblk2 V c 1 t) (Gen.iblk2 V c 2 t) (Gen.iblk2 V c 3 t) p q).trans ?_
  have hp : p.val < 480 := p.isLt
  have h0 : ((((cfg2.win 5).blk t).view.emb (ix2 p q) : S12000x64.Idx) 0).val = 480 * t.val + p.val := by
    show win2_5.index t 0 * 480 + 1 * p.val = 480 * t.val + p.val; rw [e0]; omega
  have h1 : ((((cfg2.win 5).blk t).view.emb (ix2 p q) : S12000x64.Idx) 1).val = q.val := by
    show win2_5.index t 1 * 64 + 1 * q.val = q.val; rw [e1]; omega
  refine sum_both (block2_3_apply V c t (ix2 p q) _ h0 h1) ?_
  exact (product_of_rows _ _ _ _ _ _ p q ⟨480 * t.val + p.val, by omega⟩
    (fun k => block2_0_apply V c t (ix2 p k) (ix2 _ k) rfl rfl) (fun k => block2_1_apply V c t (ix2 k q))
    (block2_2_apply V c t (ix2 p 0) (ix2 _ 0) rfl)).trans (stepArr_apply_of _ _ _ _ _ q h0 h1).symm

/-- Row `r` of a [12000, 64] output of region 2 lies in the block point `r / 480` writes back: that point exists. -/
theorem covered2 (i : S12000x64.Idx) :
    ∃ t : Fin cfg2.N, (i 0).val / 480 = t.val := by
  have h : (i 0).val < 12000 := (i 0).isLt
  exact ⟨⟨(i 0).val / 480, by show (i 0).val / 480 < 25; omega⟩, rfl⟩

/-- THE FIRST OUTPUT after region 2: one step applied to the arrays the region found. -/
theorem region2_cur_arr (c : Dev nD) :
    (Gen.dat2 (F := Ideal) V c).arrAt 4 cfg2.N
      = stepArr (V c (Pipeline.arrRef spec2 0)) (V c (Pipeline.arrRef spec2 1)) (V c (Pipeline.arrRef spec2 2)) :=
  (Gen.dat2 (F := Ideal) V c).arrAt_eq_of_cover 4 _ (fun t _ => flushed2_4 V c t) fun (i : S12000x64.Idx) => by
    obtain ⟨t, ht⟩ := covered2 i
    obtain ⟨-, -, -, -, -, -, -, -, -, e0, e1, -⟩ := index_facts2 t
    have h0 : (i 0).val < 12000 := (i 0).isLt
    have h1 : (i 1).val < 64 := (i 1).isLt
    refine ⟨t, Gen.flush2_4 t, ?_⟩
    show i ∈ ((View.whole main_call0_v57_0).slice (win2_4.rect t)).set
    rw [View.set_slice_whole, Rect.mem_set_unit]
    intro a
    match a with
    | ⟨0, _⟩ => show win2_4.index t 0 * 480 ≤ (i 0).val ∧ (i 0).val < win2_4.index t 0 * 480 + 480; rw [e0]; omega
    | ⟨1, _⟩ => show win2_4.index t 1 * 64 ≤ (i 1).val ∧ (i 1).val < win2_4.index t 1 * 64 + 64; rw [e1]; omega

/-- THE SECOND OUTPUT after region 2: the running total the region found plus one step. -/
theorem region2_acc_arr (c : Dev nD) :
    (Gen.dat2 (F := Ideal) V c).arrAt 5 cfg2.N
      = accArr (V c (Pipeline.arrRef spec2 0)) (V c (Pipeline.arrRef spec2 1)) (V c (Pipeline.arrRef spec2 2)) (V c (Pipeline.arrRef spec2 3)) :=
  (Gen.dat2 (F := Ideal) V c).arrAt_eq_of_cover 5 _ (fun t _ => flushed2_5 V c t) fun (i : S12000x64.Idx) => by
    obtain ⟨t, ht⟩ := covered2 i
    obtain ⟨-, -, -, -, -, -, -, -, -, -, -, e0, e1⟩ := index_facts2 t
    have h0 : (i 0).val < 12000 := (i 0).isLt
    have h1 : (i 1).val < 64 := (i 1).isLt
    refine ⟨t, Gen.flush2_5 t, ?_⟩
    show i ∈ ((View.whole main_call0_v57_1).slice (win2_5.rect t)).set
    rw [View.set_slice_whole, Rect.mem_set_unit]
    intro a
    match a with
    | ⟨0, _⟩ => show win2_5.index t 0 * 480 ≤ (i 0).val ∧ (i 0).val < win2_5.index t 0 * 480 + 480; rw [e0]; omega
    | ⟨1, _⟩ => show win2_5.index t 1 * 64 ≤ (i 1).val ∧ (i 1).val < win2_5.index t 1 * 64 + 64; rw [e1]; omega

/-- The first output after region 2, at row `i` and lane `q`. -/
theorem region2_cur (c : Dev nD) (i : Fin 12000) (q : Fin 64) :
    (Gen.dat2 (F := Ideal) V c).arrAt 4 cfg2.N (ix2 i q)
      = (∑ k : Fin 12000, mat2 V c (ix2 i k) * opd2 V c (ix2 k q)) * col2 V c (ix2 i 0) := by
  rw [region2_cur_arr V c]
  rfl

/-- The second output after region 2, at row `i` and lane `q`. -/
theorem region2_acc (c : Dev nD) (i : Fin 12000) (q : Fin 64) :
    (Gen.dat2 (F := Ideal) V c).arrAt 5 cfg2.N (ix2 i q)
      = tot2 V c (ix2 i q) + (∑ k : Fin 12000, mat2 V c (ix2 i k) * opd2 V c (ix2 k q)) * col2 V c (ix2 i 0) := by
  rw [region2_acc_arr V c]
  rfl

end

end Cert.KernelIdeal.RegionValue

end
-- ==== Proof.KernelHostOps.lean ====
import proofs.«147772_j36326833389965_2_alg».proof.Proof.Gen.KernelIdeal
import Idealize.ShloMosaic.Lib.ValueIdx
import Idealize.ShloMosaic.Lib.Pipeline.Value
import Idealize.ShloMosaic.PureOps.Ideal.Laws
import Idealize.ShloMosaic.Lib.IdealHost

/-!
  Three host operations read at an index, on the extended reals.

  * scaling the rows of a matrix by a column vector: entry `(i, q)` of the product is `x (i, q) * r (i, 0)`;
  * the inverse square root of the clipped row sums: entry `(i, 0)` is `rsqrt (max (∑ j, A (i, j)) 1)`;
  * the division of every entry by the constant `4`.

  On the extended reals a change of float format is the identity, a product is the product, a maximum the maximum,
  and a row sum is the finite sum over the column index starting from zero.
-/

open scoped BigOperators

namespace Cert.KernelIdeal.HostOps

open Cert.KernelIdeal Cert.KernelIdeal.Gen Idealize.ShloMosaic Idealize.ShloMosaic.ValueIdx

/-- Entry `(i, q)` of a matrix whose rows are scaled by a column vector. -/
theorem scaleRows_apply (x : FVec Ideal S12000x64 .f32) (r : FVec Ideal S12000x1 .f32) (i : Fin 12000) (q : Fin 64) :
    truncf .bf16 (mulf x (broadcastInDim S12000x64 ![0, 1] bcast_S12000x1_S12000x64_0_1 r)) bitsLt_bf16_f32 (ix2 i q)
      = x (ix2 i q) * r (ix2 i 0) := by
  show x (ix2 i q) * broadcastInDim S12000x64 ![0, 1] bcast_S12000x1_S12000x64_0_1 r (ix2 i q) = _
  rw [broadcastInDim_apply _ bcast_S12000x1_S12000x64_0_1 r (ix2 i q) (ix2 i 0) (fun a => match a with
    | ⟨0, _⟩ => by show i.val = if (12000 : Nat) = 1 then 0 else i.val; rw [if_neg (by decide)]
    | ⟨1, _⟩ => by show 0 = if (1 : Nat) = 1 then 0 else q.val; rw [if_pos rfl])]

/-- The sum of row `i` of a square matrix, from the zero constant. -/
theorem rowSum_apply (y : FVec Ideal S12000x12000 .f32) (i : Fin 12000) :
    Host.reduceAdd y (constant (F := Ideal) S_ .f32 0#32) reducesTo_S12000x12000_S12000_d1 h_S_ (ix1 i)
      = ∑ j : Fin 12000, y (ix2 i j) := by
  simp only [Host.reduceAdd, Ideal.hostReduceAdd_def]
  rw [Ideal.hostReduceAdd_single reducesTo_S12000x12000_S12000_d1 (by decide)]
  rw [constant_apply]
  rw [Ideal.ofBits_zero_f32, zero_add]
  refine Finset.sum_congr rfl fun k _ => ?_
  exact congrArg y (funext fun a => Fin.ext (by match a with | ⟨0, _⟩ => rfl | ⟨1, _⟩ => rfl))

/-- Entry `(i, 0)` of the inverse square root of the row sums clipped below at one. -/
theorem invSqrtDeg_apply (A : FVec Ideal S12000x12000 .bf16) (i : Fin 12000) :
    Host.rsqrt (maximumf (broadcastInDim S12000x1 ![0] bcast_S12000_S12000x1_0 (Host.reduceAdd (extf .f32 A bitsLt_bf16_f32) (constant S_ .f32 0#32) reducesTo_S12000x12000_S12000_d1 h_S_)) (broadcastInDim S12000x1 ![] bcast_S_S12000x1 (constant S_ .f32 1065353216#32))) (ix2 i 0)
      = Ideal.rsqrt (max (∑ j : Fin 12000, A (ix2 i j)) 1) := by
  have hs := rowSum_apply (extf .f32 A bitsLt_bf16_f32) i
  generalize Host.reduceAdd (extf .f32 A bitsLt_bf16_f32) (constant (F := Ideal) S_ .f32 0#32) reducesTo_S12000x12000_S12000_d1 h_S_ = s at hs ⊢
  show Ideal.rsqrt (max (broadcastInDim S12000x1 ![0] bcast_S12000_S12000x1_0 s (ix2 i 0))
    (broadcastInDim S12000x1 ![] bcast_S_S12000x1 (constant (F := Ideal) S_ .f32 1065353216#32) (ix2 i 0))) = _
  rw [broadcastInDim_apply _ bcast_S12000_S12000x1_0 s (ix2 i 0) (ix1 i) (fun a => match a with
    | ⟨0, _⟩ => by show i.val = if (12000 : Nat) = 1 then 0 else i.val; rw [if_neg (by decide)]),
    broadcastInDim_scalar_apply, constant_apply, Ideal.ofBits_one_f32, hs]
  rfl

/-- Every entry divided by the constant four. -/
theorem quarter_apply (x : FVec Ideal S12000x64 .f32) (i : Fin 12000) (q : Fin 64) :
    Host.divf x (broadcastInDim S12000x64 ![] bcast_S_S12000x64 (constant S_ .f32 0x40800000#32)) (ix2 i q)
      = Ideal.div (x (ix2 i q)) (Ideal.ofBits .f32 0x40800000#32) := by
  show Ideal.div (x (ix2 i q)) (broadcastInDim S12000x64 ![] bcast_S_S12000x64 (constant (F := Ideal) S_ .f32 0x40800000#32) (ix2 i q)) = _
  rw [broadcastInDim_scalar_apply, constant_apply]

end Cert.KernelIdeal.HostOps
-- ==== Proof.PropagationDefs.lean ====
/-
  Normalized propagation over a dense adjacency matrix, written two ways.

  For a square matrix `A` (rows `i`, columns `j`) let `deg i` be the row sum of `A` clamped below by one. One way scales
  the operand's rows by `deg^(-1/2)`, multiplies by `A`, and scales the result's rows by `deg^(-1/2)` again
  (`scaledStep`); the other first forms the matrix `A i j / sqrt (deg i) / sqrt (deg j)` and multiplies by it
  (`normalizedStep`). `scaledChain` / `normalizedChain` iterate the two steps from a start matrix `E`, and `accum` adds
  the first four iterates, associated to the left. Everything is over the extended reals with the square root, the
  reciprocal square root and the quotient of the ideal float instance.
-/
import Idealize.ShloMosaic.PureOps.Ideal

noncomputable section

open scoped BigOperators

namespace Cert.Propagation

open Idealize.ShloMosaic

variable {n d : ℕ}

/-- The sum of row `i` of `A`. -/
def rowSum (A : Fin n → Fin n → EReal) (i : Fin n) : EReal := ∑ j, A i j

/-- `(max (rowSum i) 1)^(-1/2)`. -/
def invSqrtDeg (A : Fin n → Fin n → EReal) (i : Fin n) : EReal := Ideal.rsqrt (max (rowSum A i) 1)

/-- `(max 1 (rowSum i))^(1/2)`. -/
def sqrtDeg (A : Fin n → Fin n → EReal) (i : Fin n) : EReal := Ideal.sqrt (max 1 (rowSum A i))

/-- `A i j / sqrtDeg i / sqrtDeg j`. -/
def normalized (A : Fin n → Fin n → EReal) (i j : Fin n) : EReal :=
  Ideal.div (Ideal.div (A i j) (sqrtDeg A i)) (sqrtDeg A j)

/-- Rows of `c` scaled by `invSqrtDeg`, multiplied by `A`, rows of the product scaled by `invSqrtDeg`. -/
def scaledStep (A : Fin n → Fin n → EReal) (c : Fin n → Fin d → EReal) : Fin n → Fin d → EReal :=
  fun i q => (∑ j, A i j * (c j q * invSqrtDeg A j)) * invSqrtDeg A i

/-- `c` multiplied by the normalized matrix. -/
def normalizedStep (A : Fin n → Fin n → EReal) (c : Fin n → Fin d → EReal) : Fin n → Fin d → EReal :=
  fun i q => ∑ j, normalized A i j * c j q

/-- The iterates of `scaledStep` from `E`. -/
def scaledChain (A : Fin n → Fin n → EReal) (E : Fin n → Fin d → EReal) : ℕ → Fin n → Fin d → EReal
  | 0 => E
  | k + 1 => scaledStep A (scaledChain A E k)

/-- The iterates of `normalizedStep` from `E`. -/
def normalizedChain (A : Fin n → Fin n → EReal) (E : Fin n → Fin d → EReal) : ℕ → Fin n → Fin d → EReal
  | 0 => E
  | k + 1 => normalizedStep A (normalizedChain A E k)

/-- The first four iterates added up, associated to the left. -/
def accum (ch : ℕ → Fin n → Fin d → EReal) : Fin n → Fin d → EReal :=
  fun i q => ((ch 0 i q + ch 1 i q) + ch 2 i q) + ch 3 i q

end Cert.Propagation

end
-- ==== Proof.KernelValue.lean ====
/-
  The idealized kernel program's value: the running sum after the third region, divided by four.

  With `A` the adjacency as the first host stretch leaves it and `E` the two embedding tables stacked, each region
  computes, on its block of rows, `(A · X) * s` into its first output and `T + (A · X) * s` into its second, where `X` is
  the previous layer with its rows scaled by `s = (max (rowSum A) 1)^(-1/2)`, `s` the same column, and `T` the running
  sum so far. So the first output of region `k` is the `k`-th iterate of `scaledStep A` from `E`, and the running sum
  after region 3 is `E + c₁ + c₂ + c₃` associated to the left (`accum`). The proof walks the seven boundaries: at each
  region's entry the four input arrays are known entry by entry, the region's two outputs follow from its block
  computation, and the short host stretch after it scales the new layer and copies the running sum.
-/
import proofs.«147772_j36326833389965_2_alg».proof.Proof.KernelHost
import proofs.«147772_j36326833389965_2_alg».proof.Proof.KernelStretches
import proofs.«147772_j36326833389965_2_alg».proof.Proof.KernelRegions
import proofs.«147772_j36326833389965_2_alg».proof.Proof.KernelHostOps
import proofs.«147772_j36326833389965_2_alg».proof.Proof.PropagationDefs

set_option maxRecDepth 16384

noncomputable section

open scoped BigOperators

namespace Cert.KernelIdeal.KernelValue

open Cert.KernelIdeal Cert.KernelIdeal.Gen Cert.KernelIdeal.HostFold Cert.KernelIdeal.Stretches Cert.KernelIdeal.RegionValue
open Cert.KernelIdeal.HostOps Cert.Propagation
open Idealize.ShloMosaic Idealize.ShloMosaic.TcCoe Idealize.ShloMosaic.ValueIdx Idealize.ShloMosaic.StableHlo
open Idealize.SL.Sem

/-- One region's block computation is one `scaledStep`, given its three input arrays entry by entry. -/
theorem step_of (A : S12000x12000.Idx → EReal) (X : S12000x64.Idx → EReal) (R : S12000x1.Idx → EReal)
    (AK : Fin 12000 → Fin 12000 → EReal) (cur : Fin 12000 → Fin 64 → EReal)
    (hA : ∀ i k, A (ix2 i k) = AK i k) (hX : ∀ k q, X (ix2 k q) = cur k q * invSqrtDeg AK k)
    (hR : ∀ i, R (ix2 i 0) = invSqrtDeg AK i) (i : Fin 12000) (q : Fin 64) :
    (∑ k : Fin 12000, A (ix2 i k) * X (ix2 k q)) * R (ix2 i 0) = scaledStep AK cur i q := by
  unfold scaledStep
  rw [hR i]
  exact congrArg (· * invSqrtDeg AK i) (Finset.sum_congr rfl fun k _ => by rw [hA i k, hX k q])

theorem scaledChain_succ {n d : ℕ} (A : Fin n → Fin n → EReal) (E : Fin n → Fin d → EReal) (k : ℕ) :
    scaledChain A E (k + 1) = scaledStep A (scaledChain A E k) := rfl

variable (m : (ℓ : Loc nD τ sig) → Buf (Elt Ideal) ℓ) (ρ : Dev nD → PrngReg) (c : Dev nD)

/-- The adjacency, as the first fifty host operations leave it. -/
abbrev adjArr : S12000x12000.Idx → EReal := Wa m ρ c (Proc.devRef .tc main_call0_v38)
/-- The two embedding tables stacked. -/
abbrev embArr : S12000x64.Idx → EReal := (concatenate S12000x64 0 [⟨S8000x64, Wa m ρ c (Proc.devRef .tc main_arg1)⟩, ⟨S4000x64, Wa m ρ c (Proc.devRef .tc main_arg2)⟩] concatenates_S8000x64_S4000x64_S12000x64_d0)
/-- The same as matrices. -/
def adjK : Fin 12000 → Fin 12000 → EReal := fun i j => adjArr m ρ c (ix2 i j)
def embK : Fin 12000 → Fin 64 → EReal := fun i q => embArr m ρ c (ix2 i q)

/-! ## Region 0's entry -/

theorem l1_mat (i k : Fin 12000) : (show S12000x12000.Idx → EReal from W1 m ρ c (Proc.devRef .tc main_call0_v38)) (ix2 i k) = adjK m ρ c i k :=
  congrFun (W1_v38 m ρ c) (ix2 i k)
theorem l1_col (i : Fin 12000) : (show S12000x1.Idx → EReal from W1 m ρ c (Proc.devRef .tc main_call0_v44)) (ix2 i 0) = invSqrtDeg (adjK m ρ c) i :=
  (congrFun (W1_v44 m ρ c) (ix2 i 0)).trans (invSqrtDeg_apply (adjArr m ρ c) i)
theorem l1_opd (k : Fin 12000) (q : Fin 64) : (show S12000x64.Idx → EReal from W1 m ρ c (Proc.devRef .tc main_call0_v48)) (ix2 k q) = embK m ρ c k q * invSqrtDeg (adjK m ρ c) k :=
  (congrFun (W1_v48 m ρ c) (ix2 k q)).trans ((scaleRows_apply _ _ k q).trans
    (congrArg (embK m ρ c k q * ·) (invSqrtDeg_apply (adjArr m ρ c) k)))
theorem l1_tot (i : Fin 12000) (q : Fin 64) : (show S12000x64.Idx → EReal from W1 m ρ c (Proc.devRef .tc main_call0_v45)) (ix2 i q) = embK m ρ c i q :=
  congrFun (W1_v45 m ρ c) (ix2 i q)

/-! ## Region 0's exit -/

theorem l2_cur (i : Fin 12000) (q : Fin 64) : (show S12000x64.Idx → EReal from W2 m ρ c (Proc.devRef .tc main_call0_v49_0)) (ix2 i q) = scaledChain (adjK m ρ c) (embK m ρ c) 1 i q :=
  (congrFun (W2_arr m ρ c 4) (ix2 i q)).trans ((region0_cur (V1 m ρ) c i q).trans
    (step_of _ _ _ (adjK m ρ c) (embK m ρ c) (l1_mat m ρ c) (l1_opd m ρ c) (l1_col m ρ c) i q))
theorem l2_acc (i : Fin 12000) (q : Fin 64) : (show S12000x64.Idx → EReal from W2 m ρ c (Proc.devRef .tc main_call0_v49_1)) (ix2 i q) = embK m ρ c i q + scaledChain (adjK m ρ c) (embK m ρ c) 1 i q :=
  (congrFun (W2_arr m ρ c 5) (ix2 i q)).trans ((region0_acc (V1 m ρ) c i q).trans
    (congrArg₂ (· + ·) (l1_tot m ρ c i q) (step_of _ _ _ (adjK m ρ c) (embK m ρ c) (l1_mat m ρ c) (l1_opd m ρ c) (l1_col m ρ c) i q)))
theorem l2_mat (i k : Fin 12000) : (show S12000x12000.Idx → EReal from W2 m ρ c (Proc.devRef .tc main_call0_v38)) (ix2 i k) = adjK m ρ c i k :=
  (congrFun (W2_v38 m ρ c) (ix2 i k)).trans (l1_mat m ρ c i k)
theorem l2_col (i : Fin 12000) : (show S12000x1.Idx → EReal from W2 m ρ c (Proc.devRef .tc main_call0_v44)) (ix2 i 0) = invSqrtDeg (adjK m ρ c) i :=
  (congrFun (W2_v44 m ρ c) (ix2 i 0)).trans (l1_col m ρ c i)

/-! ## Region 1's entry (after the first short stretch) -/

theorem l3_mat (i k : Fin 12000) : (show S12000x12000.Idx → EReal from W3 m ρ c (Proc.devRef .tc main_call0_v38)) (ix2 i k) = adjK m ρ c i k :=
  (congrFun (W3_v38 m ρ c) (ix2 i k)).trans (l2_mat m ρ c i k)
theorem l3_col (i : Fin 12000) : (show S12000x1.Idx → EReal from W3 m ρ c (Proc.devRef .tc main_call0_v44)) (ix2 i 0) = invSqrtDeg (adjK m ρ c) i :=
  (congrFun (W3_v44 m ρ c) (ix2 i 0)).trans (l2_col m ρ c i)
theorem l3_opd (k : Fin 12000) (q : Fin 64) : (show S12000x64.Idx → EReal from W3 m ρ c (Proc.devRef .tc main_call0_v52)) (ix2 k q) = scaledChain (adjK m ρ c) (embK m ρ c) 1 k q * invSqrtDeg (adjK m ρ c) k :=
  (congrFun (W3_v52 m ρ c) (ix2 k q)).trans ((scaleRows_apply _ _ k q).trans
    (congrArg₂ (· * ·) (l2_cur m ρ c k q) (l2_col m ρ c k)))
theorem l3_tot (i : Fin 12000) (q : Fin 64) : (show S12000x64.Idx → EReal from W3 m ρ c (Proc.devRef .tc main_call0_v49_1)) (ix2 i q) = embK m ρ c i q + scaledChain (adjK m ρ c) (embK m ρ c) 1 i q :=
  (congrFun (W3_v49_1 m ρ c) (ix2 i q)).trans (l2_acc m ρ c i q)

/-! ## Region 1's exit -/

theorem l4_cur (i : Fin 12000) (q : Fin 64) : (show S12000x64.Idx → EReal from W4 m ρ c (Proc.devRef .tc main_call0_v53_0)) (ix2 i q) = scaledChain (adjK m ρ c) (embK m ρ c) 2 i q :=
  (congrFun (W4_arr m ρ c 4) (ix2 i q)).trans ((region1_cur (V3 m ρ) c i q).trans
    (step_of _ _ _ (adjK m ρ c) (scaledChain (adjK m ρ c) (embK m ρ c) 1) (l3_mat m ρ c) (l3_opd m ρ c) (l3_col m ρ c) i q))
theorem l4_acc (i : Fin 12000) (q : Fin 64) : (show S12000x64.Idx → EReal from W4 m ρ c (Proc.devRef .tc main_call0_v53_1)) (ix2 i q) = (embK m ρ c i q + scaledChain (adjK m ρ c) (embK m ρ c) 1 i q) + scaledChain (adjK m ρ c) (embK m ρ c) 2 i q :=
  (congrFun (W4_arr m ρ c 5) (ix2 i q)).trans ((region1_acc (V3 m ρ) c i q).trans
    (congrArg₂ (· + ·) (l3_tot m ρ c i q) (step_of _ _ _ (adjK m ρ c) (scaledChain (adjK m ρ c) (embK m ρ c) 1) (l3_mat m ρ c) (l3_opd m ρ c) (l3_col m ρ c) i q)))
theorem l4_mat (i k : Fin 12000) : (show S12000x12000.Idx → EReal from W4 m ρ c (Proc.devRef .tc main_call0_v38)) (ix2 i k) = adjK m ρ c i k :=
  (congrFun (W4_v38 m ρ c) (ix2 i k)).trans (l3_mat m ρ c i k)
theorem l4_col (i : Fin 12000) : (show S12000x1.Idx → EReal from W4 m ρ c (Proc.devRef .tc main_call0_v44)) (ix2 i 0) = invSqrtDeg (adjK m ρ c) i :=
  (congrFun (W4_v44 m ρ c) (ix2 i 0)).trans (l3_col m ρ c i)

/-! ## Region 2's entry (after the second short stretch) -/

theorem l5_mat (i k : Fin 12000) : (show S12000x12000.Idx → EReal from W5 m ρ c (Proc.devRef .tc main_call0_v38)) (ix2 i k) = adjK m ρ c i k :=
  (congrFun (W5_v38 m ρ c) (ix2 i k)).trans (l4_mat m ρ c i k)
theorem l5_col (i : Fin 12000) : (show S12000x1.Idx → EReal from W5 m ρ c (Proc.devRef .tc main_call0_v44)) (ix2 i 0) = invSqrtDeg (adjK m ρ c) i :=
  (congrFun (W5_v44 m ρ c) (ix2 i 0)).trans (l4_col m ρ c i)
theorem l5_opd (k : Fin 12000) (q : Fin 64) : (show S12000x64.Idx → EReal from W5 m ρ c (Proc.devRef .tc main_call0_v56)) (ix2 k q) = scaledChain (adjK m ρ c) (embK m ρ c) 2 k q * invSqrtDeg (adjK m ρ c) k :=
  (congrFun (W5_v56 m ρ c) (ix2 k q)).trans ((scaleRows_apply _ _ k q).trans
    (congrArg₂ (· * ·) (l4_cur m ρ c k q) (l4_col m ρ c k)))
theorem l5_tot (i : Fin 12000) (q : Fin 64) : (show S12000x64.Idx → EReal from W5 m ρ c (Proc.devRef .tc main_call0_v53_1)) (ix2 i q) = (embK m ρ c i q + scaledChain (adjK m ρ c) (embK m ρ c) 1 i q) + scaledChain (adjK m ρ c) (embK m ρ c) 2 i q :=
  (congrFun (W5_v53_1 m ρ c) (ix2 i q)).trans (l4_acc m ρ c i q)

/-! ## Region 2's exit, and the quotient -/

theorem l6_acc (i : Fin 12000) (q : Fin 64) : (show S12000x64.Idx → EReal from W6 m ρ c (Proc.devRef .tc main_call0_v57_1)) (ix2 i q) = accum (scaledChain (adjK m ρ c) (embK m ρ c)) i q :=
  (congrFun (W6_arr m ρ c 5) (ix2 i q)).trans ((region2_acc (V5 m ρ) c i q).trans
    (congrArg₂ (· + ·) (l5_tot m ρ c i q) (step_of _ _ _ (adjK m ρ c) (scaledChain (adjK m ρ c) (embK m ρ c) 2) (l5_mat m ρ c) (l5_opd m ρ c) (l5_col m ρ c) i q)))

/-- The array both results are cut from: the running sum after the third region, divided by four. -/
abbrev quotientArr : S12000x64.Idx → EReal :=
  Host.divf (show FVec Ideal S12000x64 .f32 from W6 m ρ c (Proc.devRef .tc main_call0_v57_1)) (broadcastInDim S12000x64 ![] bcast_S_S12000x64 (constant S_ .f32 0x40800000#32))

theorem quotient_apply (i : Fin 12000) (q : Fin 64) :
    quotientArr m ρ c (ix2 i q) = Ideal.div (accum (scaledChain (adjK m ρ c) (embK m ρ c)) i q) (Ideal.ofBits .f32 0x40800000#32) :=
  (quarter_apply _ i q).trans (congrArg (Ideal.div · (Ideal.ofBits .f32 0x40800000#32)) (l6_acc m ρ c i q))

end Cert.KernelIdeal.KernelValue

end
-- ==== Proof.RefValue.lean ====
/-
  The reference's value as the shared specification.

  Reading the reference one stage at a time at explicit coordinates: the row sums of the dense adjacency matrix, their
  clamp below by one and square root, the matrix divided by the square root of its row's degree and then by the square
  root of its column's degree, three successive products of that normalized matrix with the stacked embedding tables,
  the sum of the start matrix and the three products (associated to the left), and the quotient by four. The result is
  `accum (normalizedChain A E)` divided by four, with `A` the adjacency and `E` the stacked tables as matrices.
-/
import proofs.«147772_j36326833389965_2_alg».proof.Proof.Gen.ReferenceIdeal.Read
import proofs.«147772_j36326833389965_2_alg».proof.Proof.PropagationDefs
import Idealize.ShloMosaic.Lib.ValueIdx
import Idealize.ShloMosaic.Lib.IdealHost
import Idealize.ShloMosaic.PureOps.Ideal.Laws

noncomputable section

open scoped BigOperators

namespace Cert.ReferenceIdeal.RefValue

open Cert.ReferenceIdeal Cert.ReferenceIdeal.Gen Cert.Propagation Idealize.ShloMosaic Idealize.ShloMosaic.TcCoe
  Idealize.SL.Sem Idealize.ShloMosaic.StableHlo Idealize.ShloMosaic.ValueIdx

/-- The adjacency as a matrix. -/
def adj (x0 : (⟨S2x300000, .i32⟩ : BufTy).Contents (Elt Ideal)) : Fin 12000 → Fin 12000 → EReal :=
  fun i j => Read.val_main_v38 (F := Ideal) x0 (ix2 i j)

/-- The two embedding tables stacked, as a matrix. -/
def emb (x1 : (⟨S8000x64, .f32⟩ : BufTy).Contents (Elt Ideal)) (x2 : (⟨S4000x64, .f32⟩ : BufTy).Contents (Elt Ideal)) :
    Fin 12000 → Fin 64 → EReal :=
  fun i q => Read.val_main_v48 (F := Ideal) x1 x2 (ix2 i q)

variable (x0 : (⟨S2x300000, .i32⟩ : BufTy).Contents (Elt Ideal))
  (x1 : (⟨S8000x64, .f32⟩ : BufTy).Contents (Elt Ideal)) (x2 : (⟨S4000x64, .f32⟩ : BufTy).Contents (Elt Ideal))

/-! ## The degrees -/

/-- The reduction over the columns is the row sum. -/
theorem v39_apply (i : Fin 12000) :
    Read.val_main_v39 (F := Ideal) x0 (ix1 i) = rowSum (adj x0) i := by
  rw [Read.val_main_v39_apply, Read.val_main_cst_9_apply, Ideal.ofBits_def, Ideal.ofBits_zero_f32, zero_add]
  unfold rowSum adj
  refine Finset.sum_congr rfl fun k _ => congrArg _ (funext fun a => ?_)
  match a with
  | ⟨0, _⟩ => rfl
  | ⟨1, _⟩ => rfl

/-- The row sums as a column. -/
theorem v40_apply (i : Fin 12000) (z : Fin 1) :
    Read.val_main_v40 (F := Ideal) x0 (ix2 i z) = rowSum (adj x0) i := by
  rw [Read.val_main_v40_apply, ← v39_apply]
  refine congrArg _ (funext fun a => ?_)
  match a with
  | ⟨0, _⟩ => rfl

/-- The clamp below by one: the constant one first, the row sum second. -/
theorem v41_apply (i : Fin 12000) (z : Fin 1) :
    Read.val_main_v41 (F := Ideal) x0 (ix2 i z) = max 1 (rowSum (adj x0) i) := by
  rw [Read.val_main_v41_apply, Read.val_main_call0_v1_apply, Read.val_main_call0_v0_apply, Read.val_main_cst_10_apply,
    v40_apply, Ideal.maximumf_def, Ideal.ofBits_def, Ideal.ofBits_one_f32]

/-- The square root of the clamped degree. -/
theorem v42_apply (i : Fin 12000) (z : Fin 1) :
    Read.val_main_v42 (F := Ideal) x0 (ix2 i z) = sqrtDeg (adj x0) i := by
  rw [Read.val_main_v42_apply, v41_apply, Ideal.hostUnary_sqrt_def]
  rfl

/-- Broadcast along the columns: the row's value. -/
theorem v43_apply (i j : Fin 12000) :
    Read.val_main_v43 (F := Ideal) x0 (ix2 i j) = sqrtDeg (adj x0) i := by
  rw [Read.val_main_v43_apply, ← v42_apply x0 i 0]
  refine congrArg _ (funext fun a => ?_)
  match a with
  | ⟨0, _⟩ => rfl
  | ⟨1, _⟩ => rfl

/-- The transposed column is the row of square roots. -/
theorem v45_apply (z : Fin 1) (j : Fin 12000) :
    Read.val_main_v45 (F := Ideal) x0 (ix2 z j) = sqrtDeg (adj x0) j := by
  rw [Read.val_main_v45_apply, ← v42_apply x0 j z]
  refine congrArg _ (funext fun a => ?_)
  match a with
  | ⟨0, _⟩ => rfl
  | ⟨1, _⟩ => rfl

/-- Broadcast along the rows: the column's value. -/
theorem v46_apply (i j : Fin 12000) :
    Read.val_main_v46 (F := Ideal) x0 (ix2 i j) = sqrtDeg (adj x0) j := by
  rw [Read.val_main_v46_apply, ← v45_apply x0 0 j]
  refine congrArg _ (funext fun a => ?_)
  match a with
  | ⟨0, _⟩ => rfl
  | ⟨1, _⟩ => rfl

/-! ## The normalized matrix -/

/-- The adjacency divided by the square root of its row's degree. -/
theorem v44_apply (i j : Fin 12000) :
    Read.val_main_v44 (F := Ideal) x0 (ix2 i j) = Ideal.div (adj x0 i j) (sqrtDeg (adj x0) i) := by
  rw [Read.val_main_v44_apply, v43_apply, Ideal.hostDivf_def]
  rfl

/-- Divided again by the square root of its column's degree. -/
theorem v47_apply (i j : Fin 12000) :
    Read.val_main_v47 (F := Ideal) x0 (ix2 i j) = normalized (adj x0) i j := by
  rw [Read.val_main_v47_apply, v44_apply, v46_apply, Ideal.hostDivf_def]
  rfl

/-! ## The products -/

/-- One product with the normalized matrix: the contraction over the shared axis of the normalized matrix's row `i` and
    column `q` of a matrix known entry by entry. -/
theorem sum_step (y : (⟨S12000x64, .f32⟩ : BufTy).Contents (Elt Ideal)) (c : Fin 12000 → Fin 64 → EReal)
    (hy : ∀ k q, y (ix2 k q) = c k q) (i : Fin 12000) (q : Fin 64) :
    ∑ k : Fin 12000, Read.val_main_v47 (F := Ideal) x0 (Read.lidx_main_v49 (ix2 i q) k) * y (Read.ridx_main_v49 (ix2 i q) k)
      = normalizedStep (adj x0) c i q := by
  unfold normalizedStep
  refine Finset.sum_congr rfl fun k _ => ?_
  have el : Read.lidx_main_v49 (ix2 i q) k = ix2 i k := funext fun a => by
    match a with
    | ⟨0, _⟩ => rfl
    | ⟨1, _⟩ => rfl
  have er : Read.ridx_main_v49 (ix2 i q) k = ix2 k q := funext fun a => by
    match a with
    | ⟨0, _⟩ => rfl
    | ⟨1, _⟩ => rfl
  rw [el, er, v47_apply, hy]

/-- The iterates of the product, unfolded one step. -/
theorem chain_succ {n d : ℕ} (A : Fin n → Fin n → EReal) (E : Fin n → Fin d → EReal) (k : ℕ) :
    normalizedChain A E (k + 1) = normalizedStep A (normalizedChain A E k) := rfl

/-- The first product is the first iterate. -/
theorem v49_apply (i : Fin 12000) (q : Fin 64) :
    Read.val_main_v49 (F := Ideal) x0 x1 x2 (ix2 i q) = normalizedChain (adj x0) (emb x1 x2) 1 i q := by
  rw [Read.val_main_v49_apply]
  exact sum_step x0 (Read.val_main_v48 (F := Ideal) x1 x2) (emb x1 x2) (fun _ _ => rfl) i q

/-- The second product is the second iterate. -/
theorem v51_apply (i : Fin 12000) (q : Fin 64) :
    Read.val_main_v51 (F := Ideal) x0 x1 x2 (ix2 i q) = normalizedChain (adj x0) (emb x1 x2) 2 i q := by
  rw [Read.val_main_v51_apply]
  exact sum_step x0 (Read.val_main_v49 (F := Ideal) x0 x1 x2) (normalizedChain (adj x0) (emb x1 x2) 1) (v49_apply x0 x1 x2) i q

/-- The third product is the third iterate. -/
theorem v53_apply (i : Fin 12000) (q : Fin 64) :
    Read.val_main_v53 (F := Ideal) x0 x1 x2 (ix2 i q) = normalizedChain (adj x0) (emb x1 x2) 3 i q := by
  rw [Read.val_main_v53_apply]
  exact sum_step x0 (Read.val_main_v51 (F := Ideal) x0 x1 x2) (normalizedChain (adj x0) (emb x1 x2) 2) (v51_apply x0 x1 x2) i q

/-! ## The sum of the iterates and the mean -/

/-- The start matrix and the three products, added up from the left. -/
theorem v54_apply (i : Fin 12000) (q : Fin 64) :
    Read.val_main_v54 (F := Ideal) x0 x1 x2 (ix2 i q) = accum (normalizedChain (adj x0) (emb x1 x2)) i q := by
  rw [Read.val_main_v54_apply, Read.val_main_v52_apply, Read.val_main_v50_apply, v49_apply, v51_apply, v53_apply]
  simp only [Ideal.addf_def]
  rfl

/-- The reference's result before it is split: the accumulated iterates divided by four. -/
theorem v56_apply (i : Fin 12000) (q : Fin 64) :
    Read.val_main_v56 (F := Ideal) x0 x1 x2 (ix2 i q)
      = Ideal.div (accum (normalizedChain (adj x0) (emb x1 x2)) i q) (Ideal.ofBits .f32 0x40800000#32) := by
  rw [Read.val_main_v56_apply, Read.val_main_v55_apply, Read.val_main_cst_11_apply, v54_apply, Ideal.hostDivf_def,
    Ideal.ofBits_def]

end Cert.ReferenceIdeal.RefValue

end
-- ==== Proof.LibConcatElem.lean ====
/-
  A concatenation only lays its pieces side by side: every element of the result is an element of one of the pieces.
  It is stated as an induction principle: a predicate that holds of every element of every piece holds of every
  element of the result. The result at an index is, by definition, the piece the axis coordinate falls in, read at an
  index of that piece, so the predicate is inherited from that piece. The two-piece form is the instance for a pair.
-/
import Idealize.ShloMosaic.PureOps.ShapeOps

namespace Idealize.ShloMosaic

/-- A predicate true of every element of every piece is true of every element of their concatenation. -/
theorem concatenate_induction {α : Type} {t : Shape} (P : α → Prop) (d : Fin t.rank)
    (xs : List ((s : Shape) × (s.Idx → α))) (h : Shape.Concatenates (xs.map (·.1)) t d)
    (hx : ∀ p ∈ xs, ∀ i, P (p.2 i)) (j : t.Idx) : P (concatenate t d xs h j) := by
  unfold concatenate
  exact hx _ (List.getElem_mem _) _

/-- A predicate true of every element of two arrays is true of every element of their concatenation. -/
theorem concatenate_two_induction {α : Type} {t s1 s2 : Shape} (P : α → Prop) (d : Fin t.rank) (a : s1.Idx → α)
    (b : s2.Idx → α) (h : Shape.Concatenates [s1, s2] t d) (ha : ∀ i, P (a i)) (hb : ∀ i, P (b i)) (j : t.Idx) :
    P (concatenate t d [⟨s1, a⟩, ⟨s2, b⟩] h j) := by
  refine concatenate_induction P d [⟨s1, a⟩, ⟨s2, b⟩] h (fun p hp => ?_) j
  rcases List.mem_cons.1 hp with rfl | hp
  · exact ha
  · rcases List.mem_cons.1 hp with rfl | hp
    · exact hb
    · exact absurd hp (List.not_mem_nil)

end Idealize.ShloMosaic
-- ==== Proof.EmbReal.lean ====
/-
  The stacked embedding table is real-valued when both tables are: a concatenation only lays its pieces side by side,
  so each of its entries is an entry of one of the two tables.
-/
import proofs.«147772_j36326833389965_2_alg».proof.Proof.RefValue
import proofs.«147772_j36326833389965_2_alg».proof.Proof.LibConcatElem

noncomputable section

namespace Cert.ReferenceIdeal.RefValue

open Cert.ReferenceIdeal Cert.ReferenceIdeal.Gen Idealize.ShloMosaic Idealize.ShloMosaic.TcCoe
  Idealize.SL.Sem Idealize.ShloMosaic.StableHlo Idealize.ShloMosaic.ValueIdx

/-- Every entry of the stacked table is a real number when every entry of each table is. -/
theorem emb_real (x1 : (⟨S8000x64, .f32⟩ : BufTy).Contents (Elt Ideal)) (x2 : (⟨S4000x64, .f32⟩ : BufTy).Contents (Elt Ideal))
    (h1 : ∀ i, ∃ r : ℝ, x1 i = (r : EReal)) (h2 : ∀ i, ∃ r : ℝ, x2 i = (r : EReal)) (i : Fin 12000) (q : Fin 64) :
    ∃ r : ℝ, emb x1 x2 i q = (r : EReal) := by
  unfold emb Read.val_main_v48
  exact concatenate_two_induction (fun e : EReal => ∃ r : ℝ, e = (r : EReal)) 0 x1 x2
    concatenates_S8000x64_S4000x64_S12000x64_d0 h1 h2 (ix2 i q)

end Cert.ReferenceIdeal.RefValue

end
-- ==== Proof.PropagationLaw.lean ====
/-
  The two ways of writing normalized propagation agree when every entry is a real number.

  With real entries the row sum of the adjacency matrix is a real number, its clamp below by one is a real number
  at least one, so the reciprocal square root, the square root and the two quotients all take real values with
  no corner case: scaling by the reciprocal square root before and after the product is the same as multiplying
  by the matrix whose entries were divided by the two square roots. The chains agree by induction, every iterate
  staying real, and so do the sums of the first four iterates.
-/
import proofs.«147772_j36326833389965_2_alg».proof.Proof.PropagationDefs

noncomputable section

open scoped BigOperators

namespace Cert.Propagation

open Idealize.ShloMosaic

variable {n d : ℕ}

/-- A finite sum of real numbers, taken in the extended reals, is the real sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row sum of a real matrix, clamped below by one. -/
def deg (a : Fin n → Fin n → ℝ) (i : Fin n) : ℝ := max (∑ j, a i j) 1

theorem deg_pos (a : Fin n → Fin n → ℝ) (i : Fin n) : 0 < deg a i :=
  lt_of_lt_of_le one_pos (le_max_right _ _)

theorem sqrt_deg_pos (a : Fin n → Fin n → ℝ) (i : Fin n) : 0 < Real.sqrt (deg a i) :=
  Real.sqrt_pos.2 (deg_pos a i)

theorem rowSum_coe (a : Fin n → Fin n → ℝ) (i : Fin n) :
    rowSum (fun i j => (a i j : EReal)) i = ((∑ j, a i j : ℝ) : EReal) := by
  rw [rowSum, coe_finset_sum]

/-- At a real matrix the reciprocal square root of the clamped row sum is the real `(√deg)⁻¹`. -/
theorem invSqrtDeg_coe (a : Fin n → Fin n → ℝ) (i : Fin n) :
    invSqrtDeg (fun i j => (a i j : EReal)) i = (((Real.sqrt (deg a i))⁻¹ : ℝ) : EReal) := by
  have h : max (rowSum (fun i j => (a i j : EReal)) i) 1 = ((deg a i : ℝ) : EReal) := by
    rw [rowSum_coe, deg, EReal.coe_strictMono.monotone.map_max, EReal.coe_one]
  rw [invSqrtDeg, h, Ideal.rsqrt_coe, if_neg (not_lt.2 (deg_pos a i).le), if_neg (deg_pos a i).ne']

/-- At a real matrix the square root of the clamped row sum is the real `√deg`. -/
theorem sqrtDeg_coe (a : Fin n → Fin n → ℝ) (i : Fin n) :
    sqrtDeg (fun i j => (a i j : EReal)) i = ((Real.sqrt (deg a i) : ℝ) : EReal) := by
  have h : max 1 (rowSum (fun i j => (a i j : EReal)) i) = ((deg a i : ℝ) : EReal) := by
    rw [rowSum_coe, deg, EReal.coe_strictMono.monotone.map_max, EReal.coe_one, max_comm]
  rw [sqrtDeg, h, Ideal.sqrt_coe, if_neg (not_lt.2 (deg_pos a i).le)]

/-- The normalized matrix of a real matrix is real, with entries `a i j / √deg i / √deg j`. -/
theorem normalized_coe (a : Fin n → Fin n → ℝ) (i j : Fin n) :
    normalized (fun i j => (a i j : EReal)) i j
      = ((a i j / Real.sqrt (deg a i) / Real.sqrt (deg a j) : ℝ) : EReal) := by
  rw [normalized, sqrtDeg_coe, sqrtDeg_coe, Ideal.div_coe (sqrt_deg_pos a i).ne',
    Ideal.div_coe (sqrt_deg_pos a j).ne', ← EReal.coe_mul, ← EReal.coe_mul]
  congr 1
  rw [div_eq_mul_one_div (a i j), div_eq_mul_one_div (a i j * _)]

/-- One scaled step at real operands, as a real number. -/
theorem scaledStep_coe (a : Fin n → Fin n → ℝ) (c : Fin n → Fin d → ℝ) (i : Fin n) (q : Fin d) :
    scaledStep (fun i j => (a i j : EReal)) (fun i q => (c i q : EReal)) i q
      = (((∑ j, a i j * (c j q * (Real.sqrt (deg a j))⁻¹)) * (Real.sqrt (deg a i))⁻¹ : ℝ) : EReal) := by
  rw [scaledStep, EReal.coe_mul, coe_finset_sum, invSqrtDeg_coe]
  congr 1
  refine Finset.sum_congr rfl fun j _ => ?_
  rw [invSqrtDeg_coe, EReal.coe_mul, EReal.coe_mul]

/-- One normalized step at real operands, as a real number. -/
theorem normalizedStep_coe (a : Fin n → Fin n → ℝ) (c : Fin n → Fin d → ℝ) (i : Fin n) (q : Fin d) :
    normalizedStep (fun i j => (a i j : EReal)) (fun i q => (c i q : EReal)) i q
      = ((∑ j, a i j / Real.sqrt (deg a i) / Real.sqrt (deg a j) * c j q : ℝ) : EReal) := by
  rw [normalizedStep, coe_finset_sum]
  refine Finset.sum_congr rfl fun j _ => ?_
  rw [normalized_coe, EReal.coe_mul]

/-- The real identity behind the two steps: scaling rows by `(√deg)⁻¹` before and after the product is the
    product with the matrix divided by both square roots. -/
theorem real_step_eq (a : Fin n → Fin n → ℝ) (c : Fin n → Fin d → ℝ) (i : Fin n) (q : Fin d) :
    (∑ j, a i j * (c j q * (Real.sqrt (deg a j))⁻¹)) * (Real.sqrt (deg a i))⁻¹
      = ∑ j, a i j / Real.sqrt (deg a i) / Real.sqrt (deg a j) * c j q := by
  rw [Finset.sum_mul]
  refine Finset.sum_congr rfl fun j _ => ?_
  have hi := (sqrt_deg_pos a i).ne'
  have hj := (sqrt_deg_pos a j).ne'
  field_simp

/-- The two steps agree at real operands. -/
theorem step_eq_coe (a : Fin n → Fin n → ℝ) (c : Fin n → Fin d → ℝ) :
    scaledStep (fun i j => (a i j : EReal)) (fun i q => (c i q : EReal))
      = normalizedStep (fun i j => (a i j : EReal)) (fun i q => (c i q : EReal)) := by
  funext i q
  rw [scaledStep_coe, normalizedStep_coe, real_step_eq]

/-- Both chains from a real start over a real matrix stay real and agree. -/
theorem chain_coe (a : Fin n → Fin n → ℝ) (e : Fin n → Fin d → ℝ) (k : ℕ) :
    ∃ c : Fin n → Fin d → ℝ,
      scaledChain (fun i j => (a i j : EReal)) (fun i q => (e i q : EReal)) k = (fun i q => (c i q : EReal)) ∧
      normalizedChain (fun i j => (a i j : EReal)) (fun i q => (e i q : EReal)) k
        = (fun i q => (c i q : EReal)) := by
  induction k with
  | zero => exact ⟨e, rfl, rfl⟩
  | succ k ih =>
    obtain ⟨c, hs, hn⟩ := ih
    refine ⟨fun i q => (∑ j, a i j * (c j q * (Real.sqrt (deg a j))⁻¹)) * (Real.sqrt (deg a i))⁻¹, ?_, ?_⟩
    · rw [scaledChain, hs]
      funext i q
      exact scaledStep_coe a c i q
    · rw [normalizedChain, hn, ← step_eq_coe]
      funext i q
      exact scaledStep_coe a c i q

/-- With every entry of `A` and of `E` a real number, the chain that scales rows by the reciprocal square root
    of the clamped row sum before and after each product equals the chain that multiplies by the normalized
    matrix. -/
theorem chain_eq (A : Fin n → Fin n → EReal) (E : Fin n → Fin d → EReal)
    (hA : ∀ i j, ∃ a : ℝ, A i j = (a : EReal)) (hE : ∀ i q, ∃ e : ℝ, E i q = (e : EReal)) (k : ℕ) :
    scaledChain A E k = normalizedChain A E k := by
  choose a ha using hA
  choose e he using hE
  obtain rfl : A = fun i j => (a i j : EReal) := by funext i j; exact ha i j
  obtain rfl : E = fun i q => (e i q : EReal) := by funext i q; exact he i q
  obtain ⟨c, hs, hn⟩ := chain_coe a e k
  rw [hs, hn]

/-- The sums of the first four iterates of the two chains agree. -/
theorem accum_chain_eq (A : Fin n → Fin n → EReal) (E : Fin n → Fin d → EReal)
    (hA : ∀ i j, ∃ a : ℝ, A i j = (a : EReal)) (hE : ∀ i q, ∃ e : ℝ, E i q = (e : EReal)) :
    accum (scaledChain A E) = accum (normalizedChain A E) := by
  funext i q
  simp only [accum, chain_eq A E hA hE]

end Cert.Propagation

end
-- ==== Proof.LibScatterSet.lean ====
/-
  A scatter whose body returns the update (a scatter that SETS) only moves elements around: every element of its result
  is an element of the operand or an element of the updates. It is stated as an induction principle: a predicate that
  holds of every operand element and of every update element holds of every element of the result. The scatter is a left
  fold over the update positions, each step either keeping the array or replacing one element by an update's element, so
  the predicate is carried along the fold.
-/
import Idealize.ShloMosaic.PureOps.ShapeOps

namespace Idealize.ShloMosaic

/-- A predicate true of every operand element and of every update element is true of every element of a scatter whose
body returns the update. -/
theorem Host.scatter_set_induction {s si u : Shape} {w : Nat} {α : Type} (P : α → Prop) (d : ScatterDims s si u)
    (x : s.Idx → α) (idx : IVec si w) (upd : u.Idx → α) (hx : ∀ i, P (x i)) (hu : ∀ j, P (upd j)) (i : s.Idx) :
    P (Host.scatter d (fun _ b => b) x idx upd i) := by
  unfold Host.scatter
  generalize List.finRange u.numel = l
  induction l generalizing x with
  | nil => exact hx i
  | cons n l ih =>
    rw [List.foldl_cons]
    apply ih
    intro i'
    generalize d.resultIdx? (u.rowMajor.symm n) idx = o
    cases o with
    | none => exact hx i'
    | some i₀ =>
      show P (if i' = i₀ then upd (u.rowMajor.symm n) else x i')
      split_ifs
      · exact hu _
      · exact hx _

end Idealize.ShloMosaic
-- ==== Proof.FloatWords.lean ====
/-
  Four float bit patterns as extended reals: the 32-bit pattern `0x3F800000` and the 16-bit (bfloat) pattern `0x3F80`
  both denote one (sign 0, biased exponent 127, significand 0), and the all-zero patterns denote zero.
-/
import Idealize.ShloMosaic.PureOps.Ideal.Laws

namespace Cert.FloatWords

open Idealize.ShloMosaic

/-- The 32-bit pattern `0x3F800000` denotes one. -/
theorem ofBits_f32_one : Ideal.ofBits .f32 0x3F800000#32 = 1 := by
  rw [show (1 : EReal) = ((1 : ℝ) : EReal) by norm_cast]
  simp [Ideal.ofBits, Ideal.ieee, -EReal.coe_mul]; norm_num

/-- The 32-bit all-zero pattern denotes zero. -/
theorem ofBits_f32_zero : Ideal.ofBits .f32 0x00000000#32 = 0 := Ideal.ofBits_zero_f32

/-- The bfloat pattern `0x3F80` denotes one. -/
theorem ofBits_bf16_one : Ideal.ofBits .bf16 0x3F80#16 = 1 := by
  rw [show (1 : EReal) = ((1 : ℝ) : EReal) by norm_cast]
  simp [Ideal.ofBits, Ideal.ieee, -EReal.coe_mul]; norm_num

/-- The bfloat all-zero pattern denotes zero. -/
theorem ofBits_bf16_zero : Ideal.ofBits .bf16 0x0000#16 = 0 := by simp [Ideal.ofBits, Ideal.ieee]

end Cert.FloatWords
-- ==== Proof.Adjacency.lean ====
/-
  The adjacency matrix the reference builds is real-valued. It is a matrix of zeros into which ones are written twice
  (once per edge direction) by a scatter whose body returns the update, so each of its entries is either an entry of
  the zero matrix or one of the written ones: zero or one, in either case a real number.
-/
import proofs.«147772_j36326833389965_2_alg».proof.Proof.Gen.ReferenceIdeal.Read
import proofs.«147772_j36326833389965_2_alg».proof.Proof.LibScatterSet
import proofs.«147772_j36326833389965_2_alg».proof.Proof.FloatWords

noncomputable section

namespace Cert.ReferenceIdeal.Adjacency

open Cert.ReferenceIdeal Cert.ReferenceIdeal.Gen Idealize.ShloMosaic Idealize.ShloMosaic.TcCoe Idealize.SL.Sem Idealize.ShloMosaic.StableHlo

/-- Every entry of the zero matrix is the real number zero. -/
theorem zeros_apply (i : S12000x12000.Idx) : Read.val_main_v0 (F := Ideal) i = ((0 : ℝ) : EReal) := by
  rw [Read.val_main_v0_apply, Read.val_main_cst_apply, Ideal.ofBits_def, Cert.FloatWords.ofBits_f32_zero, EReal.coe_zero]

/-- Every update of the first scatter is the real number one. -/
theorem ones_apply (k : S300000.Idx) : Read.val_main_v18 (F := Ideal) k = ((1 : ℝ) : EReal) := by
  rw [Read.val_main_v18_apply, Read.val_main_cst_3_apply, Ideal.ofBits_def, Cert.FloatWords.ofBits_f32_one, EReal.coe_one]

/-- Every update of the second scatter is the real number one. -/
theorem ones'_apply (k : S300000.Idx) : Read.val_main_v37 (F := Ideal) k = ((1 : ℝ) : EReal) := by
  rw [Read.val_main_v37_apply, Read.val_main_cst_8_apply, Ideal.ofBits_def, Cert.FloatWords.ofBits_f32_one, EReal.coe_one]

/-- Every entry of the adjacency matrix is zero or one. -/
theorem adj_zero_or_one (x0 : (⟨S2x300000, .i32⟩ : BufTy).Contents (Elt Ideal)) (i : S12000x12000.Idx) :
    Read.val_main_v38 (F := Ideal) x0 i = ((0 : ℝ) : EReal) ∨ Read.val_main_v38 (F := Ideal) x0 i = ((1 : ℝ) : EReal) := by
  unfold Read.val_main_v38
  refine Host.scatter_set_induction (fun e : EReal => e = ((0 : ℝ) : EReal) ∨ e = ((1 : ℝ) : EReal)) _ _ _ _ ?_ ?_ i
  · intro i'
    unfold Read.val_main_v19
    refine Host.scatter_set_induction (fun e : EReal => e = ((0 : ℝ) : EReal) ∨ e = ((1 : ℝ) : EReal)) _ _ _ _ ?_ ?_ i'
    · intro i''; exact Or.inl (zeros_apply i'')
    · intro k; exact Or.inr (ones_apply k)
  · intro k; exact Or.inr (ones'_apply k)

/-- Every entry of the adjacency matrix is a real number. -/
theorem adj_real (x0 : (⟨S2x300000, .i32⟩ : BufTy).Contents (Elt Ideal)) (i : S12000x12000.Idx) :
    ∃ a : ℝ, Read.val_main_v38 (F := Ideal) x0 i = (a : EReal) := by
  rcases adj_zero_or_one x0 i with h | h
  · exact ⟨0, h⟩
  · exact ⟨1, h⟩

end Cert.ReferenceIdeal.Adjacency

end
-- ==== Proof.AdjacencyBridge.lean ====
/-
  The adjacency array and the stacked embedding table are the same arrays in the kernel program and in the reference.

  Both programs build the adjacency from the edge list by the same integer index computation (the two rows of the edge
  list, negative indices wrapped by the number of nodes, paired into a list of (row, column) positions) and the same two
  writes of the constant one into a background of zeros, first at the (source, target) positions and then at the
  (target, source) positions. They differ only in the float format the constants zero and one are written in, sixteen-bit
  in the kernel program and thirty-two-bit in the reference; over the extended reals both formats' patterns denote the
  numbers zero and one, so the two arrays are equal. The stacked embedding table is the same concatenation in both.

  The kernel program's first fifty host operations are folded over a valuation of the buffers; the fold is read through
  typed references, at each reference's value type, so that the value each operation writes is the operation's function
  of the values its operands hold, with no transport between equal types left in the term.
-/
import proofs.«147772_j36326833389965_2_alg».proof.Proof.Gen.KernelIdeal.Launch
import proofs.«147772_j36326833389965_2_alg».proof.Proof.Gen.ReferenceIdeal.Read
import proofs.«147772_j36326833389965_2_alg».proof.Proof.FloatWords
import Idealize.ShloMosaic.Lib.StableHlo.Run

noncomputable section

namespace Cert.AdjacencyBridge

open Idealize.ShloMosaic Idealize.ShloMosaic.TcCoe Idealize.ShloMosaic.StableHlo Idealize.SL.Sem

/-! ## Reading a valuation at a typed reference -/

section Read

variable {τ : Topo} {sig : RefSig} {Val : EltTy → Type} {T Tx Ta Tb Tc Ty Tz : BufTy}

/-- What a valuation holds at a typed reference, at the reference's value type. -/
def rd (x : TRef sig T) (F : Valuation τ sig Val) : T.Contents Val := x.ofBuf (F (Proc.devRef .tc x.ref))

/-- Transport to the buffer's type and back is the identity. -/
theorem ofBuf_toBuf (y : TRef sig T) (v : T.Contents Val) : y.ofBuf (y.toBuf v) = v := by
  obtain ⟨r, rfl, h2, h3⟩ := y; rfl

/-! An operation's result, read at the reference it writes, is its function of its operands' values. -/

theorem rd_nullary (y : TRef sig Ty) (v : Ty.Contents Val) (F : Valuation τ sig Val) :
    rd y ((TRef.nullary (τ := τ) y v).result F) = v :=
  (congrArg y.ofBuf (nullary_result y.ref (y.toBuf v) y.dev F)).trans (ofBuf_toBuf y v)

theorem rd_unary (x : TRef sig Tx) (y : TRef sig Ty) (f : Tx.Contents Val → Ty.Contents Val) (F : Valuation τ sig Val) :
    rd y ((TRef.unary (τ := τ) x y f).result F) = f (rd x F) :=
  (congrArg y.ofBuf (unary_result x.ref y.ref _ x.dev y.dev F)).trans (ofBuf_toBuf y _)

theorem rd_binary (a : TRef sig Ta) (b : TRef sig Tb) (y : TRef sig Ty)
    (f : Ta.Contents Val → Tb.Contents Val → Ty.Contents Val) (F : Valuation τ sig Val) :
    rd y ((TRef.binary (τ := τ) a b y f).result F) = f (rd a F) (rd b F) :=
  (congrArg y.ofBuf (binary_result a.ref b.ref y.ref _ a.dev b.dev y.dev F)).trans (ofBuf_toBuf y _)

theorem rd_ternary (c : TRef sig Tc) (a : TRef sig Ta) (b : TRef sig Tb) (y : TRef sig Ty)
    (f : Tc.Contents Val → Ta.Contents Val → Tb.Contents Val → Ty.Contents Val) (F : Valuation τ sig Val) :
    rd y ((TRef.ternary (τ := τ) c a b y f).result F) = f (rd c F) (rd a F) (rd b F) :=
  (congrArg y.ofBuf (ternary_result c.ref a.ref b.ref y.ref _ c.dev a.dev b.dev y.dev F)).trans (ofBuf_toBuf y _)

theorem rd_reshape (x : TRef sig Tx) (y : TRef sig Ty) (he : Tx.elt = Ty.elt) (hn : Tx.shape.ShapeCasts Ty.shape)
    (F : Valuation τ sig Val) :
    rd y ((TRef.reshape (τ := τ) (Val := Val) x y he hn).result F)
      = fun i => he ▸ shapeCast Ty.shape (rd x F) hn i := by
  obtain ⟨rx, rfl, hx2, hx3⟩ := x
  obtain ⟨ry, rfl, hy2, hy3⟩ := y
  exact reshape_result rx ry he hn _ _ F

/-! Read at any other reference, an operation's result is what was there before. -/

theorem rd_nullary_ne (z : TRef sig Tz) (y : TRef sig Ty) (v : Ty.Contents Val) (F : Valuation τ sig Val)
    (h : z.ref ≠ y.ref) : rd z ((TRef.nullary (τ := τ) y v).result F) = rd z F :=
  congrArg z.ofBuf (nullary_result_ne y.ref _ y.dev F h)

theorem rd_unary_ne (z : TRef sig Tz) (x : TRef sig Tx) (y : TRef sig Ty) (f : Tx.Contents Val → Ty.Contents Val)
    (F : Valuation τ sig Val) (h : z.ref ≠ y.ref) : rd z ((TRef.unary (τ := τ) x y f).result F) = rd z F :=
  congrArg z.ofBuf (unary_result_ne x.ref y.ref _ x.dev y.dev F h)

theorem rd_binary_ne (z : TRef sig Tz) (a : TRef sig Ta) (b : TRef sig Tb) (y : TRef sig Ty)
    (f : Ta.Contents Val → Tb.Contents Val → Ty.Contents Val) (F : Valuation τ sig Val) (h : z.ref ≠ y.ref) :
    rd z ((TRef.binary (τ := τ) a b y f).result F) = rd z F :=
  congrArg z.ofBuf (binary_result_ne a.ref b.ref y.ref _ a.dev b.dev y.dev F h)

theorem rd_ternary_ne (z : TRef sig Tz) (c : TRef sig Tc) (a : TRef sig Ta) (b : TRef sig Tb) (y : TRef sig Ty)
    (f : Tc.Contents Val → Ta.Contents Val → Tb.Contents Val → Ty.Contents Val) (F : Valuation τ sig Val)
    (h : z.ref ≠ y.ref) : rd z ((TRef.ternary (τ := τ) c a b y f).result F) = rd z F :=
  congrArg z.ofBuf (ternary_result_ne a.ref b.ref c.ref y.ref _ c.dev a.dev b.dev y.dev F h)

theorem rd_reshape_ne (z : TRef sig Tz) (x : TRef sig Tx) (y : TRef sig Ty) (he : Tx.elt = Ty.elt)
    (hn : Tx.shape.ShapeCasts Ty.shape) (F : Valuation τ sig Val) (h : z.ref ≠ y.ref) :
    rd z ((TRef.reshape (τ := τ) (Val := Val) x y he hn).result F) = rd z F :=
  congrArg z.ofBuf (reshape_result_ne x.ref y.ref _ _ x.dev y.dev F h)

end Read

/-! ## The adjacency array as a function of its constants -/

/-- A concatenation of two pieces as a function of the two pieces. -/
def concat2 {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

theorem concatenate_pair {α : Type} (t : Shape) (a : Fin t.rank) (s₁ s₂ : Shape) (x : s₁.Idx → α) (y : s₂.Idx → α)
    (h : Shape.Concatenates [s₁, s₂] t a) :
    concatenate t a [⟨s₁, x⟩, ⟨s₂, y⟩] h = concat2 t a s₁ s₂ h x y := rfl

/-- The adjacency array as a function of the three scalar constants it is built from (the background value and the
    two written values) and of the edge list: a background array, written at the edges' (source, target) positions,
    then at their (target, source) positions. -/
def adjOf (z o₁ o₂ : Cert.KernelIdeal.S_.Idx → EReal) (x0 : IVec Cert.KernelIdeal.S2x300000 32) :
    Cert.KernelIdeal.S12000x12000.Idx → EReal :=
  Host.scatter Cert.KernelIdeal.scatter_S12000x12000_S300000x2_S300000_n_01_01_1 (fun _ b => b)
    (Host.scatter Cert.KernelIdeal.scatter_S12000x12000_S300000x2_S300000_n_01_01_1 (fun _ b => b)
      (broadcastInDim Cert.KernelIdeal.S12000x12000 ![] Cert.KernelIdeal.Gen.bcast_S_S12000x12000 z)
      (Cert.ReferenceIdeal.Read.val_main_v17 (F := Ideal) x0)
      (broadcastInDim Cert.KernelIdeal.S300000 ![] Cert.KernelIdeal.Gen.bcast_S_S300000 o₁))
    (Cert.ReferenceIdeal.Read.val_main_v36 (F := Ideal) x0)
    (broadcastInDim Cert.KernelIdeal.S300000 ![] Cert.KernelIdeal.Gen.bcast_S_S300000 o₂)

/-- The reference's adjacency is `adjOf` at the thirty-two-bit patterns of zero and one. -/
theorem ref_side (x0 : IVec Cert.KernelIdeal.S2x300000 32) :
    @Eq (Cert.KernelIdeal.S12000x12000.Idx → EReal)
      (Cert.ReferenceIdeal.Read.val_main_v38 (F := Ideal) x0)
      (adjOf (constant (F := Ideal) Cert.KernelIdeal.S_ .f32 0x00000000#32)
        (constant (F := Ideal) Cert.KernelIdeal.S_ .f32 0x3F800000#32)
        (constant (F := Ideal) Cert.KernelIdeal.S_ .f32 0x3F800000#32) x0) := by
  unfold Cert.ReferenceIdeal.Read.val_main_v38 Cert.ReferenceIdeal.Read.val_main_v19 Cert.ReferenceIdeal.Read.val_main_v0
    Cert.ReferenceIdeal.Read.val_main_v18 Cert.ReferenceIdeal.Read.val_main_v37 Cert.ReferenceIdeal.Read.val_main_cst
    Cert.ReferenceIdeal.Read.val_main_cst_3 Cert.ReferenceIdeal.Read.val_main_cst_8 adjOf
  rfl

set_option maxRecDepth 16384 in
/-- The kernel program's adjacency after its first fifty host operations, read at its value type, is `adjOf` at the
    sixteen-bit patterns of zero and one: the fold, operation by operation, then the index computations side by
    side. -/
theorem kernel_rd (V : Valuation Cert.KernelIdeal.τ Cert.KernelIdeal.sig (Elt Ideal)) :
    @Eq (Cert.KernelIdeal.S12000x12000.Idx → EReal)
      (rd (TRef.of Cert.KernelIdeal.main_call0_v38 : TRef Cert.KernelIdeal.sig ⟨Cert.KernelIdeal.S12000x12000, .bf16⟩)
        (StableHlo.after (List.take 50 (Cert.KernelIdeal.Gen.hostOps0 (F := Ideal))) V))
      (adjOf (constant (F := Ideal) Cert.KernelIdeal.S_ .bf16 0x0000#16)
        (constant (F := Ideal) Cert.KernelIdeal.S_ .bf16 0x3F80#16)
        (constant (F := Ideal) Cert.KernelIdeal.S_ .bf16 0x3F80#16)
        (rd (TRef.of Cert.KernelIdeal.main_arg0 : TRef Cert.KernelIdeal.sig ⟨Cert.KernelIdeal.S2x300000, .i32⟩) V)) := by
  simp only [Cert.KernelIdeal.Gen.hostOps0, List.take_succ_cons, List.take_zero]
  simp (disch := decide) only [after_cons, after_nil, rd_nullary, rd_unary, rd_binary, rd_ternary, rd_reshape,
    rd_nullary_ne, rd_unary_ne, rd_binary_ne, rd_ternary_ne, rd_reshape_ne, concatenate_pair]
  rfl

/-- Reading at a literal reference of the stated type is reading the buffer. -/
theorem rd_v38 (F : Valuation Cert.KernelIdeal.τ Cert.KernelIdeal.sig (Elt Ideal)) :
    @Eq (Cert.KernelIdeal.S12000x12000.Idx → EReal)
      (rd (TRef.of Cert.KernelIdeal.main_call0_v38 : TRef Cert.KernelIdeal.sig ⟨Cert.KernelIdeal.S12000x12000, .bf16⟩) F)
      (F (Proc.devRef .tc Cert.KernelIdeal.main_call0_v38)) := rfl

theorem rd_arg0 (F : Valuation Cert.KernelIdeal.τ Cert.KernelIdeal.sig (Elt Ideal)) :
    @Eq (IVec Cert.KernelIdeal.S2x300000 32)
      (rd (TRef.of Cert.KernelIdeal.main_arg0 : TRef Cert.KernelIdeal.sig ⟨Cert.KernelIdeal.S2x300000, .i32⟩) F)
      (F (Proc.devRef .tc Cert.KernelIdeal.main_arg0)) := rfl

/-- The sixteen-bit and the thirty-two-bit all-zero patterns denote the same number, zero. -/
theorem const_zero :
    @Eq (Cert.KernelIdeal.S_.Idx → EReal) (constant (F := Ideal) Cert.KernelIdeal.S_ .bf16 0x0000#16)
      (constant (F := Ideal) Cert.KernelIdeal.S_ .f32 0x00000000#32) := by
  funext i
  show Ideal.ofBits .bf16 0x0000#16 = Ideal.ofBits .f32 0x00000000#32
  rw [Cert.FloatWords.ofBits_bf16_zero, Cert.FloatWords.ofBits_f32_zero]

/-- The sixteen-bit and the thirty-two-bit patterns of one denote the same number, one. -/
theorem const_one :
    @Eq (Cert.KernelIdeal.S_.Idx → EReal) (constant (F := Ideal) Cert.KernelIdeal.S_ .bf16 0x3F80#16)
      (constant (F := Ideal) Cert.KernelIdeal.S_ .f32 0x3F800000#32) := by
  funext i
  show Ideal.ofBits .bf16 0x3F80#16 = Ideal.ofBits .f32 0x3F800000#32
  rw [Cert.FloatWords.ofBits_bf16_one, Cert.FloatWords.ofBits_f32_one]

/-! ## The bridges -/

/-- After the kernel program's first fifty host operations its adjacency buffer holds the reference's adjacency of
    the edge list. -/
theorem adj_bridge (V : Valuation Cert.KernelIdeal.τ Cert.KernelIdeal.sig (Elt Ideal)) :
    @Eq (Cert.KernelIdeal.S12000x12000.Idx → EReal)
      (StableHlo.after (List.take 50 (Cert.KernelIdeal.Gen.hostOps0 (F := Ideal))) V (Proc.devRef .tc Cert.KernelIdeal.main_call0_v38))
      (Cert.ReferenceIdeal.Read.val_main_v38 (F := Ideal) (V (Proc.devRef .tc Cert.KernelIdeal.main_arg0))) := by
  have h := kernel_rd V
  rw [rd_v38, rd_arg0, const_zero, const_one] at h
  rw [ref_side]
  exact h

/-- No host operation writes the second argument. -/
theorem take_arg1 (V : Valuation Cert.KernelIdeal.τ Cert.KernelIdeal.sig (Elt Ideal)) :
    StableHlo.after (List.take 50 (Cert.KernelIdeal.Gen.hostOps0 (F := Ideal))) V (Proc.devRef .tc Cert.KernelIdeal.main_arg1)
      = V (Proc.devRef .tc Cert.KernelIdeal.main_arg1) := by
  simp only [Cert.KernelIdeal.Gen.hostOps0, List.take_succ_cons, List.take_zero]
  after_results_simp

/-- No host operation writes the third argument. -/
theorem take_arg2 (V : Valuation Cert.KernelIdeal.τ Cert.KernelIdeal.sig (Elt Ideal)) :
    StableHlo.after (List.take 50 (Cert.KernelIdeal.Gen.hostOps0 (F := Ideal))) V (Proc.devRef .tc Cert.KernelIdeal.main_arg2)
      = V (Proc.devRef .tc Cert.KernelIdeal.main_arg2) := by
  simp only [Cert.KernelIdeal.Gen.hostOps0, List.take_succ_cons, List.take_zero]
  after_results_simp

/-- The stacked embedding table is the same concatenation in both programs. -/
theorem emb_bridge (x1 : FVec Ideal Cert.KernelIdeal.S8000x64 .f32) (x2 : FVec Ideal Cert.KernelIdeal.S4000x64 .f32) :
    @Eq (Cert.KernelIdeal.S12000x64.Idx → EReal)
      (concatenate Cert.KernelIdeal.S12000x64 0 [⟨Cert.KernelIdeal.S8000x64, x1⟩, ⟨Cert.KernelIdeal.S4000x64, x2⟩] Cert.KernelIdeal.Gen.concatenates_S8000x64_S4000x64_S12000x64_d0)
      (Cert.ReferenceIdeal.Read.val_main_v48 (F := Ideal) x1 x2) := by
  unfold Cert.ReferenceIdeal.Read.val_main_v48
  rfl

end Cert.AdjacencyBridge

end
-- ==== Proof.FiniteInputs.lean ====
import proofs.«147772_j36326833389965_2_alg».proof.Pre_finite_inputs
import proofs.«147772_j36326833389965_2_alg».proof.Proof.Gen.Pre_finite_inputs
import Idealize.ShloMosaic.Lib.ReduceAll
import Idealize.ShloMosaic.Lib.ValueIdx
import Idealize.ShloMosaic.Lib.IdealHost
import Idealize.ShloMosaic.PureOps.Ideal.Laws

/-!
  Finiteness of the float inputs, read back from the precondition.

  The precondition computes, for each float input `x`, the conjunction over all entries of
  `|x i| < +∞`, and states that the conjunction of the two results is true. On the extended reals
  `|x| = max x (-x)`, and `max x (-x) < ⊤` excludes both `⊤` and `⊥`, so every entry is a real number.
-/

namespace Cert.FiniteInputs

open Idealize.ShloMosaic

/-- The single-precision pattern with all exponent bits set and a zero significand is `+∞`. -/
theorem ofBits_inf : Ideal.ofBits .f32 0x7F800000#32 = (⊤ : EReal) := by
  simp [Ideal.ofBits, Ideal.ieee]

/-- An extended real whose absolute value `max x (-x)` is below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One entry: if the comparison `|a i| < +∞` (against the broadcast scalar `+∞`) holds, `a i` is real. -/
theorem real_of_cmp {S : Shape} (a : FVec Ideal S .f32)
    (hb : Cert.Pre_finite_inputs.S_.BroadcastsInDim S (![] : Fin 0 → Fin S.rank)) (i : S.Idx)
    (h : cmpf .olt (Host.absf a)
      (broadcastInDim S ![] hb (constant (F := Ideal) Cert.Pre_finite_inputs.S_ .f32 0x7F800000#32)) i = 1#1) :
    ∃ r : ℝ, a i = (r : EReal) := by
  rw [ValueIdx.cmpf_apply, ValueIdx.broadcastInDim_scalar_apply, ValueIdx.constant_apply, ofBits_inf] at h
  apply real_of_abs_lt_top
  have h' : BitVec.ofBool (decide (max (a i) (-(a i)) < ⊤)) = 1#1 := h
  by_cases hlt : max (a i) (-(a i)) < ⊤
  · exact hlt
  · rw [decide_eq_false hlt] at h'; exact absurd h' (by decide)

instance : Subsingleton Cert.Pre_finite_inputs.S_.Idx := ⟨fun a b => funext fun d => d.elim0⟩

theorem real_of_pre (a0 : IVec Cert.Pre_finite_inputs.S2x300000 32)
    (a1 : FVec Ideal Cert.Pre_finite_inputs.S8000x64 .f32) (a2 : FVec Ideal Cert.Pre_finite_inputs.S4000x64 .f32)
    (h : @Cert.Pre_finite_inputs.fn Cert.Pre_finite_inputs.Gen.facts Ideal _ a0 a1 a2 = fun _ => 1#1) :
    (∀ i, ∃ r : ℝ, a1 i = (r : EReal)) ∧ (∀ i, ∃ r : ℝ, a2 i = (r : EReal)) := by
  have h0 := congrFun h ValueIdx.ix0
  dsimp only [Cert.Pre_finite_inputs.fn] at h0
  obtain ⟨h1, h2⟩ := IntOp.andi_eq_one.1 h0
  exact ⟨fun i => real_of_cmp a1 _ i (Host.reduce_andi_all _ _ _ _ _ h1 i),
    fun i => real_of_cmp a2 _ i (Host.reduce_andi_all _ _ _ _ _ h2 i)⟩

end Cert.FiniteInputs
-- ==== Proof.Bridge.lean ====
/-
  The two idealized programs compute the same arrays.

  The kernel program's two results are the two row blocks of `(E + c₁ + c₂ + c₃) / 4` where `cₖ` iterates
  "scale rows by deg^(-1/2), multiply by the adjacency, scale rows by deg^(-1/2)"; the reference's are the same blocks
  with `cₖ` iterating "multiply by the adjacency divided by sqrt(deg i) sqrt(deg j)". The adjacency is the same array
  in both (the same scatters of ones into zeros, in two float formats that read alike), and so are the stacked
  tables. Every adjacency entry is zero or one and, under the precondition, every table entry is finite, so all the
  quantities are real numbers and the two iterations agree (the law `Cert.Propagation.accum_chain_eq`).
-/
import proofs.«147772_j36326833389965_2_alg».proof.Defs
import proofs.«147772_j36326833389965_2_alg».proof.Proof.KernelValue
import proofs.«147772_j36326833389965_2_alg».proof.Proof.RefValue
import proofs.«147772_j36326833389965_2_alg».proof.Proof.EmbReal
import proofs.«147772_j36326833389965_2_alg».proof.Proof.PropagationLaw
import proofs.«147772_j36326833389965_2_alg».proof.Proof.Adjacency
import proofs.«147772_j36326833389965_2_alg».proof.Proof.AdjacencyBridge
import proofs.«147772_j36326833389965_2_alg».proof.Proof.FiniteInputs
import proofs.«147772_j36326833389965_2_alg».proof.Proof.Gen.Pre_finite_inputs

set_option maxRecDepth 16384

noncomputable section

namespace Cert.Bridge

open Idealize.ShloMosaic Idealize.ShloMosaic.TcCoe Idealize.ShloMosaic.ValueIdx Idealize.ShloMosaic.StableHlo
open Idealize.SL.Sem
open Cert.KernelIdeal.Gen Cert.KernelIdeal.HostFold Cert.KernelIdeal.Stretches Cert.KernelIdeal.KernelValue
open Cert.ReferenceIdeal.RefValue Cert.Propagation

variable (m : (ℓ : Loc Cert.KernelIdeal.nD Cert.KernelIdeal.τ Cert.KernelIdeal.sig) → Buf (Elt Ideal) ℓ) (ρ : Dev Cert.KernelIdeal.nD → PrngReg) (c : Dev Cert.KernelIdeal.nD)

/-- The three argument arrays as launched. -/
abbrev X0 : (⟨Cert.ReferenceIdeal.S2x300000, .i32⟩ : BufTy).Contents (Elt Ideal) := (m ((c.tc : Thread Cert.KernelIdeal.nD Cert.KernelIdeal.τ).loc Cert.KernelIdeal.main_arg0))
abbrev X1 : (⟨Cert.ReferenceIdeal.S8000x64, .f32⟩ : BufTy).Contents (Elt Ideal) := (m ((c.tc : Thread Cert.KernelIdeal.nD Cert.KernelIdeal.τ).loc Cert.KernelIdeal.main_arg1))
abbrev X2 : (⟨Cert.ReferenceIdeal.S4000x64, .f32⟩ : BufTy).Contents (Elt Ideal) := (m ((c.tc : Thread Cert.KernelIdeal.nD Cert.KernelIdeal.τ).loc Cert.KernelIdeal.main_arg2))

/-- The kernel program's adjacency is the reference's. -/
theorem adj_eq : adjK m ρ c = adj (X0 m c) := by
  funext i j
  exact congrFun (Cert.AdjacencyBridge.adj_bridge (W0 m ρ c)) (ix2 i j)

/-- The kernel program's stacked table is the reference's. -/
theorem emb_eq : embK m ρ c = emb (X1 m c) (X2 m c) := by
  funext i q
  have h1 : Wa m ρ c (Proc.devRef .tc Cert.KernelIdeal.main_arg1) = X1 m c := Cert.AdjacencyBridge.take_arg1 (W0 m ρ c)
  have h2 : Wa m ρ c (Proc.devRef .tc Cert.KernelIdeal.main_arg2) = X2 m c := Cert.AdjacencyBridge.take_arg2 (W0 m ρ c)
  unfold embK
  dsimp only [embArr]
  rw [h1, h2]
  exact congrFun (Cert.AdjacencyBridge.emb_bridge (X1 m c) (X2 m c)) (ix2 i q)

/-- Under the precondition the running sum divided by four is the reference's. -/
theorem quotient_eq (hpre : Cert.Pre_KernelIdeal (hPre_finite_inputs := Cert.Pre_finite_inputs.Gen.facts) m) :
    quotientArr m ρ c = Cert.ReferenceIdeal.Read.val_main_v56 (F := Ideal) (X0 m c) (X1 m c) (X2 m c) := by
  funext j
  obtain ⟨i, q, rfl⟩ : ∃ (i : Fin 12000) (q : Fin 64), j = ix2 i q := ⟨j 0, j 1, eq_ix2 j⟩
  have hreal := Cert.FiniteInputs.real_of_pre (X0 m c) (X1 m c) (X2 m c) (hpre c)
  rw [quotient_apply, v56_apply, adj_eq, emb_eq,
    accum_chain_eq (adj (X0 m c)) (emb (X1 m c) (X2 m c))
      (fun i j => Cert.ReferenceIdeal.Adjacency.adj_real (X0 m c) (ix2 i j))
      (fun i q => emb_real (X1 m c) (X2 m c) hreal.1 hreal.2 i q)]

/-- The first result. -/
theorem out0_eq (hpre : Cert.Pre_KernelIdeal (hPre_finite_inputs := Cert.Pre_finite_inputs.Gen.facts) m) :
    @Eq (FVec Ideal Cert.KernelIdeal.S8000x64 .f32) (W7 m ρ c (Proc.devRef .tc Cert.KernelIdeal.main_v0_0))
      (Cert.ReferenceIdeal.Read.val_main_v57 (F := Ideal) (X0 m c) (X1 m c) (X2 m c)) :=
  (W7_out0 m ρ c).trans ((congrArg (fun x => extractStridedSlice Cert.KernelIdeal.S8000x64 ![0, 0] x Cert.KernelIdeal.Gen.slices_S12000x64_S8000x64_0_0)
    (quotient_eq m ρ c hpre)).trans (by unfold Cert.ReferenceIdeal.Read.val_main_v57; rfl))

/-- The second result. -/
theorem out1_eq (hpre : Cert.Pre_KernelIdeal (hPre_finite_inputs := Cert.Pre_finite_inputs.Gen.facts) m) :
    @Eq (FVec Ideal Cert.KernelIdeal.S4000x64 .f32) (W7 m ρ c (Proc.devRef .tc Cert.KernelIdeal.main_v0_1))
      (Cert.ReferenceIdeal.Read.val_main_v58 (F := Ideal) (X0 m c) (X1 m c) (X2 m c)) :=
  (W7_out1 m ρ c).trans ((congrArg (fun x => extractStridedSlice Cert.KernelIdeal.S4000x64 ![8000, 0] x Cert.KernelIdeal.Gen.slices_S12000x64_S4000x64_8000_0)
    (quotient_eq m ρ c hpre)).trans (by unfold Cert.ReferenceIdeal.Read.val_main_v58; rfl))

end Cert.Bridge

end
-- ==== Proof.lean ====
/-
  A dense-adjacency graph propagation, three layers, against its plain reference.

  Both programs build the 12000 × 12000 zero/one adjacency `A` from the edge list by two scatters, take the row sums
  clamped below by one as the degrees, stack the two embedding tables into `E`, and return the two row blocks of
  `(E + c₁ + c₂ + c₃) / 4`. The kernel program computes `cₖ₊₁ = D^(-1/2) (A (D^(-1/2) cₖ))`: a host stretch scales the
  rows of `cₖ` by the reciprocal square roots of the degrees, a kernel region multiplies row blocks of `A` by the
  scaled table, scales the rows of the product again and adds it to the running sum. The reference first forms
  `A i j / sqrt (deg i) / sqrt (deg j)` and multiplies by that matrix. Over the extended reals the two agree because every
  quantity is a real number: an adjacency entry is zero or one (a scatter of ones into zeros), a table entry is finite by
  the precondition, and a clamped degree is a real at least one, so its square root is positive and the reciprocal
  square root is its inverse; the identity `(∑ⱼ aᵢⱼ (cⱼ rⱼ)) rᵢ = ∑ⱼ (aᵢⱼ / sᵢ / sⱼ) cⱼ` with `r = 1/s` then holds in the
  reals, layer by layer.

  The three frames are the programs' generated runs (the reference's with its results dropped); the idealization
  rewrote nothing, so `preserves` is trivial; `algebraic` puts the kernel program's run with its results named beside
  the reference's run and identifies the results (`Cert.Bridge.out0_eq`, `out1_eq`).
-/
import proofs.«147772_j36326833389965_2_alg».proof.Defs
import proofs.«147772_j36326833389965_2_alg».proof.Proof.Gen.Kernel
import proofs.«147772_j36326833389965_2_alg».proof.Proof.Gen.Kernel.Frame
import proofs.«147772_j36326833389965_2_alg».proof.Proof.Gen.KernelIdeal
import proofs.«147772_j36326833389965_2_alg».proof.Proof.Gen.KernelIdeal.Frame
import proofs.«147772_j36326833389965_2_alg».proof.Proof.Gen.ReferenceIdeal
import proofs.«147772_j36326833389965_2_alg».proof.Proof.Gen.ReferenceIdeal.Run
import proofs.«147772_j36326833389965_2_alg».proof.Proof.Gen.ReferenceIdeal.Read
import proofs.«147772_j36326833389965_2_alg».proof.Proof.Gen.Pre_finite_inputs
import proofs.«147772_j36326833389965_2_alg».proof.Proof.KernelRun
import proofs.«147772_j36326833389965_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories agreeing on the three arguments both programs end with the same two result arrays: the kernel
    program's, named at its last boundary, are the reference's stages of the same arguments. -/
theorem algebraic : Cert.algebraic_KernelIdeal_ReferenceIdeal := by
  intro m ρ m' ρ' hpre hagree
  refine ⟨fun c => Cert.KernelIdeal.Gen.W7 m ρ c (Proc.devRef .tc Cert.KernelIdeal.main_v0_0),
    fun c => Cert.KernelIdeal.Gen.W7 m ρ c (Proc.devRef .tc Cert.KernelIdeal.main_v0_1),
    Cert.KernelIdeal.KernelRun.run_values m ρ, ?_⟩
  refine (θ_run Cert.ReferenceIdeal.defs _ _).mono (fun r h c => ?_) (Cert.ReferenceIdeal.Value.run (F := Ideal) m' ρ')
  obtain ⟨h0, h1, ha0, ha1, ha2⟩ := h c
  refine ⟨h0.trans ?_, h1.trans ?_, ha0, ha1, ha2⟩
  · rw [Cert.ReferenceIdeal.Read.val_main_v57_eq m' c, (hagree c).1, (hagree c).2.1, (hagree c).2.2]
    exact (Cert.Bridge.out0_eq m ρ c hpre).symm
  · rw [Cert.ReferenceIdeal.Read.val_main_v58_eq m' c, (hagree c).1, (hagree c).2.1, (hagree c).2.2]
    exact (Cert.Bridge.out1_eq m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
